-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S32x128 : Shape := ⟨2, ![32, 128]⟩
abbrev S32 : Shape := ⟨1, ![32]⟩
abbrev S32x32 : Shape := ⟨2, ![32, 32]⟩
abbrev S128x32 : Shape := ⟨2, ![128, 32]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S128x32 : S_.BroadcastsInDim S128x32 (![] : Fin 0 → Fin S128x32.rank)
  reducesTo_S128x32_S_d0_1 : S128x32.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S32 .f32) (main_arg8 : FVec F S128x32 .f32) (main_arg9 : FVec F S128 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S128x32 .f32 := Host.absf main_arg8
  let main_cst_14 : FVec F S_ .f32 := constant S_ .f32 0x7F800000#32
  let main_v40 : FVec F S128x32 .f32 := broadcastInDim S128x32 ![] bcast_S_S128x32 main_cst_14
  let main_v41 : IVec S128x32 1 := cmpf .olt main_v39 main_v40
  let main_c_15 : IVec S_ 1 := constantI S_ 1 1#1
  let main_v42 : IVec S_ 1 := (fun x v => Host.reduce IntOp.andi x v reducesTo_S128x32_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S32 .f32) (main_arg5 : FVec F S32 .f32) (main_arg6 : FVec F S32x32 .f32) (main_arg7 : FVec F S32 .f32) (main_arg8 : FVec F S128x32 .f32) (main_arg9 : FVec F S128 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S32x128 .f32) (main_arg3 : FVec F S32 .f32) (main_arg4 : FVec F S32 .f32) (main_arg5 : FVec F S32 .f32) (main_arg6 : FVec F S32x32 .f32) (main_arg7 : FVec F S32 .f32) (main_arg8 : FVec F S128x32 .f32) (main_arg9 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S32x128 .f32 := Host.absf main_arg2
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S32x128 : Shape := ⟨2, ![32, 128]⟩
abbrev S32 : Shape := ⟨1, ![32]⟩
abbrev S32x32 : Shape := ⟨2, ![32, 32]⟩
abbrev S128x32 : Shape := ⟨2, ![128, 32]⟩
abbrev S128 : Shape := ⟨1, ![128]⟩
abbrev S32x1 : Shape := ⟨2, ![32, 1]⟩
abbrev S1x128 : Shape := ⟨2, ![1, 128]⟩
abbrev S400x128 : Shape := ⟨2, ![400, 128]⟩
abbrev S400x10000 : Shape := ⟨2, ![400, 10000]⟩
abbrev S10000x32 : Shape := ⟨2, ![10000, 32]⟩
abbrev S32x10000 : Shape := ⟨2, ![32, 10000]⟩
abbrev S400x32 : Shape := ⟨2, ![400, 32]⟩

abbrev nBuf : Space → Nat
  | .hbm => 18
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S32x128, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S128x32, .f32⟩
  | .hbm, ⟨9, _⟩ => ⟨S128, .f32⟩
  | .hbm, ⟨10, _⟩ => ⟨S128x32, .f32⟩
  | .hbm, ⟨11, _⟩ => ⟨S32x128, .f32⟩
  | .hbm, ⟨12, _⟩ => ⟨S32x1, .f32⟩
  | .hbm, ⟨13, _⟩ => ⟨S32x1, .f32⟩
  | .hbm, ⟨14, _⟩ => ⟨S32x1, .f32⟩
  | .hbm, ⟨15, _⟩ => ⟨S32x1, .f32⟩
  | .hbm, ⟨16, _⟩ => ⟨S1x128, .f32⟩
  | .hbm, ⟨17, _⟩ => ⟨S1x128, .f32⟩
  | .local _ .vmem, ⟨0, _⟩ => ⟨S400x128, .f32⟩
  | .local _ .vmem, ⟨1, _⟩ => ⟨S400x128, .f32⟩
  | .local _ .vmem, ⟨2, _⟩ => ⟨S400x10000, .f32⟩
  | .local _ .vmem, ⟨3, _⟩ => ⟨S400x10000, .f32⟩
  | .local _ .vmem, ⟨4, _⟩ => ⟨S128x32, .f32⟩
  | .local _ .vmem, ⟨5, _⟩ => ⟨S32x1, .f32⟩
  | .local _ .vmem, ⟨6, _⟩ => ⟨S32x1, .f32⟩
  | .local _ .vmem, ⟨7, _⟩ => ⟨S32x1, .f32⟩
  | .local _ .vmem, ⟨8, _⟩ => ⟨S32x32, .f32⟩
  | .local _ .vmem, ⟨9, _⟩ => ⟨S32x1, .f32⟩
  | .local _ .vmem, ⟨10, _⟩ => ⟨S32x128, .f32⟩
  | .local _ .vmem, ⟨11, _⟩ => ⟨S1x128, .f32⟩
  | .local _ .vmem, ⟨12, _⟩ => ⟨S1x128, .f32⟩
  | .local _ .vmem, ⟨13, _⟩ => ⟨S10000x32, .f32⟩
  | .local _ .vmem, ⟨14, _⟩ => ⟨S32x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v5 : BitVec 32 := Scalar.muli arg0 c400_i32
  let v6 : Index := Scalar.indexCast v5
  let c0_5 : Index := 0#32
  ![v6.toNat, 0]
def k0_cond3 (i : grid0.Coords) : BitVec 1 :=
  let arg0 : BitVec 32 := BitVec.ofNat 32 (i 0).val
  let c24_i32 : BitVec 32 := 24#32
  let v17 : BitVec 1 := Scalar.cmpi .eq arg0 c24_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

class Facts₀ : Prop where
  transposes_S32x128_S128x32_1_0 : S32x128.Transposes [1, 0] S128x32
  transposes_S128x32_S32x128_1_0 : S128x32.Transposes [1, 0] S32x128
  shapeCasts_S32_S32x1 : S32.ShapeCasts S32x1
  shapeCasts_S128_S1x128 : S128.ShapeCasts S1x128
  inb_S400x128_S400x128_0_0 : ∀ a, (![0, 0] : Fin 2 → Nat) a + S400x128.size a ≤ S400x128.size a
  h_S400x128 : 0 < S400x128.numel
  inb_S400x10000_S400x10000_0_0 : ∀ a, (![0, 0] : Fin 2 → Nat) a + S400x10000.size a ≤ S400x10000.size a
  h_S400x10000 : 0 < S400x10000.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  h_S400x32 : 0 < S400x32.numel
  shapeCasts_S400x32_S400x32 : S400x32.ShapeCasts S400x32
  inb_S32x10000_S32x10000_0_0 : ∀ a, (![0, 0] : Fin 2 → Nat) a + S32x10000.size a ≤ S32x10000.size a
  h_S32x10000 : 0 < S32x10000.numel
  shapeCasts_S32x10000_S32x10000 : S32x10000.ShapeCasts S32x10000
  inb_S10000x32_S10000x32_0_0 : ∀ a, (![0, 0] : Fin 2 → Nat) a + S10000x32.size a ≤ S10000x32.size a
  h_S10000x32 : 0 < S10000x32.numel
  transposes_S10000x32_p1_0_S32x10000 : S10000x32.Transposes [1, 0] S32x10000
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x10000 : S32x1.Broadcasts S32x10000
  reduces_S32x10000_S32 : S32x10000.Reduces [1] S32
  inb_S32x32_S32x32_0_0 : ∀ a, (![0, 0] : Fin 2 → Nat) a + S32x32.size a ≤ S32x32.size a
  h_S32x32 : 0 < S32x32.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  dot_S400x128_S128x32_S400x32_1_0_0_1_n_n_wf : DotDims.WF S400x128 S128x32 S400x32 [1] [0] [0] [1] [] []
  dot_S400x32_S400x10000_S32x10000_0_0_1_1_n_n_wf : DotDims.WF S400x32 S400x10000 S32x10000 [0] [0] [1] [1] [] []
  dot_S32x32_S32x10000_S32x10000_1_0_0_1_n_n_wf : DotDims.WF S32x32 S32x10000 S32x10000 [1] [0] [0] [1] [] []
  dot_S32x1_S32x128_S1x128_0_0_1_1_n_n_wf : DotDims.WF S32x1 S32x128 S1x128 [0] [0] [1] [1] [] []
  hrank0 : 0 < grid0.rank
  k0_off1_inb : ∀ i : grid0.Coords, ∀ a, (k0_off1 i) a + S400x32.size a ≤ S10000x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S32x1.size a
  hwx0_5 : ∀ i : grid0.Coords, EltTy.bits .f32 = 32 ∨ (Rect.block (s := S32x1) S32x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x128.size a ≤ S32x128.size a
  hwx0_8 : ∀ i : grid0.Coords, EltTy.bits .f32 = 32 ∨ (Rect.block (s := S32x128) S32x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)

variable [Facts₀]

def dot_S400x128_S128x32_S400x32_1_0_0_1_n_n : DotDims S400x128 S128x32 S400x32 where
  lhsContracting := [1]
  rhsContracting := [0]
  lhsNonContracting := [0]
  rhsNonContracting := [1]
  lhsBatch := []
  rhsBatch := []
  wf := dot_S400x128_S128x32_S400x32_1_0_0_1_n_n_wf
def dot_S400x32_S400x10000_S32x10000_0_0_1_1_n_n : DotDims S400x32 S400x10000 S32x10000 where
  lhsContracting := [0]
  rhsContracting := [0]
  lhsNonContracting := [1]
  rhsNonContracting := [1]
  lhsBatch := []
  rhsBatch := []
  wf := dot_S400x32_S400x10000_S32x10000_0_0_1_1_n_n_wf
def dot_S32x32_S32x10000_S32x10000_1_0_0_1_n_n : DotDims S32x32 S32x10000 S32x10000 where
  lhsContracting := [1]
  rhsContracting := [0]
  lhsNonContracting := [0]
  rhsNonContracting := [1]
  lhsBatch := []
  rhsBatch := []
  wf := dot_S32x32_S32x10000_S32x10000_1_0_0_1_n_n_wf
def dot_S32x1_S32x128_S1x128_0_0_1_1_n_n : DotDims S32x1 S32x128 S1x128 where
  lhsContracting := [0]
  rhsContracting := [0]
  lhsNonContracting := [1]
  rhsNonContracting := [1]
  lhsBatch := []
  rhsBatch := []
  wf := dot_S32x1_S32x128_S1x128_0_0_1_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S32x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S32x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x128.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond3 i == 1#1) | ⟨_ + 11, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S32x128 : Shape := ⟨2, ![32, 128]⟩
abbrev S32 : Shape := ⟨1, ![32]⟩
abbrev S32x32 : Shape := ⟨2, ![32, 32]⟩
abbrev S128x32 : Shape := ⟨2, ![128, 32]⟩
abbrev S128 : Shape := ⟨1, ![128]⟩
abbrev S10000x32 : Shape := ⟨2, ![10000, 32]⟩
abbrev S1x32 : Shape := ⟨2, ![1, 32]⟩
abbrev S_ : Shape := ⟨0, ![]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S32x128, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S128x32, .f32⟩
  | .hbm, ⟨9, _⟩ => ⟨S128, .f32⟩
  | .hbm, ⟨10, _⟩ => ⟨S10000x10000, .f32⟩
  | .hbm, ⟨11, _⟩ => ⟨S10000x128, .f32⟩
  | .hbm, ⟨12, _⟩ => ⟨S10000x128, .f32⟩
  | .hbm, ⟨13, _⟩ => ⟨S128x32, .f32⟩
  | .hbm, ⟨14, _⟩ => ⟨S10000x32, .f32⟩
  | .hbm, ⟨15, _⟩ => ⟨S1x32, .f32⟩
  | .hbm, ⟨16, _⟩ => ⟨S10000x32, .f32⟩
  | .hbm, ⟨17, _⟩ => ⟨S10000x32, .f32⟩
  | .hbm, ⟨18, _⟩ => ⟨S_, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .i32⟩
  | .hbm, ⟨24, _⟩ => ⟨S_, .f32⟩
  | .hbm, ⟨25, _⟩ => ⟨S32, .f32⟩
  | .hbm, ⟨26, _⟩ => ⟨S1x32, .f32⟩
  | .hbm, ⟨27, _⟩ => ⟨S_, .f32⟩
  | .hbm, ⟨28, _⟩ => ⟨S1x32, .f32⟩
  | .hbm, ⟨29, _⟩ => ⟨S1x32, .f32⟩
  | .hbm, ⟨30, _⟩ => ⟨S10000x32, .f32⟩
  | .hbm, ⟨31, _⟩ => ⟨S10000x32, .f32⟩
  | .hbm, ⟨32, _⟩ => ⟨S10000x32, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S_, .i1⟩
  | .hbm, ⟨42, _⟩ => ⟨S_, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S1x32, .f32⟩
  | .hbm, ⟨47, _⟩ => ⟨S10000x32, .f32⟩
  | .hbm, ⟨48, _⟩ => ⟨S10000x32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S32, .f32⟩
  | .hbm, ⟨53, _⟩ => ⟨S1x32, .f32⟩
  | .hbm, ⟨54, _⟩ => ⟨S10000x32, .f32⟩
  | .hbm, ⟨55, _⟩ => ⟨S10000x32, .f32⟩
  | .hbm, ⟨56, _⟩ => ⟨S1x32, .f32⟩
  | .hbm, ⟨57, _⟩ => ⟨S10000x32, .f32⟩
  | .hbm, ⟨58, _⟩ => ⟨S10000x32, .f32⟩
  | .hbm, ⟨59, _⟩ => ⟨S1x32, .f32⟩
  | .hbm, ⟨60, _⟩ => ⟨S10000x32, .f32⟩
  | .hbm, ⟨61, _⟩ => ⟨S10000x32, .f32⟩
  | .hbm, ⟨62, _⟩ => ⟨S_, .f32⟩
  | .hbm, ⟨63, _⟩ => ⟨S10000x32, .f32⟩
  | .hbm, ⟨64, _⟩ => ⟨S10000x32, .f32⟩
  | .hbm, ⟨65, _⟩ => ⟨S32x32, .f32⟩
  | .hbm, ⟨66, _⟩ => ⟨S10000x32, .f32⟩
  | .hbm, ⟨67, _⟩ => ⟨S1x32, .f32⟩
  | .hbm, ⟨68, _⟩ => ⟨S10000x32, .f32⟩
  | .hbm, ⟨69, _⟩ => ⟨S10000x32, .f32⟩
  | .hbm, ⟨70, _⟩ => ⟨S_, .f32⟩
  | .hbm, ⟨71, _⟩ => ⟨S10000x32, .f32⟩
  | .hbm, ⟨72, _⟩ => ⟨S10000x32, .f32⟩
  | .hbm, ⟨73, _⟩ => ⟨S_, .f32⟩
  | .hbm, ⟨74, _⟩ => ⟨S32, .f32⟩
  | .hbm, ⟨75, _⟩ => ⟨S1x32, .f32⟩
  | .hbm, ⟨76, _⟩ => ⟨S_, .f32⟩
  | .hbm, ⟨77, _⟩ => ⟨S1x32, .f32⟩
  | .hbm, ⟨78, _⟩ => ⟨S1x32, .f32⟩
  | .hbm, ⟨79, _⟩ => ⟨S32x128, .f32⟩
  | .hbm, ⟨80, _⟩ => ⟨S1x128, .f32⟩
  | .hbm, ⟨81, _⟩ => ⟨S1x128, .f32⟩
  | .hbm, ⟨82, _⟩ => ⟨S1x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_cst_3 : Ref sig .tc := ⟨.hbm, 40, rfl⟩
abbrev main_call0_v12 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_cst_1 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_call1_cst : Ref sig .tc := ⟨.hbm, 62, rfl⟩
abbrev main_call1_v0 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_call2_cst : Ref sig .tc := ⟨.hbm, 70, rfl⟩
abbrev main_call2_v0 : Ref sig .tc := ⟨.hbm, 71, rfl⟩
abbrev main_v33 : Ref sig .tc := ⟨.hbm, 72, rfl⟩
abbrev main_cst_2 : Ref sig .tc := ⟨.hbm, 73, rfl⟩
abbrev main_v34 : Ref sig .tc := ⟨.hbm, 74, rfl⟩
abbrev main_v35 : Ref sig .tc := ⟨.hbm, 75, rfl⟩
abbrev main_cst_3 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩

abbrev nD : Nat := 1
abbrev τ : Topo := Topo.v7x

variable {F : FTy → Type} [FloatOps F]

class Facts₀ : Prop where
  transposes_S10000x10000_S10000x10000_1_0 : S10000x10000.Transposes [1, 0] S10000x10000
  transposes_S32x128_S128x32_1_0 : S32x128.Transposes [1, 0] S128x32
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  reducesTo_S10000x32_S32_d0 : S10000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  bcast_S_S10000x32 : S_.BroadcastsInDim S10000x32 (![] : Fin 0 → Fin S10000x32.rank)
  transposes_S32x32_S32x32_1_0 : S32x32.Transposes [1, 0] S32x32
  transposes_S128x32_S32x128_1_0 : S128x32.Transposes [1, 0] S32x128
  bcast_S128_S1x128_1 : S128.BroadcastsInDim S1x128 (![1] : Fin 1 → Fin S1x128.rank)
  dot_S10000x10000_S10000x128_S10000x128_1_0_0_1_n_n_wf : DotDims.WF S10000x10000 S10000x128 S10000x128 [1] [0] [0] [1] [] []
  dot_S10000x128_S128x32_S10000x32_1_0_0_1_n_n_wf : DotDims.WF S10000x128 S128x32 S10000x32 [1] [0] [0] [1] [] []
  dot_S10000x32_S32x32_S10000x32_1_0_0_1_n_n_wf : DotDims.WF S10000x32 S32x32 S10000x32 [1] [0] [0] [1] [] []
  dot_S1x32_S32x128_S1x128_1_0_0_1_n_n_wf : DotDims.WF S1x32 S32x128 S1x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S1x32_S32x128_S1x128_1_0_0_1_n_n : DotDims S1x32 S32x128 S1x128 where
  lhsContracting := [1]
  rhsContracting := [0]
  lhsNonContracting := [0]
  rhsNonContracting := [1]
  lhsBatch := []
  rhsBatch := []
  wf := dot_S1x32_S32x128_S1x128_1_0_0_1_n_n_wf

class Facts : Prop extends Facts₀ where

variable [Facts]
-- ==== Proof.KRuns.lean ====
/-
  The kernel body run once per case of its three conditionals, on any staging buffers: at the first grid point the
  accumulator of aggregated projections is stored whole; at every later point the new block's contribution is added to
  it; at the last point the closing stage (normalise, rectify, second layer, rectify, average, last layer) is also run
  and its row of results stored. At every point the block of projected rows is stored into rows 400·k … 400·k + 399 of
  the buffer of projections. Each run names, as a list of stored pieces, what it leaves in the buffer of projections, in
  the accumulator and, at the last point, in the result row's buffer.
-/
import proofs.«108040_g76570676953656_cont_sun_m_424_5_alg».proof.Proof.Gen.KernelIdeal.Frame
import proofs.«108040_g76570676953656_cont_sun_m_424_5_alg».proof.Proof.Gen.KernelIdeal.Skeleton

set_option maxRecDepth 16384

noncomputable section

namespace Cert.GinKernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional's test: the grid coordinate is 0. -/
abbrev condFirst (i : grid0.Coords) : Prop := (Scalar.cmpi .ne (Scalar.extui (Scalar.cmpi .eq (BitVec.ofNat 32 (i 0).val) 0#32)) 0#32) = 1#1
/-- The second conditional's test: the grid coordinate is positive. -/
abbrev condLater (i : grid0.Coords) : Prop := (Scalar.cmpi .ne (Scalar.extui (Scalar.cmpi .sgt (BitVec.ofNat 32 (i 0).val) 0#32)) 0#32) = 1#1
/-- The third conditional's test: the grid coordinate is 24, the last. -/
abbrev condLast (i : grid0.Coords) : Prop := k0_cond3 i = 1#1

theorem condFirst_iff : ∀ t : Fin cfg0.N, condFirst (grid0.coords t) ↔ t.val = 0 :=
  (by decide +kernel : ∀ t : Fin grid0.N, condFirst (grid0.coords t) ↔ t.val = 0)
theorem condLater_iff : ∀ t : Fin cfg0.N, condLater (grid0.coords t) ↔ 1 ≤ t.val :=
  (by decide +kernel : ∀ t : Fin grid0.N, condLater (grid0.coords t) ↔ 1 ≤ t.val)
theorem condLast_iff : ∀ t : Fin cfg0.N, condLast (grid0.coords t) ↔ t.val = 24 :=
  (by decide +kernel : ∀ t : Fin grid0.N, condLast (grid0.coords t) ↔ t.val = 24)

section Runs

variable (c : Dev nD) (i : grid0.Coords)
  (arg1 : Memref sig .tc .vmem S400x128 .f32) (harg1 : arg1.IsWhole) (arg2 : Memref sig .tc .vmem S400x10000 .f32) (harg2 : arg2.IsWhole)
  (arg3 : Memref sig .tc .vmem S128x32 .f32) (harg3 : arg3.IsWhole) (arg4 : Memref sig .tc .vmem S32x1 .f32) (harg4 : arg4.IsWhole)
  (arg5 : Memref sig .tc .vmem S32x1 .f32) (harg5 : arg5.IsWhole) (arg6 : Memref sig .tc .vmem S32x1 .f32) (harg6 : arg6.IsWhole)
  (arg7 : Memref sig .tc .vmem S32x32 .f32) (harg7 : arg7.IsWhole) (arg8 : Memref sig .tc .vmem S32x1 .f32) (harg8 : arg8.IsWhole)
  (arg9 : Memref sig .tc .vmem S32x128 .f32) (harg9 : arg9.IsWhole) (arg10 : Memref sig .tc .vmem S1x128 .f32) (harg10 : arg10.IsWhole)
  (arg11 : Memref sig .tc .vmem S1x128 .f32) (harg11 : arg11.IsWhole) (arg12 : Memref sig .tc .vmem S10000x32 .f32) (harg12 : arg12.IsWhole)
  (arg13 : Memref sig .tc .vmem S32x10000 .f32) (harg13 : arg13.IsWhole)
  (x0 : Vec F S400x128 .f32) (x1 : Vec F S400x10000 .f32) (x2 : Vec F S128x32 .f32) (x3 : Vec F S32x1 .f32) (x4 : Vec F S32x1 .f32)
  (x5 : Vec F S32x1 .f32) (x6 : Vec F S32x32 .f32) (x7 : Vec F S32x1 .f32) (x8 : Vec F S32x128 .f32) (x9 : Vec F S1x128 .f32)
  (xo : Vec F S1x128 .f32) (ys : Vec F S10000x32 .f32) (zs : Vec F S32x10000 .f32)

/-- The ten input buffers at their blocks: what every run is handed and hands back unchanged. -/
abbrev inputsOwned : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9)

set_option maxHeartbeats 1000000 in
/-- The body at the first grid point: the projected block stored into its rows, the accumulator stored whole, the result
    row's buffer untouched. -/
noncomputable def runFirst (hc0 : condFirst i) (hc1 : ¬condLater i) (hc2 : ¬condLast i) :
    Σ' (LY : List (View.Piece (Elt F) S10000x32 .f32)), { LZ : List (View.Piece (Elt F) S32x10000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare xo ∗ owns (c : Thread nD τ) arg12 fullShare ys ∗ owns (c : Thread nD τ) arg13 fullShare zs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
                ∗ owns (c : Thread nD τ) arg11 fullShare xo
                ∗ (∃ f, ⌜arg12.view.read (Elt F) f = ys⌝ ∗ arg12.view.loc (c : Thread nD τ) ↦[arg12.view.set]{fullShare} arg12.view.writes (Elt F) f LY)
                ∗ (∃ f, arg13.view.loc (c : Thread nD τ) ↦[arg13.view.set]{fullShare} arg13.view.writes (Elt F) f LZ)) -∗ K ⟨⟩))
          ⊢ wp frame (wpE (defs₀ (F := F)) Variants.none c none) E (cc0__gnn_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, HO⟩, ⟨%fy, %hfy, HY⟩, ⟨%fz, %hfz, HZ⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfo; obtain rfl := harg12.eq_unread hfy; obtain rfl := harg13.eq_unread hfz
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HO]
    · iexists _; isplitr; · ipureintro; exact harg11.read_unread _
      iexact HO
    isplitl [HY]
    · iexists _; isplitr; · ipureintro; exact harg12.read_unread _
      iexact HY
    iexists _; iexact HZ

set_option maxHeartbeats 1000000 in
/-- The body at a grid point that is neither first nor last: the projected block stored into its rows, the block's
    contribution added to the accumulator, the result row's buffer untouched. -/
noncomputable def runMiddle (hc0 : ¬condFirst i) (hc1 : condLater i) (hc2 : ¬condLast i) :
    Σ' (LY : List (View.Piece (Elt F) S10000x32 .f32)), { LZ : List (View.Piece (Elt F) S32x10000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare xo ∗ owns (c : Thread nD τ) arg12 fullShare ys ∗ owns (c : Thread nD τ) arg13 fullShare zs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
                ∗ owns (c : Thread nD τ) arg11 fullShare xo
                ∗ (∃ f, ⌜arg12.view.read (Elt F) f = ys⌝ ∗ arg12.view.loc (c : Thread nD τ) ↦[arg12.view.set]{fullShare} arg12.view.writes (Elt F) f LY)
                ∗ (∃ f, arg13.view.loc (c : Thread nD τ) ↦[arg13.view.set]{fullShare} arg13.view.writes (Elt F) f LZ)) -∗ K ⟨⟩))
          ⊢ wp frame (wpE (defs₀ (F := F)) Variants.none c none) E (cc0__gnn_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, HO⟩, ⟨%fy, %hfy, HY⟩, ⟨%fz, %hfz, HZ⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfo; obtain rfl := harg12.eq_unread hfy; obtain rfl := harg13.eq_unread hfz
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HO]
    · iexists _; isplitr; · ipureintro; exact harg11.read_unread _
      iexact HO
    isplitl [HY]
    · iexists _; isplitr; · ipureintro; exact harg12.read_unread _
      iexact HY
    iexists _; iexact HZ

set_option maxHeartbeats 1000000 in
/-- The body at the last grid point: as at a middle point, and then the closing stage's row of results stored whole. -/
noncomputable def runLast (hc0 : ¬condFirst i) (hc1 : condLater i) (hc2 : condLast i) :
    Σ' (LO : List (View.Piece (Elt F) S1x128 .f32)) (LY : List (View.Piece (Elt F) S10000x32 .f32)), { LZ : List (View.Piece (Elt F) S32x10000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare xo ∗ owns (c : Thread nD τ) arg12 fullShare ys ∗ owns (c : Thread nD τ) arg13 fullShare zs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
                ∗ (∃ f, arg11.view.loc (c : Thread nD τ) ↦[arg11.view.set]{fullShare} arg11.view.writes (Elt F) f LO)
                ∗ (∃ f, ⌜arg12.view.read (Elt F) f = ys⌝ ∗ arg12.view.loc (c : Thread nD τ) ↦[arg12.view.set]{fullShare} arg12.view.writes (Elt F) f LY)
                ∗ (∃ f, arg13.view.loc (c : Thread nD τ) ↦[arg13.view.set]{fullShare} arg13.view.writes (Elt F) f LZ)) -∗ K ⟨⟩))
          ⊢ wp frame (wpE (defs₀ (F := F)) Variants.none c none) E (cc0__gnn_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, HO⟩, ⟨%fy, %hfy, HY⟩, ⟨%fz, %hfz, HZ⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfo; obtain rfl := harg12.eq_unread hfy; obtain rfl := harg13.eq_unread hfz
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HO]
    · iexists _; iexact HO
    isplitl [HY]
    · iexists _; isplitr; · ipureintro; exact harg12.read_unread _
      iexact HY
    iexists _; iexact HZ

end Runs

end Cert.GinKernel

end
-- ==== Proof.KDefs.lean ====
/-
  The proof data of the one launch. After grid point n the accumulator holds the first block's contribution plus those
  of blocks 1 … n (a term defined by recursion over the body's own arithmetic), and the buffer of projections holds
  SOME contents whose rows below 400·(n + 1) are the projected rows of blocks 0 … n — the rows of later blocks are
  whatever the buffer held when the launch began, which nothing names. At the last point every row is a projected row,
  so the buffer is one definite array and the closing stage's row of results is one definite term: what the result
  window's buffer holds after the last point, and the only block ever written back.
-/
import proofs.«108040_g76570676953656_cont_sun_m_424_5_alg».proof.Proof.KRuns
import Idealize.ShloMosaic.Lib.WritesUnit
import Idealize.ShloMosaic.Lib.ValueIdx
import Idealize.ShloMosaic.Lib.Pipeline.Value

set_option maxRecDepth 16384

noncomputable section

namespace Cert.GinKernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at a grid point -/

abbrev ms0 (t : Fin cfg0.N) : Memref sig .tc .vmem S400x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S32x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S32x32 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S32x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S32x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x128 .f32 := win0_10.stage (cfg0.slots t 10)
abbrev hs10 (t : Fin cfg0.N) : (ms10 t).IsWhole := hstage0_10 ((cfg0.slots t 10).cast nbuf0_10)
/-- The buffer of projections and the accumulator: whole buffers of the kernel's own. -/
abbrev scY : Memref sig .tc .vmem S10000x32 .f32 := Memref.whole cc0_scratch0
abbrev scZ : Memref sig .tc .vmem S32x10000 .f32 := Memref.whole cc0_scratch1

/-- What the launch hands the region and takes back: the two buffers at some contents, the generator register at some state. -/
theorem PhiA_eq (c : Dev nD) :
    (Pipeline.ΦA spec0 c : sProp 𝕄)
      = iprop(iprop((∃ d, owns (c : Thread nD τ) scY fullShare d) ∗ (∃ d, owns (c : Thread nD τ) scZ fullShare d)) ∗ (∃ r, prngReg c r)) := by
  unfold Pipeline.ΦA; rw [scopedRest0_eq]; simp only [scY, scZ, owns_whole]; try rfl

theorem N_eq : cfg0.N = 25 := N_0

/-- The last grid point. -/
def tLast : Fin cfg0.N := ⟨24, by rw [N_eq]; omega⟩

/-! ## The named contents -/

/-- The accumulator after point n: the first block's contribution, then one block's contribution added per point. -/
def zAt (c : Dev nD) : (n : ℕ) → n < cfg0.N → Vec F S32x10000 .f32
  | 0, h => k0_pay4 (iblk m c 0 ⟨0, h⟩) (iblk m c 1 ⟨0, h⟩) (iblk m c 2 ⟨0, h⟩)
  | n + 1, h => k0_pay5 (iblk m c 0 ⟨n + 1, h⟩) (iblk m c 1 ⟨n + 1, h⟩) (iblk m c 2 ⟨n + 1, h⟩) (zAt c n (Nat.lt_of_succ_lt h))

/-- The block a row of the buffer of projections belongs to. -/
def rowBlock (j : S10000x32.Idx) : Fin cfg0.N :=
  ⟨(j 0).val / 400, by have := ValueIdx.idx2_lt0 j; rw [N_eq]; omega⟩

/-- The buffer of projections once every block has been stored: row r is row r mod 400 of block r div 400's projection. -/
def yFull (c : Dev nD) : Vec F S10000x32 .f32 := fun j =>
  k0_pay2 (iblk m c 0 (rowBlock j)) (iblk m c 2 (rowBlock j))
    (ValueIdx.ix2 (⟨(j 0).val % 400, Nat.mod_lt _ (by norm_num)⟩ : Fin 400) (⟨(j 1).val, ValueIdx.idx2_lt1 j⟩ : Fin 32))

/-- Contents of the buffer of projections whose rows below 400·(n + 1) are the projected rows. -/
def GoodUpTo (c : Dev nD) (n : ℕ) (Y : Vec F S10000x32 .f32) : Prop :=
  ∀ j : S10000x32.Idx, (j 0).val < 400 * (n + 1) → Y j = yFull m c j

/-- The closing stage's row of results, from the full buffer of projections and the full accumulator. -/
def outVal (c : Dev nD) : Vec F S1x128 .f32 :=
  k0_pay6 (k0_pay7 (yFull m c) (zAt m c 24 (by rw [N_eq]; omega)) (iblk m c 3 tLast) (iblk m c 4 tLast) (iblk m c 5 tLast) (iblk m c 6 tLast))
    (k0_pay8 (iblk m c 7 tLast)) (iblk m c 8 tLast) (iblk m c 9 tLast)

/-! ## The invariant between points -/

/-- Before the first point the launch's own invariant; after point n the accumulator at its named contents and the
    buffer of projections at some contents good up to n. -/
def PhiS (c : Dev nD) : (n : ℕ) → n ≤ cfg0.N → sProp 𝕄
  | 0, _ => Pipeline.ΦA spec0 c
  | n + 1, hn => iprop(iprop((∃ Y, ⌜GoodUpTo m c n Y⌝ ∗ owns (c : Thread nD τ) scY fullShare Y) ∗ owns (c : Thread nD τ) scZ fullShare (zAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop((∃ Y, ⌜GoodUpTo m c n Y⌝ ∗ owns (c : Thread nD τ) scY fullShare Y) ∗ owns (c : Thread nD τ) scZ fullShare (zAt m c n hn)) ∗ (∃ r, prngReg c r)) := rfl
theorem PhiS_pos (c : Dev nD) (n : ℕ) (h : n ≤ cfg0.N) (hz : n ≠ 0) :
    PhiS m c n h = iprop(iprop((∃ Y, ⌜GoodUpTo m c (n - 1) Y⌝ ∗ owns (c : Thread nD τ) scY fullShare Y) ∗ owns (c : Thread nD τ) scZ fullShare (zAt m c (n - 1) (by omega))) ∗ (∃ r, prngReg c r)) := by
  cases n with
  | zero => exact absurd rfl hz
  | succ n => rfl

/-! ## The proof data -/

/-- The arrays as the region finds them; after the body each input's buffer at its block and the result window's
    at the closing stage's row (it is stored at the last point only, and written back there only). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outVal m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outVal m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- The inputs are never idle. -/
theorem live (w : Fin 11) (hw : w.val < 10) : ∀ t : Fin cfg0.N, cfg0.idle w (grid0.coords t) = false := by
  intro t
  match w, hw with
  | ⟨0, _⟩, _ => rfl | ⟨1, _⟩, _ => rfl | ⟨2, _⟩, _ => rfl | ⟨3, _⟩, _ => rfl | ⟨4, _⟩, _ => rfl
  | ⟨5, _⟩, _ => rfl | ⟨6, _⟩, _ => rfl | ⟨7, _⟩, _ => rfl | ⟨8, _⟩, _ => rfl | ⟨9, _⟩, _ => rfl
/-- The result window is idle exactly away from the last point, -/
theorem idle10_iff : ∀ t : Fin cfg0.N, cfg0.idle 10 (grid0.coords t) = true ↔ t.val ≠ 24 :=
  (by decide +kernel : ∀ t : Fin grid0.N, cfg0.idle 10 (grid0.coords t) = true ↔ t.val ≠ 24)
/-- and written back exactly at the last point. -/
theorem flush10_iff : ∀ t : Fin cfg0.N, (cfg0.win 10).flush t = true ↔ t.val = 24 :=
  (by decide +kernel : ∀ t : Fin grid0.N, win0_10.flush t = true ↔ t.val = 24)

end Cert.GinKernel

end
-- ==== Proof.KPieces.lean ====
/-
  What each run of the body leaves, restated over the values it was handed: the block of projected rows as one stored
  piece of the buffer of projections; the accumulator's one whole piece (the block's contribution at the first point,
  the old contents plus the contribution later); and at the last point the result row's one whole piece — the closing
  stage applied to the buffer of projections as read after this point's store and to the accumulator just stored.
-/
import proofs.«108040_g76570676953656_cont_sun_m_424_5_alg».proof.Proof.KRuns
import Idealize.ShloMosaic.Lib.Pipeline.Value
import Idealize.ShloMosaic.Lib.Pipeline.FrameBody

set_option maxRecDepth 16384

noncomputable section

namespace Cert.GinKernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section Pieces
variable (c : Dev nD) (i : grid0.Coords)
  (arg1 : Memref sig .tc .vmem S400x128 .f32) (harg1 : arg1.IsWhole) (arg2 : Memref sig .tc .vmem S400x10000 .f32) (harg2 : arg2.IsWhole)
  (arg3 : Memref sig .tc .vmem S128x32 .f32) (harg3 : arg3.IsWhole) (arg4 : Memref sig .tc .vmem S32x1 .f32) (harg4 : arg4.IsWhole)
  (arg5 : Memref sig .tc .vmem S32x1 .f32) (harg5 : arg5.IsWhole) (arg6 : Memref sig .tc .vmem S32x1 .f32) (harg6 : arg6.IsWhole)
  (arg7 : Memref sig .tc .vmem S32x32 .f32) (harg7 : arg7.IsWhole) (arg8 : Memref sig .tc .vmem S32x1 .f32) (harg8 : arg8.IsWhole)
  (arg9 : Memref sig .tc .vmem S32x128 .f32) (harg9 : arg9.IsWhole) (arg10 : Memref sig .tc .vmem S1x128 .f32) (harg10 : arg10.IsWhole)
  (arg11 : Memref sig .tc .vmem S1x128 .f32) (harg11 : arg11.IsWhole) (arg12 : Memref sig .tc .vmem S10000x32 .f32) (harg12 : arg12.IsWhole)
  (arg13 : Memref sig .tc .vmem S32x10000 .f32) (harg13 : arg13.IsWhole)
  (x0 : Vec F S400x128 .f32) (x1 : Vec F S400x10000 .f32) (x2 : Vec F S128x32 .f32) (x3 : Vec F S32x1 .f32) (x4 : Vec F S32x1 .f32)
  (x5 : Vec F S32x1 .f32) (x6 : Vec F S32x32 .f32) (x7 : Vec F S32x1 .f32) (x8 : Vec F S32x128 .f32) (x9 : Vec F S1x128 .f32)
  (xo : Vec F S1x128 .f32) (ys : Vec F S10000x32 .f32) (zs : Vec F S32x10000 .f32)

theorem zeros2 : (![0, 0] : Fin 2 → ℕ) = fun _ => 0 := funext fun a => by fin_cases a <;> rfl

/-- The block of projected rows, stored at rows 400·k … 400·k + 399. -/
def pieceY : View.Piece (Elt F) S10000x32 .f32 :=
  ⟨Rect.unit (s := S10000x32) (k0_off1 i) S400x32.size (k0_off1_inb i), k0_pay2 x0 x2⟩

theorem runFirst_Y (hc0 : condFirst i) (hc1 : ¬condLater i) (hc2 : ¬condLast i) :
    (runFirst c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 xo ys zs hc0 hc1 hc2).1 = [pieceY i x0 x2] := by
  unfold runFirst pieceY; dsimp only
  simp only [View.readAt_eq_ld, harg1.read_unread, harg3.read_unread, View.ld_unit_zero (S := S400x128) zeros2, View.ld_unit_zero (S := S128x32) zeros2]

theorem runFirst_Z (hc0 : condFirst i) (hc1 : ¬condLater i) (hc2 : ¬condLast i) :
    (runFirst c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 xo ys zs hc0 hc1 hc2).2.1
      = [⟨Rect.unit (s := S32x10000) ![0, 0] S32x10000.size inb_S32x10000_S32x10000_0_0, k0_pay4 x0 x1 x2⟩] := by
  unfold runFirst; dsimp only
  simp only [View.readAt_eq_ld, harg1.read_unread, harg2.read_unread, harg3.read_unread, View.ld_unit_zero (S := S400x128) zeros2, View.ld_unit_zero (S := S400x10000) zeros2, View.ld_unit_zero (S := S128x32) zeros2]

theorem runMiddle_Y (hc0 : ¬condFirst i) (hc1 : condLater i) (hc2 : ¬condLast i) :
    (runMiddle c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 xo ys zs hc0 hc1 hc2).1 = [pieceY i x0 x2] := by
  unfold runMiddle pieceY; dsimp only
  simp only [View.readAt_eq_ld, harg1.read_unread, harg3.read_unread, View.ld_unit_zero (S := S400x128) zeros2, View.ld_unit_zero (S := S128x32) zeros2]

theorem runMiddle_Z (hc0 : ¬condFirst i) (hc1 : condLater i) (hc2 : ¬condLast i) :
    (runMiddle c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 xo ys zs hc0 hc1 hc2).2.1
      = [⟨Rect.unit (s := S32x10000) ![0, 0] S32x10000.size inb_S32x10000_S32x10000_0_0, k0_pay5 x0 x1 x2 zs⟩] := by
  unfold runMiddle; dsimp only
  simp only [View.readAt_eq_ld, harg1.read_unread, harg2.read_unread, harg3.read_unread, harg13.read_unread, View.ld_unit_zero (S := S400x128) zeros2, View.ld_unit_zero (S := S400x10000) zeros2, View.ld_unit_zero (S := S128x32) zeros2, View.ld_unit_zero (S := S32x10000) zeros2]

theorem runLast_Y (hc0 : ¬condFirst i) (hc1 : condLater i) (hc2 : condLast i) :
    (runLast c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 xo ys zs hc0 hc1 hc2).2.1 = [pieceY i x0 x2] := by
  unfold runLast pieceY; dsimp only; sl_unfold_run_names
  simp only [View.readAt_eq_ld, harg1.read_unread, harg3.read_unread, View.ld_unit_zero (S := S400x128) zeros2, View.ld_unit_zero (S := S128x32) zeros2]

theorem runLast_Z (hc0 : ¬condFirst i) (hc1 : condLater i) (hc2 : condLast i) :
    (runLast c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 xo ys zs hc0 hc1 hc2).2.2.1
      = [⟨Rect.unit (s := S32x10000) ![0, 0] S32x10000.size inb_S32x10000_S32x10000_0_0, k0_pay5 x0 x1 x2 zs⟩] := by
  unfold runLast; dsimp only; sl_unfold_run_names
  simp only [View.readAt_eq_ld, harg1.read_unread, harg2.read_unread, harg3.read_unread, harg13.read_unread, View.ld_unit_zero (S := S400x128) zeros2, View.ld_unit_zero (S := S400x10000) zeros2, View.ld_unit_zero (S := S128x32) zeros2, View.ld_unit_zero (S := S32x10000) zeros2]

/-- The buffer of projections as the closing stage reads it: the contents handed in with this point's block stored. -/
def yAfter : Vec F S10000x32 .f32 :=
  arg12.view.read (Elt F) (arg12.view.writes (Elt F) (harg12.unread ys) [pieceY i x0 x2])

theorem runLast_O (hc0 : ¬condFirst i) (hc1 : condLater i) (hc2 : condLast i) :
    (runLast c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 xo ys zs hc0 hc1 hc2).1
      = [⟨Rect.unit (s := S1x128) ![0, 0] S1x128.size inb_S1x128_S1x128_0_0,
          k0_pay6 (k0_pay7 (yAfter i arg12 harg12 x0 x2 ys) (k0_pay5 x0 x1 x2 zs) x3 x4 x5 x6) (k0_pay8 x7) x8 x9⟩] := by
  unfold runLast yAfter pieceY; dsimp only; sl_unfold_run_names
  simp only [View.readAt_eq_ld, harg1.read_unread, harg2.read_unread, harg3.read_unread, harg4.read_unread, harg5.read_unread, harg6.read_unread, harg7.read_unread, harg8.read_unread, harg9.read_unread, harg10.read_unread, harg13.read_unread,
    View.ld_unit_zero (S := S400x128) zeros2, View.ld_unit_zero (S := S400x10000) zeros2, View.ld_unit_zero (S := S128x32) zeros2, View.ld_unit_zero (S := S32x10000) zeros2, View.ld_unit_zero (S := S32x1) zeros2, View.ld_unit_zero (S := S32x32) zeros2, View.ld_unit_zero (S := S32x128) zeros2, View.ld_unit_zero (S := S1x128) zeros2, View.ld_unit_zero (S := S10000x32) zeros2]
  have e : arg13.view.readCov [(⟨Rect.unit (s := S32x10000) ![0, 0] S32x10000.size inb_S32x10000_S32x10000_0_0, k0_pay5 x0 x1 x2 zs⟩ : View.Piece (Elt F) S32x10000 .f32)]
      (Rect.unit (s := S32x10000) ![0, 0] S32x10000.size inb_S32x10000_S32x10000_0_0).toLoadRect = k0_pay5 x0 x1 x2 zs :=
    View.readCov_unit_zero (S := S32x10000) arg13.view zeros2 inb_S32x10000_S32x10000_0_0 _
  exact congrArg (fun z => [(⟨Rect.unit (s := S1x128) ![0, 0] S1x128.size inb_S1x128_S1x128_0_0,
    k0_pay6 (k0_pay7 (yAfter i arg12 harg12 x0 x2 ys) z x3 x4 x5 x6) (k0_pay8 x7) x8 x9⟩ : View.Piece (Elt F) S1x128 .f32)]) e

end Pieces

end Cert.GinKernel

end
-- ==== Proof.KBodyFirst.lean ====
/-
  The body at one grid point, from the invariant before it to the invariant after it. Storing block t's projected rows
  into contents whose rows below 400·t are projected rows gives contents whose rows below 400·(t + 1) are: a row of
  block t reads the new piece, an earlier row reads what was there. The accumulator's one whole piece reads back as its
  payload. Here: the shared statements and the first point, where both buffers start at contents nothing names.
-/
import proofs.«108040_g76570676953656_cont_sun_m_424_5_alg».proof.Proof.KDefs
import proofs.«108040_g76570676953656_cont_sun_m_424_5_alg».proof.Proof.KPieces
import Idealize.ShloMosaic.Lib.WritesUnit
import Idealize.ShloMosaic.Lib.ValueIdx
import Idealize.ShloMosaic.Lib.Pipeline.Value
import Idealize.ShloMosaic.Lib.Pipeline.FrameBody

set_option maxRecDepth 16384

noncomputable section

namespace Cert.GinKernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one grid coordinate of point t is t. -/
theorem coord_val : ∀ t : Fin cfg0.N, (grid0.coords t 0).val = t.val :=
  (by decide +kernel : ∀ t : Fin grid0.N, (grid0.coords t 0).val = t.val)
/-- Block t is stored at row 400·t, column 0. -/
theorem off_eq (t : Fin cfg0.N) : k0_off1 (grid0.coords t) = ![400 * t.val, 0] := by
  rw [k0_off1_eq, coord_val]

/-- One whole-buffer piece of a rank-2 buffer reads back as its payload, whatever was there. -/
theorem read_whole2 {d : Fin 2 → ℕ} (v : View sig .tc .vmem (⟨2, d⟩ : Shape) .f32) (f : v.ty.Contents (Elt F))
    (inb : ∀ a, (![0, 0] : Fin 2 → ℕ) a + (⟨2, d⟩ : Shape).size a ≤ (⟨2, d⟩ : Shape).size a) (w : (⟨2, d⟩ : Shape).Idx → Elt F .f32) :
    v.read (Elt F) (v.writes (Elt F) f [(⟨Rect.unit (s := ⟨2, d⟩) ![0, 0] (⟨2, d⟩ : Shape).size inb, w⟩ : View.Piece (Elt F) ⟨2, d⟩ .f32)]) = w := by
  funext y
  exact View.read_writes_cons_unit_of_mem v f inb w [] y y rfl (fun a => by
    have h0 : (![0, 0] : Fin 2 → ℕ) a = 0 := by fin_cases a <;> rfl
    rw [h0, Nat.zero_add])

/-- Storing block t's projected rows keeps the earlier rows and makes block t's rows projected rows. -/
theorem good_step (c : Dev nD) (t : Fin cfg0.N) (ys : Vec F S10000x32 .f32) (f : scY.view.ty.Contents (Elt F))
    (hf : scY.view.read (Elt F) f = ys) (hprev : t.val ≠ 0 → GoodUpTo m c (t.val - 1) ys) :
    GoodUpTo m c t.val (scY.view.read (Elt F) (scY.view.writes (Elt F) f [pieceY (grid0.coords t) (iblk m c 0 t) (iblk m c 2 t)])) := by
  intro j hj
  unfold pieceY
  by_cases hin : 400 * t.val ≤ (j 0).val
  · have hx : (j 0).val - 400 * t.val < 400 := by omega
    refine (View.read_writes_cons_rows_of_mem scY.view f (k0_off1_inb (grid0.coords t)) _ [] j
      (ValueIdx.ix2 (⟨(j 0).val - 400 * t.val, hx⟩ : Fin 400) (⟨(j 1).val, ValueIdx.idx2_lt1 j⟩ : Fin 32)) (o := 400 * t.val) (off_eq t)
      (by show (j 0).val = 400 * t.val + ((j 0).val - 400 * t.val); omega) rfl).trans ?_
    unfold yFull
    have hb : rowBlock j = t := Fin.ext (by show (j 0).val / 400 = t.val; omega)
    rw [hb]
    exact congrArg _ (congrArg₂ ValueIdx.ix2 (Fin.ext (by show (j 0).val - 400 * t.val = (j 0).val % 400; omega)) rfl)
  · have ht : t.val ≠ 0 := by omega
    refine (View.read_writes_cons_rows_of_not_mem scY.view f (k0_off1_inb (grid0.coords t)) _ [] j (o := 400 * t.val) (W := 400) (off_eq t) rfl
      (Or.inl (by omega))).trans ?_
    rw [View.writes_nil, hf]
    exact hprev ht j (by omega)

/-! ## The obligation's two sides -/

/-- What the body is called with at point t: the invariant, what the core owes, and every window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))
/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t ∗ (dats m 0 c).leavesExact 9 t ∗ (dats m 0 c).leavesExact 10 t)

theorem leaves0 (c : Dev nD) (t : Fin cfg0.N) : (dats m 0 c).leavesExact 0 t = owns (c : Thread nD τ) (ms0 t) fullShare (iblk m c 0 t) := by
  unfold Dat.leavesExact; rw [live 0 (by decide) t, after0]
theorem leaves1 (c : Dev nD) (t : Fin cfg0.N) : (dats m 0 c).leavesExact 1 t = owns (c : Thread nD τ) (ms1 t) fullShare (iblk m c 1 t) := by
  unfold Dat.leavesExact; rw [live 1 (by decide) t, after1]
theorem leaves2 (c : Dev nD) (t : Fin cfg0.N) : (dats m 0 c).leavesExact 2 t = owns (c : Thread nD τ) (ms2 t) fullShare (iblk m c 2 t) := by
  unfold Dat.leavesExact; rw [live 2 (by decide) t, after2]
theorem leaves3 (c : Dev nD) (t : Fin cfg0.N) : (dats m 0 c).leavesExact 3 t = owns (c : Thread nD τ) (ms3 t) fullShare (iblk m c 3 t) := by
  unfold Dat.leavesExact; rw [live 3 (by decide) t, after3]
theorem leaves4 (c : Dev nD) (t : Fin cfg0.N) : (dats m 0 c).leavesExact 4 t = owns (c : Thread nD τ) (ms4 t) fullShare (iblk m c 4 t) := by
  unfold Dat.leavesExact; rw [live 4 (by decide) t, after4]
theorem leaves5 (c : Dev nD) (t : Fin cfg0.N) : (dats m 0 c).leavesExact 5 t = owns (c : Thread nD τ) (ms5 t) fullShare (iblk m c 5 t) := by
  unfold Dat.leavesExact; rw [live 5 (by decide) t, after5]
theorem leaves6 (c : Dev nD) (t : Fin cfg0.N) : (dats m 0 c).leavesExact 6 t = owns (c : Thread nD τ) (ms6 t) fullShare (iblk m c 6 t) := by
  unfold Dat.leavesExact; rw [live 6 (by decide) t, after6]
theorem leaves7 (c : Dev nD) (t : Fin cfg0.N) : (dats m 0 c).leavesExact 7 t = owns (c : Thread nD τ) (ms7 t) fullShare (iblk m c 7 t) := by
  unfold Dat.leavesExact; rw [live 7 (by decide) t, after7]
theorem leaves8 (c : Dev nD) (t : Fin cfg0.N) : (dats m 0 c).leavesExact 8 t = owns (c : Thread nD τ) (ms8 t) fullShare (iblk m c 8 t) := by
  unfold Dat.leavesExact; rw [live 8 (by decide) t, after8]
theorem leaves9 (c : Dev nD) (t : Fin cfg0.N) : (dats m 0 c).leavesExact 9 t = owns (c : Thread nD τ) (ms9 t) fullShare (iblk m c 9 t) := by
  unfold Dat.leavesExact; rw [live 9 (by decide) t, after9]
/-- Away from the last point the result window's buffer is handed back as found. -/
theorem leaves10_idle (c : Dev nD) (t : Fin cfg0.N) (h : t.val ≠ 24) :
    (dats m 0 c).leavesExact 10 t = iprop(∃ d, owns (c : Thread nD τ) (ms10 t) fullShare ((dats m 0 c).before 10 t d)) :=
  Dat.leavesExact_idle (dats m 0 c) 10 t ((idle10_iff t).mpr h)
    (by rw [Bool.eq_false_iff]; intro hf; exact h ((flush10_iff t).mp hf))

set_option maxHeartbeats 4000000 in
/-- The first point: both buffers of the kernel's own start at contents nothing names. -/
theorem sound_first (c : Dev nD) (t : Fin cfg0.N) (h0 : t.val = 0) :
    bodyPre m c t ⊢ wp frame (wpE (defs₀ (F := F)) Variants.none c none) Set.univ (bodyAt0 t) (fun _ => bodyPost m c t) := by
  obtain ⟨n, hn⟩ := t
  dsimp only at h0
  subst h0
  generalize ht : (⟨0, hn⟩ : Fin cfg0.N) = t
  have ht0 : t.val = 0 := by rw [← ht]
  have hcF : condFirst (grid0.coords t) := (condFirst_iff t).mpr ht0
  have hcL : ¬condLater (grid0.coords t) := fun h => by have := (condLater_iff t).mp h; omega
  have hcC : ¬condLast (grid0.coords t) := fun h => by have := (condLast_iff t).mp h; omega
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9, leaves10_idle m c t (by omega)]
  rw [PhiS_castSucc m c t, PhiS_zero m c _ _ ht0, PhiA_eq]
  iintro ⟨⟨⟨⟨%dY, HY⟩, ⟨%dZ, HZ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scY (Memref.isWhole_whole _) scZ (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) dY dZ hcF hcL hcC).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HY]; · iexact HY
  isplitl [HZ]; · iexact HZ
  iintro ⟨H0, H1, H2, H3, H4, H5, H6, H7, H8, H9, H10, ⟨%fy, %hfy, HY⟩, ⟨%fz, HZ⟩⟩
  isplitl [HY HZ Hg]
  · isplitl [HY HZ]
    · isplitl [HY]
      · iexists _; isplitr; swap
        · unfold owns; iexists _; isplitr; swap
          · iexact HY
          ipureintro; rfl
        ipureintro
        rw [runFirst_Y]
        exact good_step m c t dY fy hfy (fun h => absurd ht0 h)
      unfold owns; iexists _; isplitr; swap
      · iexact HZ
      ipureintro
      rw [runFirst_Z]
      refine (read_whole2 _ _ _ _).trans ?_
      subst ht
      rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

end Cert.GinKernel

end
-- ==== Proof.KBodyLater.lean ====
/-
  The body at the later grid points. At a point that is neither first nor last the accumulator handed in is the named
  one of the point before and the block's contribution is added to it. At the last point the same happens, and then
  the closing stage reads the buffer of projections — every one of whose rows is now a projected row, so it is the
  full array of projections — and the accumulator just stored, and its row of results is stored whole: the named result.
-/
import proofs.«108040_g76570676953656_cont_sun_m_424_5_alg».proof.Proof.KBodyFirst

set_option maxRecDepth 16384

noncomputable section

namespace Cert.GinKernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After a point that is not the first the accumulator is the one before plus the point's contribution. -/
theorem zAt_pos (c : Dev nD) (t : Fin cfg0.N) (h0 : t.val ≠ 0) :
    zAt m c t.val t.isLt = k0_pay5 (iblk m c 0 t) (iblk m c 1 t) (iblk m c 2 t) (zAt m c (t.val - 1) (lt_of_le_of_lt (Nat.sub_le _ _) t.isLt)) := by
  obtain ⟨n, hn⟩ := t
  cases n with
  | zero => exact absurd rfl h0
  | succ n => rfl

/-- At the last point the result window's buffer is left at the named result. -/
theorem leaves10_last (c : Dev nD) (t : Fin cfg0.N) (h : t.val = 24) :
    (dats m 0 c).leavesExact 10 t = owns (c : Thread nD τ) (ms10 t) fullShare (outVal m c) := by
  unfold Dat.leavesExact
  rw [show cfg0.idle 10 (grid0.coords t) = false from by
    rw [Bool.eq_false_iff]; intro hi; exact (idle10_iff t).mp hi h, after10]

/-- The closing stage on contents good up to the point before the last, with the last block stored, is the named result. -/
theorem outVal_of_last (c : Dev nD) (Y0 : Vec F S10000x32 .f32) (hY0 : GoodUpTo m c 23 Y0) :
    k0_pay6 (k0_pay7 (yAfter (grid0.coords tLast) scY (Memref.isWhole_whole _) (iblk m c 0 tLast) (iblk m c 2 tLast) Y0)
        (k0_pay5 (iblk m c 0 tLast) (iblk m c 1 tLast) (iblk m c 2 tLast) (zAt m c 23 (by rw [N_eq]; omega)))
        (iblk m c 3 tLast) (iblk m c 4 tLast) (iblk m c 5 tLast) (iblk m c 6 tLast))
      (k0_pay8 (iblk m c 7 tLast)) (iblk m c 8 tLast) (iblk m c 9 tLast) = outVal m c := by
  have hy : yAfter (grid0.coords tLast) scY (Memref.isWhole_whole _) (iblk m c 0 tLast) (iblk m c 2 tLast) Y0 = yFull m c :=
    funext fun j => good_step m c tLast Y0 _ ((Memref.isWhole_whole _).read_unread _) (fun _ => hY0) j
      (by have := ValueIdx.idx2_lt0 j; show (j 0).val < 400 * (24 + 1); omega)
  rw [hy]
  rfl

set_option maxHeartbeats 4000000 in
/-- A point that is neither first nor last. -/
theorem sound_middle (c : Dev nD) (t : Fin cfg0.N) (h0 : t.val ≠ 0) (h24 : t.val ≠ 24) :
    bodyPre m c t ⊢ wp frame (wpE (defs₀ (F := F)) Variants.none c none) Set.univ (bodyAt0 t) (fun _ => bodyPost m c t) := by
  have hcF : ¬condFirst (grid0.coords t) := fun h => h0 ((condFirst_iff t).mp h)
  have hcL : condLater (grid0.coords t) := (condLater_iff t).mpr (by omega)
  have hcC : ¬condLast (grid0.coords t) := fun h => h24 ((condLast_iff t).mp h)
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9, leaves10_idle m c t h24]
  rw [PhiS_castSucc m c t, PhiS_pos m c _ _ h0]
  iintro ⟨⟨⟨⟨%Y0, %hY0, HY⟩, HZ⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runMiddle c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scY (Memref.isWhole_whole _) scZ (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) Y0 (zAt m c (t.val - 1) (lt_of_le_of_lt (Nat.sub_le _ _) t.isLt)) hcF hcL hcC).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HY]; · iexact HY
  isplitl [HZ]; · iexact HZ
  iintro ⟨H0, H1, H2, H3, H4, H5, H6, H7, H8, H9, H10, ⟨%fy, %hfy, HY⟩, ⟨%fz, HZ⟩⟩
  isplitl [HY HZ Hg]
  · isplitl [HY HZ]
    · isplitl [HY]
      · iexists _; isplitr; swap
        · unfold owns; iexists _; isplitr; swap
          · iexact HY
          ipureintro; rfl
        ipureintro
        rw [runMiddle_Y]
        exact good_step m c t Y0 fy hfy (fun _ => hY0)
      unfold owns; iexists _; isplitr; swap
      · iexact HZ
      ipureintro
      rw [runMiddle_Z]
      exact (read_whole2 _ _ _ _).trans (zAt_pos m c t h0).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

set_option maxHeartbeats 4000000 in
/-- The last point. -/
theorem sound_last (c : Dev nD) (t : Fin cfg0.N) (h24 : t.val = 24) :
    bodyPre m c t ⊢ wp frame (wpE (defs₀ (F := F)) Variants.none c none) Set.univ (bodyAt0 t) (fun _ => bodyPost m c t) := by
  have h0 : t.val ≠ 0 := by omega
  have hcF : ¬condFirst (grid0.coords t) := fun h => h0 ((condFirst_iff t).mp h)
  have hcL : condLater (grid0.coords t) := (condLater_iff t).mpr (by omega)
  have hcC : condLast (grid0.coords t) := (condLast_iff t).mpr h24
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9, leaves10_last m c t h24]
  rw [PhiS_castSucc m c t, PhiS_pos m c _ _ h0]
  iintro ⟨⟨⟨⟨%Y0, %hY0, HY⟩, HZ⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scY (Memref.isWhole_whole _) scZ (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) Y0 (zAt m c (t.val - 1) (lt_of_le_of_lt (Nat.sub_le _ _) t.isLt)) hcF hcL hcC).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HY]; · iexact HY
  isplitl [HZ]; · iexact HZ
  iintro ⟨H0, H1, H2, H3, H4, H5, H6, H7, H8, H9, ⟨%fo, HO⟩, ⟨%fy, %hfy, HY⟩, ⟨%fz, HZ⟩⟩
  isplitl [HY HZ Hg]
  · isplitl [HY HZ]
    · isplitl [HY]
      · iexists _; isplitr; swap
        · unfold owns; iexists _; isplitr; swap
          · iexact HY
          ipureintro; rfl
        ipureintro
        rw [runLast_Y]
        exact good_step m c t Y0 fy hfy (fun _ => hY0)
      unfold owns; iexists _; isplitr; swap
      · iexact HZ
      ipureintro
      rw [runLast_Z]
      exact (read_whole2 _ _ _ _).trans (zAt_pos m c t h0).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr; swap
  · iexact HO
  ipureintro
  rw [runLast_O]
  refine (read_whole2 _ _ _ _).trans ?_
  have ht : t = tLast := Fin.ext h24
  subst ht
  exact outVal_of_last m c Y0 hY0

end Cert.GinKernel

end
-- ==== Proof.KBody.lean ====
/-
  The body obligation at every grid point — the first, a middle one, or the last —, the two ends of the invariant
  (the launch's own invariant is the invariant before the first point; after the last point the named contents are
  forgotten and the launch's own invariant is given back), the launch, and the frame: every weakly fair execution
  terminates, nothing faults, the argument arrays end unchanged, and the result array ends at what the proof data
  computes from the one block written back.
-/
import proofs.«108040_g76570676953656_cont_sun_m_424_5_alg».proof.Proof.KBodyLater

set_option maxRecDepth 16384

noncomputable section

namespace Cert.GinKernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any grid point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  · by_cases h24 : t.val = 24
    · exact sound_last m c t h24
    · exact sound_middle m c t h0 h24

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the launch's own back: the named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last, N_eq]; omega), PhiA_eq]
  iintro ⟨⟨⟨%Y, %hY, HY⟩, HZ⟩, Hg⟩
  isplitl [HY HZ]
  · isplitl [HY]
    · iexists _; iexact HY
    iexists _; iexact HZ
  iexact Hg

-- the launch theorem's implicit arguments are found by unifying its conclusion with this one, which takes unfolding plain
-- definitions in a metavariable's type
set_option backward.isDefEq.respectTransparency.types false in
/-- The launch: every weakly fair execution of @main terminates, and every final state has every array of the pipeline
    at what the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame, at any float instance: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.GinKernel

end
-- ==== Proof.BRuns.lean ====
/-
  The kernel body run once per case of its three conditionals, on any staging buffers: at the first grid point the
  accumulator of aggregated projections is stored whole; at every later point the new block's contribution is added to
  it; at the last point the closing stage (normalise, rectify, second layer, rectify, average, last layer) is also run
  and its row of results stored. At every point the block of projected rows is stored into rows 400·k … 400·k + 399 of
  the buffer of projections. Each run names, as a list of stored pieces, what it leaves in the buffer of projections, in
  the accumulator and, at the last point, in the result row's buffer.
-/
import proofs.«108040_g76570676953656_cont_sun_m_424_5_alg».proof.Proof.Gen.Kernel.Frame
import proofs.«108040_g76570676953656_cont_sun_m_424_5_alg».proof.Proof.Gen.Kernel.Skeleton

set_option maxRecDepth 16384

noncomputable section

namespace Cert.GinKernelBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional's test: the grid coordinate is 0. -/
abbrev condFirst (i : grid0.Coords) : Prop := (Scalar.cmpi .ne (Scalar.extui (Scalar.cmpi .eq (BitVec.ofNat 32 (i 0).val) 0#32)) 0#32) = 1#1
/-- The second conditional's test: the grid coordinate is positive. -/
abbrev condLater (i : grid0.Coords) : Prop := (Scalar.cmpi .ne (Scalar.extui (Scalar.cmpi .sgt (BitVec.ofNat 32 (i 0).val) 0#32)) 0#32) = 1#1
/-- The third conditional's test: the grid coordinate is 24, the last. -/
abbrev condLast (i : grid0.Coords) : Prop := k0_cond3 i = 1#1

theorem condFirst_iff : ∀ t : Fin cfg0.N, condFirst (grid0.coords t) ↔ t.val = 0 :=
  (by decide +kernel : ∀ t : Fin grid0.N, condFirst (grid0.coords t) ↔ t.val = 0)
theorem condLater_iff : ∀ t : Fin cfg0.N, condLater (grid0.coords t) ↔ 1 ≤ t.val :=
  (by decide +kernel : ∀ t : Fin grid0.N, condLater (grid0.coords t) ↔ 1 ≤ t.val)
theorem condLast_iff : ∀ t : Fin cfg0.N, condLast (grid0.coords t) ↔ t.val = 24 :=
  (by decide +kernel : ∀ t : Fin grid0.N, condLast (grid0.coords t) ↔ t.val = 24)

section Runs

variable (c : Dev nD) (i : grid0.Coords)
  (arg1 : Memref sig .tc .vmem S400x128 .f32) (harg1 : arg1.IsWhole) (arg2 : Memref sig .tc .vmem S400x10000 .f32) (harg2 : arg2.IsWhole)
  (arg3 : Memref sig .tc .vmem S128x32 .f32) (harg3 : arg3.IsWhole) (arg4 : Memref sig .tc .vmem S32x1 .f32) (harg4 : arg4.IsWhole)
  (arg5 : Memref sig .tc .vmem S32x1 .f32) (harg5 : arg5.IsWhole) (arg6 : Memref sig .tc .vmem S32x1 .f32) (harg6 : arg6.IsWhole)
  (arg7 : Memref sig .tc .vmem S32x32 .f32) (harg7 : arg7.IsWhole) (arg8 : Memref sig .tc .vmem S32x1 .f32) (harg8 : arg8.IsWhole)
  (arg9 : Memref sig .tc .vmem S32x128 .f32) (harg9 : arg9.IsWhole) (arg10 : Memref sig .tc .vmem S1x128 .f32) (harg10 : arg10.IsWhole)
  (arg11 : Memref sig .tc .vmem S1x128 .f32) (harg11 : arg11.IsWhole) (arg12 : Memref sig .tc .vmem S10000x32 .f32) (harg12 : arg12.IsWhole)
  (arg13 : Memref sig .tc .vmem S32x10000 .f32) (harg13 : arg13.IsWhole)
  (x0 : Vec F S400x128 .f32) (x1 : Vec F S400x10000 .f32) (x2 : Vec F S128x32 .f32) (x3 : Vec F S32x1 .f32) (x4 : Vec F S32x1 .f32)
  (x5 : Vec F S32x1 .f32) (x6 : Vec F S32x32 .f32) (x7 : Vec F S32x1 .f32) (x8 : Vec F S32x128 .f32) (x9 : Vec F S1x128 .f32)
  (xo : Vec F S1x128 .f32) (ys : Vec F S10000x32 .f32) (zs : Vec F S32x10000 .f32)

/-- The ten input buffers at their blocks: what every run is handed and hands back unchanged. -/
abbrev inputsOwned : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9)

set_option maxHeartbeats 1000000 in
/-- The body at the first grid point: the projected block stored into its rows, the accumulator stored whole, the result
    row's buffer untouched. -/
noncomputable def runFirst (hc0 : condFirst i) (hc1 : ¬condLater i) (hc2 : ¬condLast i) :
    Σ' (LY : List (View.Piece (Elt F) S10000x32 .f32)), { LZ : List (View.Piece (Elt F) S32x10000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare xo ∗ owns (c : Thread nD τ) arg12 fullShare ys ∗ owns (c : Thread nD τ) arg13 fullShare zs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
                ∗ owns (c : Thread nD τ) arg11 fullShare xo
                ∗ (∃ f, ⌜arg12.view.read (Elt F) f = ys⌝ ∗ arg12.view.loc (c : Thread nD τ) ↦[arg12.view.set]{fullShare} arg12.view.writes (Elt F) f LY)
                ∗ (∃ f, arg13.view.loc (c : Thread nD τ) ↦[arg13.view.set]{fullShare} arg13.view.writes (Elt F) f LZ)) -∗ K ⟨⟩))
          ⊢ wp frame (wpE (defs₀ (F := F)) Variants.none c none) E (cc0__gnn_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, HO⟩, ⟨%fy, %hfy, HY⟩, ⟨%fz, %hfz, HZ⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfo; obtain rfl := harg12.eq_unread hfy; obtain rfl := harg13.eq_unread hfz
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HO]
    · iexists _; isplitr; · ipureintro; exact harg11.read_unread _
      iexact HO
    isplitl [HY]
    · iexists _; isplitr; · ipureintro; exact harg12.read_unread _
      iexact HY
    iexists _; iexact HZ

set_option maxHeartbeats 1000000 in
/-- The body at a grid point that is neither first nor last: the projected block stored into its rows, the block's
    contribution added to the accumulator, the result row's buffer untouched. -/
noncomputable def runMiddle (hc0 : ¬condFirst i) (hc1 : condLater i) (hc2 : ¬condLast i) :
    Σ' (LY : List (View.Piece (Elt F) S10000x32 .f32)), { LZ : List (View.Piece (Elt F) S32x10000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare xo ∗ owns (c : Thread nD τ) arg12 fullShare ys ∗ owns (c : Thread nD τ) arg13 fullShare zs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
                ∗ owns (c : Thread nD τ) arg11 fullShare xo
                ∗ (∃ f, ⌜arg12.view.read (Elt F) f = ys⌝ ∗ arg12.view.loc (c : Thread nD τ) ↦[arg12.view.set]{fullShare} arg12.view.writes (Elt F) f LY)
                ∗ (∃ f, arg13.view.loc (c : Thread nD τ) ↦[arg13.view.set]{fullShare} arg13.view.writes (Elt F) f LZ)) -∗ K ⟨⟩))
          ⊢ wp frame (wpE (defs₀ (F := F)) Variants.none c none) E (cc0__gnn_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, HO⟩, ⟨%fy, %hfy, HY⟩, ⟨%fz, %hfz, HZ⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfo; obtain rfl := harg12.eq_unread hfy; obtain rfl := harg13.eq_unread hfz
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HO]
    · iexists _; isplitr; · ipureintro; exact harg11.read_unread _
      iexact HO
    isplitl [HY]
    · iexists _; isplitr; · ipureintro; exact harg12.read_unread _
      iexact HY
    iexists _; iexact HZ

set_option maxHeartbeats 1000000 in
/-- The body at the last grid point: as at a middle point, and then the closing stage's row of results stored whole. -/
noncomputable def runLast (hc0 : ¬condFirst i) (hc1 : condLater i) (hc2 : condLast i) :
    Σ' (LO : List (View.Piece (Elt F) S1x128 .f32)) (LY : List (View.Piece (Elt F) S10000x32 .f32)), { LZ : List (View.Piece (Elt F) S32x10000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare xo ∗ owns (c : Thread nD τ) arg12 fullShare ys ∗ owns (c : Thread nD τ) arg13 fullShare zs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
                ∗ (∃ f, arg11.view.loc (c : Thread nD τ) ↦[arg11.view.set]{fullShare} arg11.view.writes (Elt F) f LO)
                ∗ (∃ f, ⌜arg12.view.read (Elt F) f = ys⌝ ∗ arg12.view.loc (c : Thread nD τ) ↦[arg12.view.set]{fullShare} arg12.view.writes (Elt F) f LY)
                ∗ (∃ f, arg13.view.loc (c : Thread nD τ) ↦[arg13.view.set]{fullShare} arg13.view.writes (Elt F) f LZ)) -∗ K ⟨⟩))
          ⊢ wp frame (wpE (defs₀ (F := F)) Variants.none c none) E (cc0__gnn_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, HO⟩, ⟨%fy, %hfy, HY⟩, ⟨%fz, %hfz, HZ⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfo; obtain rfl := harg12.eq_unread hfy; obtain rfl := harg13.eq_unread hfz
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HO]
    · iexists _; iexact HO
    isplitl [HY]
    · iexists _; isplitr; · ipureintro; exact harg12.read_unread _
      iexact HY
    iexists _; iexact HZ

end Runs

end Cert.GinKernelBits

end
-- ==== Proof.BDefs.lean ====
/-
  The proof data of the one launch. After grid point n the accumulator holds the first block's contribution plus those
  of blocks 1 … n (a term defined by recursion over the body's own arithmetic), and the buffer of projections holds
  SOME contents whose rows below 400·(n + 1) are the projected rows of blocks 0 … n — the rows of later blocks are
  whatever the buffer held when the launch began, which nothing names. At the last point every row is a projected row,
  so the buffer is one definite array and the closing stage's row of results is one definite term: what the result
  window's buffer holds after the last point, and the only block ever written back.
-/
import proofs.«108040_g76570676953656_cont_sun_m_424_5_alg».proof.Proof.BRuns
import Idealize.ShloMosaic.Lib.WritesUnit
import Idealize.ShloMosaic.Lib.ValueIdx
import Idealize.ShloMosaic.Lib.Pipeline.Value

set_option maxRecDepth 16384

noncomputable section

namespace Cert.GinKernelBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at a grid point -/

abbrev ms0 (t : Fin cfg0.N) : Memref sig .tc .vmem S400x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S32x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S32x32 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S32x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S32x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x128 .f32 := win0_10.stage (cfg0.slots t 10)
abbrev hs10 (t : Fin cfg0.N) : (ms10 t).IsWhole := hstage0_10 ((cfg0.slots t 10).cast nbuf0_10)
/-- The buffer of projections and the accumulator: whole buffers of the kernel's own. -/
abbrev scY : Memref sig .tc .vmem S10000x32 .f32 := Memref.whole cc0_scratch0
abbrev scZ : Memref sig .tc .vmem S32x10000 .f32 := Memref.whole cc0_scratch1

/-- What the launch hands the region and takes back: the two buffers at some contents, the generator register at some state. -/
theorem PhiA_eq (c : Dev nD) :
    (Pipeline.ΦA spec0 c : sProp 𝕄)
      = iprop(iprop((∃ d, owns (c : Thread nD τ) scY fullShare d) ∗ (∃ d, owns (c : Thread nD τ) scZ fullShare d)) ∗ (∃ r, prngReg c r)) := by
  unfold Pipeline.ΦA; rw [scopedRest0_eq]; simp only [scY, scZ, owns_whole]; try rfl

theorem N_eq : cfg0.N = 25 := N_0

/-- The last grid point. -/
def tLast : Fin cfg0.N := ⟨24, by rw [N_eq]; omega⟩

/-! ## The named contents -/

/-- The accumulator after point n: the first block's contribution, then one block's contribution added per point. -/
def zAt (c : Dev nD) : (n : ℕ) → n < cfg0.N → Vec F S32x10000 .f32
  | 0, h => k0_pay4 (iblk m c 0 ⟨0, h⟩) (iblk m c 1 ⟨0, h⟩) (iblk m c 2 ⟨0, h⟩)
  | n + 1, h => k0_pay5 (iblk m c 0 ⟨n + 1, h⟩) (iblk m c 1 ⟨n + 1, h⟩) (iblk m c 2 ⟨n + 1, h⟩) (zAt c n (Nat.lt_of_succ_lt h))

/-- The block a row of the buffer of projections belongs to. -/
def rowBlock (j : S10000x32.Idx) : Fin cfg0.N :=
  ⟨(j 0).val / 400, by have := ValueIdx.idx2_lt0 j; rw [N_eq]; omega⟩

/-- The buffer of projections once every block has been stored: row r is row r mod 400 of block r div 400's projection. -/
def yFull (c : Dev nD) : Vec F S10000x32 .f32 := fun j =>
  k0_pay2 (iblk m c 0 (rowBlock j)) (iblk m c 2 (rowBlock j))
    (ValueIdx.ix2 (⟨(j 0).val % 400, Nat.mod_lt _ (by norm_num)⟩ : Fin 400) (⟨(j 1).val, ValueIdx.idx2_lt1 j⟩ : Fin 32))

/-- Contents of the buffer of projections whose rows below 400·(n + 1) are the projected rows. -/
def GoodUpTo (c : Dev nD) (n : ℕ) (Y : Vec F S10000x32 .f32) : Prop :=
  ∀ j : S10000x32.Idx, (j 0).val < 400 * (n + 1) → Y j = yFull m c j

/-- The closing stage's row of results, from the full buffer of projections and the full accumulator. -/
def outVal (c : Dev nD) : Vec F S1x128 .f32 :=
  k0_pay6 (k0_pay7 (yFull m c) (zAt m c 24 (by rw [N_eq]; omega)) (iblk m c 3 tLast) (iblk m c 4 tLast) (iblk m c 5 tLast) (iblk m c 6 tLast))
    (k0_pay8 (iblk m c 7 tLast)) (iblk m c 8 tLast) (iblk m c 9 tLast)

/-! ## The invariant between points -/

/-- Before the first point the launch's own invariant; after point n the accumulator at its named contents and the
    buffer of projections at some contents good up to n. -/
def PhiS (c : Dev nD) : (n : ℕ) → n ≤ cfg0.N → sProp 𝕄
  | 0, _ => Pipeline.ΦA spec0 c
  | n + 1, hn => iprop(iprop((∃ Y, ⌜GoodUpTo m c n Y⌝ ∗ owns (c : Thread nD τ) scY fullShare Y) ∗ owns (c : Thread nD τ) scZ fullShare (zAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop((∃ Y, ⌜GoodUpTo m c n Y⌝ ∗ owns (c : Thread nD τ) scY fullShare Y) ∗ owns (c : Thread nD τ) scZ fullShare (zAt m c n hn)) ∗ (∃ r, prngReg c r)) := rfl
theorem PhiS_pos (c : Dev nD) (n : ℕ) (h : n ≤ cfg0.N) (hz : n ≠ 0) :
    PhiS m c n h = iprop(iprop((∃ Y, ⌜GoodUpTo m c (n - 1) Y⌝ ∗ owns (c : Thread nD τ) scY fullShare Y) ∗ owns (c : Thread nD τ) scZ fullShare (zAt m c (n - 1) (by omega))) ∗ (∃ r, prngReg c r)) := by
  cases n with
  | zero => exact absurd rfl hz
  | succ n => rfl

/-! ## The proof data -/

/-- The arrays as the region finds them; after the body each input's buffer at its block and the result window's
    at the closing stage's row (it is stored at the last point only, and written back there only). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outVal m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outVal m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- The inputs are never idle. -/
theorem live (w : Fin 11) (hw : w.val < 10) : ∀ t : Fin cfg0.N, cfg0.idle w (grid0.coords t) = false := by
  intro t
  match w, hw with
  | ⟨0, _⟩, _ => rfl | ⟨1, _⟩, _ => rfl | ⟨2, _⟩, _ => rfl | ⟨3, _⟩, _ => rfl | ⟨4, _⟩, _ => rfl
  | ⟨5, _⟩, _ => rfl | ⟨6, _⟩, _ => rfl | ⟨7, _⟩, _ => rfl | ⟨8, _⟩, _ => rfl | ⟨9, _⟩, _ => rfl
/-- The result window is idle exactly away from the last point, -/
theorem idle10_iff : ∀ t : Fin cfg0.N, cfg0.idle 10 (grid0.coords t) = true ↔ t.val ≠ 24 :=
  (by decide +kernel : ∀ t : Fin grid0.N, cfg0.idle 10 (grid0.coords t) = true ↔ t.val ≠ 24)
/-- and written back exactly at the last point. -/
theorem flush10_iff : ∀ t : Fin cfg0.N, (cfg0.win 10).flush t = true ↔ t.val = 24 :=
  (by decide +kernel : ∀ t : Fin grid0.N, win0_10.flush t = true ↔ t.val = 24)

end Cert.GinKernelBits

end
-- ==== Proof.BPieces.lean ====
/-
  What each run of the body leaves, restated over the values it was handed: the block of projected rows as one stored
  piece of the buffer of projections; the accumulator's one whole piece (the block's contribution at the first point,
  the old contents plus the contribution later); and at the last point the result row's one whole piece — the closing
  stage applied to the buffer of projections as read after this point's store and to the accumulator just stored.
-/
import proofs.«108040_g76570676953656_cont_sun_m_424_5_alg».proof.Proof.BRuns
import Idealize.ShloMosaic.Lib.Pipeline.Value
import Idealize.ShloMosaic.Lib.Pipeline.FrameBody

set_option maxRecDepth 16384

noncomputable section

namespace Cert.GinKernelBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

section Pieces
variable (c : Dev nD) (i : grid0.Coords)
  (arg1 : Memref sig .tc .vmem S400x128 .f32) (harg1 : arg1.IsWhole) (arg2 : Memref sig .tc .vmem S400x10000 .f32) (harg2 : arg2.IsWhole)
  (arg3 : Memref sig .tc .vmem S128x32 .f32) (harg3 : arg3.IsWhole) (arg4 : Memref sig .tc .vmem S32x1 .f32) (harg4 : arg4.IsWhole)
  (arg5 : Memref sig .tc .vmem S32x1 .f32) (harg5 : arg5.IsWhole) (arg6 : Memref sig .tc .vmem S32x1 .f32) (harg6 : arg6.IsWhole)
  (arg7 : Memref sig .tc .vmem S32x32 .f32) (harg7 : arg7.IsWhole) (arg8 : Memref sig .tc .vmem S32x1 .f32) (harg8 : arg8.IsWhole)
  (arg9 : Memref sig .tc .vmem S32x128 .f32) (harg9 : arg9.IsWhole) (arg10 : Memref sig .tc .vmem S1x128 .f32) (harg10 : arg10.IsWhole)
  (arg11 : Memref sig .tc .vmem S1x128 .f32) (harg11 : arg11.IsWhole) (arg12 : Memref sig .tc .vmem S10000x32 .f32) (harg12 : arg12.IsWhole)
  (arg13 : Memref sig .tc .vmem S32x10000 .f32) (harg13 : arg13.IsWhole)
  (x0 : Vec F S400x128 .f32) (x1 : Vec F S400x10000 .f32) (x2 : Vec F S128x32 .f32) (x3 : Vec F S32x1 .f32) (x4 : Vec F S32x1 .f32)
  (x5 : Vec F S32x1 .f32) (x6 : Vec F S32x32 .f32) (x7 : Vec F S32x1 .f32) (x8 : Vec F S32x128 .f32) (x9 : Vec F S1x128 .f32)
  (xo : Vec F S1x128 .f32) (ys : Vec F S10000x32 .f32) (zs : Vec F S32x10000 .f32)

theorem zeros2 : (![0, 0] : Fin 2 → ℕ) = fun _ => 0 := funext fun a => by fin_cases a <;> rfl

/-- The block of projected rows, stored at rows 400·k … 400·k + 399. -/
def pieceY : View.Piece (Elt F) S10000x32 .f32 :=
  ⟨Rect.unit (s := S10000x32) (k0_off1 i) S400x32.size (k0_off1_inb i), k0_pay2 x0 x2⟩

theorem runFirst_Y (hc0 : condFirst i) (hc1 : ¬condLater i) (hc2 : ¬condLast i) :
    (runFirst c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 xo ys zs hc0 hc1 hc2).1 = [pieceY i x0 x2] := by
  unfold runFirst pieceY; dsimp only
  simp only [View.readAt_eq_ld, harg1.read_unread, harg3.read_unread, View.ld_unit_zero (S := S400x128) zeros2, View.ld_unit_zero (S := S128x32) zeros2]

theorem runFirst_Z (hc0 : condFirst i) (hc1 : ¬condLater i) (hc2 : ¬condLast i) :
    (runFirst c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 xo ys zs hc0 hc1 hc2).2.1
      = [⟨Rect.unit (s := S32x10000) ![0, 0] S32x10000.size inb_S32x10000_S32x10000_0_0, k0_pay4 x0 x1 x2⟩] := by
  unfold runFirst; dsimp only
  simp only [View.readAt_eq_ld, harg1.read_unread, harg2.read_unread, harg3.read_unread, View.ld_unit_zero (S := S400x128) zeros2, View.ld_unit_zero (S := S400x10000) zeros2, View.ld_unit_zero (S := S128x32) zeros2]

theorem runMiddle_Y (hc0 : ¬condFirst i) (hc1 : condLater i) (hc2 : ¬condLast i) :
    (runMiddle c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 xo ys zs hc0 hc1 hc2).1 = [pieceY i x0 x2] := by
  unfold runMiddle pieceY; dsimp only
  simp only [View.readAt_eq_ld, harg1.read_unread, harg3.read_unread, View.ld_unit_zero (S := S400x128) zeros2, View.ld_unit_zero (S := S128x32) zeros2]

theorem runMiddle_Z (hc0 : ¬condFirst i) (hc1 : condLater i) (hc2 : ¬condLast i) :
    (runMiddle c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 xo ys zs hc0 hc1 hc2).2.1
      = [⟨Rect.unit (s := S32x10000) ![0, 0] S32x10000.size inb_S32x10000_S32x10000_0_0, k0_pay5 x0 x1 x2 zs⟩] := by
  unfold runMiddle; dsimp only
  simp only [View.readAt_eq_ld, harg1.read_unread, harg2.read_unread, harg3.read_unread, harg13.read_unread, View.ld_unit_zero (S := S400x128) zeros2, View.ld_unit_zero (S := S400x10000) zeros2, View.ld_unit_zero (S := S128x32) zeros2, View.ld_unit_zero (S := S32x10000) zeros2]

theorem runLast_Y (hc0 : ¬condFirst i) (hc1 : condLater i) (hc2 : condLast i) :
    (runLast c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 xo ys zs hc0 hc1 hc2).2.1 = [pieceY i x0 x2] := by
  unfold runLast pieceY; dsimp only; sl_unfold_run_names
  simp only [View.readAt_eq_ld, harg1.read_unread, harg3.read_unread, View.ld_unit_zero (S := S400x128) zeros2, View.ld_unit_zero (S := S128x32) zeros2]

theorem runLast_Z (hc0 : ¬condFirst i) (hc1 : condLater i) (hc2 : condLast i) :
    (runLast c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 xo ys zs hc0 hc1 hc2).2.2.1
      = [⟨Rect.unit (s := S32x10000) ![0, 0] S32x10000.size inb_S32x10000_S32x10000_0_0, k0_pay5 x0 x1 x2 zs⟩] := by
  unfold runLast; dsimp only; sl_unfold_run_names
  simp only [View.readAt_eq_ld, harg1.read_unread, harg2.read_unread, harg3.read_unread, harg13.read_unread, View.ld_unit_zero (S := S400x128) zeros2, View.ld_unit_zero (S := S400x10000) zeros2, View.ld_unit_zero (S := S128x32) zeros2, View.ld_unit_zero (S := S32x10000) zeros2]

/-- The buffer of projections as the closing stage reads it: the contents handed in with this point's block stored. -/
def yAfter : Vec F S10000x32 .f32 :=
  arg12.view.read (Elt F) (arg12.view.writes (Elt F) (harg12.unread ys) [pieceY i x0 x2])

theorem runLast_O (hc0 : ¬condFirst i) (hc1 : condLater i) (hc2 : condLast i) :
    (runLast c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 xo ys zs hc0 hc1 hc2).1
      = [⟨Rect.unit (s := S1x128) ![0, 0] S1x128.size inb_S1x128_S1x128_0_0,
          k0_pay6 (k0_pay7 (yAfter i arg12 harg12 x0 x2 ys) (k0_pay5 x0 x1 x2 zs) x3 x4 x5 x6) (k0_pay8 x7) x8 x9⟩] := by
  unfold runLast yAfter pieceY; dsimp only; sl_unfold_run_names
  simp only [View.readAt_eq_ld, harg1.read_unread, harg2.read_unread, harg3.read_unread, harg4.read_unread, harg5.read_unread, harg6.read_unread, harg7.read_unread, harg8.read_unread, harg9.read_unread, harg10.read_unread, harg13.read_unread,
    View.ld_unit_zero (S := S400x128) zeros2, View.ld_unit_zero (S := S400x10000) zeros2, View.ld_unit_zero (S := S128x32) zeros2, View.ld_unit_zero (S := S32x10000) zeros2, View.ld_unit_zero (S := S32x1) zeros2, View.ld_unit_zero (S := S32x32) zeros2, View.ld_unit_zero (S := S32x128) zeros2, View.ld_unit_zero (S := S1x128) zeros2, View.ld_unit_zero (S := S10000x32) zeros2]
  have e : arg13.view.readCov [(⟨Rect.unit (s := S32x10000) ![0, 0] S32x10000.size inb_S32x10000_S32x10000_0_0, k0_pay5 x0 x1 x2 zs⟩ : View.Piece (Elt F) S32x10000 .f32)]
      (Rect.unit (s := S32x10000) ![0, 0] S32x10000.size inb_S32x10000_S32x10000_0_0).toLoadRect = k0_pay5 x0 x1 x2 zs :=
    View.readCov_unit_zero (S := S32x10000) arg13.view zeros2 inb_S32x10000_S32x10000_0_0 _
  exact congrArg (fun z => [(⟨Rect.unit (s := S1x128) ![0, 0] S1x128.size inb_S1x128_S1x128_0_0,
    k0_pay6 (k0_pay7 (yAfter i arg12 harg12 x0 x2 ys) z x3 x4 x5 x6) (k0_pay8 x7) x8 x9⟩ : View.Piece (Elt F) S1x128 .f32)]) e

end Pieces

end Cert.GinKernelBits

end
-- ==== Proof.BBodyFirst.lean ====
/-
  The body at one grid point, from the invariant before it to the invariant after it. Storing block t's projected rows
  into contents whose rows below 400·t are projected rows gives contents whose rows below 400·(t + 1) are: a row of
  block t reads the new piece, an earlier row reads what was there. The accumulator's one whole piece reads back as its
  payload. Here: the shared statements and the first point, where both buffers start at contents nothing names.
-/
import proofs.«108040_g76570676953656_cont_sun_m_424_5_alg».proof.Proof.BDefs
import proofs.«108040_g76570676953656_cont_sun_m_424_5_alg».proof.Proof.BPieces
import Idealize.ShloMosaic.Lib.WritesUnit
import Idealize.ShloMosaic.Lib.ValueIdx
import Idealize.ShloMosaic.Lib.Pipeline.Value
import Idealize.ShloMosaic.Lib.Pipeline.FrameBody

set_option maxRecDepth 16384

noncomputable section

namespace Cert.GinKernelBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one grid coordinate of point t is t. -/
theorem coord_val : ∀ t : Fin cfg0.N, (grid0.coords t 0).val = t.val :=
  (by decide +kernel : ∀ t : Fin grid0.N, (grid0.coords t 0).val = t.val)
/-- Block t is stored at row 400·t, column 0. -/
theorem off_eq (t : Fin cfg0.N) : k0_off1 (grid0.coords t) = ![400 * t.val, 0] := by
  rw [k0_off1_eq, coord_val]

/-- One whole-buffer piece of a rank-2 buffer reads back as its payload, whatever was there. -/
theorem read_whole2 {d : Fin 2 → ℕ} (v : View sig .tc .vmem (⟨2, d⟩ : Shape) .f32) (f : v.ty.Contents (Elt F))
    (inb : ∀ a, (![0, 0] : Fin 2 → ℕ) a + (⟨2, d⟩ : Shape).size a ≤ (⟨2, d⟩ : Shape).size a) (w : (⟨2, d⟩ : Shape).Idx → Elt F .f32) :
    v.read (Elt F) (v.writes (Elt F) f [(⟨Rect.unit (s := ⟨2, d⟩) ![0, 0] (⟨2, d⟩ : Shape).size inb, w⟩ : View.Piece (Elt F) ⟨2, d⟩ .f32)]) = w := by
  funext y
  exact View.read_writes_cons_unit_of_mem v f inb w [] y y rfl (fun a => by
    have h0 : (![0, 0] : Fin 2 → ℕ) a = 0 := by fin_cases a <;> rfl
    rw [h0, Nat.zero_add])

/-- Storing block t's projected rows keeps the earlier rows and makes block t's rows projected rows. -/
theorem good_step (c : Dev nD) (t : Fin cfg0.N) (ys : Vec F S10000x32 .f32) (f : scY.view.ty.Contents (Elt F))
    (hf : scY.view.read (Elt F) f = ys) (hprev : t.val ≠ 0 → GoodUpTo m c (t.val - 1) ys) :
    GoodUpTo m c t.val (scY.view.read (Elt F) (scY.view.writes (Elt F) f [pieceY (grid0.coords t) (iblk m c 0 t) (iblk m c 2 t)])) := by
  intro j hj
  unfold pieceY
  by_cases hin : 400 * t.val ≤ (j 0).val
  · have hx : (j 0).val - 400 * t.val < 400 := by omega
    refine (View.read_writes_cons_rows_of_mem scY.view f (k0_off1_inb (grid0.coords t)) _ [] j
      (ValueIdx.ix2 (⟨(j 0).val - 400 * t.val, hx⟩ : Fin 400) (⟨(j 1).val, ValueIdx.idx2_lt1 j⟩ : Fin 32)) (o := 400 * t.val) (off_eq t)
      (by show (j 0).val = 400 * t.val + ((j 0).val - 400 * t.val); omega) rfl).trans ?_
    unfold yFull
    have hb : rowBlock j = t := Fin.ext (by show (j 0).val / 400 = t.val; omega)
    rw [hb]
    exact congrArg _ (congrArg₂ ValueIdx.ix2 (Fin.ext (by show (j 0).val - 400 * t.val = (j 0).val % 400; omega)) rfl)
  · have ht : t.val ≠ 0 := by omega
    refine (View.read_writes_cons_rows_of_not_mem scY.view f (k0_off1_inb (grid0.coords t)) _ [] j (o := 400 * t.val) (W := 400) (off_eq t) rfl
      (Or.inl (by omega))).trans ?_
    rw [View.writes_nil, hf]
    exact hprev ht j (by omega)

/-! ## The obligation's two sides -/

/-- What the body is called with at point t: the invariant, what the core owes, and every window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))
/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t ∗ (dats m 0 c).leavesExact 9 t ∗ (dats m 0 c).leavesExact 10 t)

theorem leaves0 (c : Dev nD) (t : Fin cfg0.N) : (dats m 0 c).leavesExact 0 t = owns (c : Thread nD τ) (ms0 t) fullShare (iblk m c 0 t) := by
  unfold Dat.leavesExact; rw [live 0 (by decide) t, after0]
theorem leaves1 (c : Dev nD) (t : Fin cfg0.N) : (dats m 0 c).leavesExact 1 t = owns (c : Thread nD τ) (ms1 t) fullShare (iblk m c 1 t) := by
  unfold Dat.leavesExact; rw [live 1 (by decide) t, after1]
theorem leaves2 (c : Dev nD) (t : Fin cfg0.N) : (dats m 0 c).leavesExact 2 t = owns (c : Thread nD τ) (ms2 t) fullShare (iblk m c 2 t) := by
  unfold Dat.leavesExact; rw [live 2 (by decide) t, after2]
theorem leaves3 (c : Dev nD) (t : Fin cfg0.N) : (dats m 0 c).leavesExact 3 t = owns (c : Thread nD τ) (ms3 t) fullShare (iblk m c 3 t) := by
  unfold Dat.leavesExact; rw [live 3 (by decide) t, after3]
theorem leaves4 (c : Dev nD) (t : Fin cfg0.N) : (dats m 0 c).leavesExact 4 t = owns (c : Thread nD τ) (ms4 t) fullShare (iblk m c 4 t) := by
  unfold Dat.leavesExact; rw [live 4 (by decide) t, after4]
theorem leaves5 (c : Dev nD) (t : Fin cfg0.N) : (dats m 0 c).leavesExact 5 t = owns (c : Thread nD τ) (ms5 t) fullShare (iblk m c 5 t) := by
  unfold Dat.leavesExact; rw [live 5 (by decide) t, after5]
theorem leaves6 (c : Dev nD) (t : Fin cfg0.N) : (dats m 0 c).leavesExact 6 t = owns (c : Thread nD τ) (ms6 t) fullShare (iblk m c 6 t) := by
  unfold Dat.leavesExact; rw [live 6 (by decide) t, after6]
theorem leaves7 (c : Dev nD) (t : Fin cfg0.N) : (dats m 0 c).leavesExact 7 t = owns (c : Thread nD τ) (ms7 t) fullShare (iblk m c 7 t) := by
  unfold Dat.leavesExact; rw [live 7 (by decide) t, after7]
theorem leaves8 (c : Dev nD) (t : Fin cfg0.N) : (dats m 0 c).leavesExact 8 t = owns (c : Thread nD τ) (ms8 t) fullShare (iblk m c 8 t) := by
  unfold Dat.leavesExact; rw [live 8 (by decide) t, after8]
theorem leaves9 (c : Dev nD) (t : Fin cfg0.N) : (dats m 0 c).leavesExact 9 t = owns (c : Thread nD τ) (ms9 t) fullShare (iblk m c 9 t) := by
  unfold Dat.leavesExact; rw [live 9 (by decide) t, after9]
/-- Away from the last point the result window's buffer is handed back as found. -/
theorem leaves10_idle (c : Dev nD) (t : Fin cfg0.N) (h : t.val ≠ 24) :
    (dats m 0 c).leavesExact 10 t = iprop(∃ d, owns (c : Thread nD τ) (ms10 t) fullShare ((dats m 0 c).before 10 t d)) :=
  Dat.leavesExact_idle (dats m 0 c) 10 t ((idle10_iff t).mpr h)
    (by rw [Bool.eq_false_iff]; intro hf; exact h ((flush10_iff t).mp hf))

set_option maxHeartbeats 4000000 in
/-- The first point: both buffers of the kernel's own start at contents nothing names. -/
theorem sound_first (c : Dev nD) (t : Fin cfg0.N) (h0 : t.val = 0) :
    bodyPre m c t ⊢ wp frame (wpE (defs₀ (F := F)) Variants.none c none) Set.univ (bodyAt0 t) (fun _ => bodyPost m c t) := by
  obtain ⟨n, hn⟩ := t
  dsimp only at h0
  subst h0
  generalize ht : (⟨0, hn⟩ : Fin cfg0.N) = t
  have ht0 : t.val = 0 := by rw [← ht]
  have hcF : condFirst (grid0.coords t) := (condFirst_iff t).mpr ht0
  have hcL : ¬condLater (grid0.coords t) := fun h => by have := (condLater_iff t).mp h; omega
  have hcC : ¬condLast (grid0.coords t) := fun h => by have := (condLast_iff t).mp h; omega
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9, leaves10_idle m c t (by omega)]
  rw [PhiS_castSucc m c t, PhiS_zero m c _ _ ht0, PhiA_eq]
  iintro ⟨⟨⟨⟨%dY, HY⟩, ⟨%dZ, HZ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scY (Memref.isWhole_whole _) scZ (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) dY dZ hcF hcL hcC).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HY]; · iexact HY
  isplitl [HZ]; · iexact HZ
  iintro ⟨H0, H1, H2, H3, H4, H5, H6, H7, H8, H9, H10, ⟨%fy, %hfy, HY⟩, ⟨%fz, HZ⟩⟩
  isplitl [HY HZ Hg]
  · isplitl [HY HZ]
    · isplitl [HY]
      · iexists _; isplitr; swap
        · unfold owns; iexists _; isplitr; swap
          · iexact HY
          ipureintro; rfl
        ipureintro
        rw [runFirst_Y]
        exact good_step m c t dY fy hfy (fun h => absurd ht0 h)
      unfold owns; iexists _; isplitr; swap
      · iexact HZ
      ipureintro
      rw [runFirst_Z]
      refine (read_whole2 _ _ _ _).trans ?_
      subst ht
      rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

end Cert.GinKernelBits

end
-- ==== Proof.BBodyLater.lean ====
/-
  The body at the later grid points. At a point that is neither first nor last the accumulator handed in is the named
  one of the point before and the block's contribution is added to it. At the last point the same happens, and then
  the closing stage reads the buffer of projections — every one of whose rows is now a projected row, so it is the
  full array of projections — and the accumulator just stored, and its row of results is stored whole: the named result.
-/
import proofs.«108040_g76570676953656_cont_sun_m_424_5_alg».proof.Proof.BBodyFirst

set_option maxRecDepth 16384

noncomputable section

namespace Cert.GinKernelBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After a point that is not the first the accumulator is the one before plus the point's contribution. -/
theorem zAt_pos (c : Dev nD) (t : Fin cfg0.N) (h0 : t.val ≠ 0) :
    zAt m c t.val t.isLt = k0_pay5 (iblk m c 0 t) (iblk m c 1 t) (iblk m c 2 t) (zAt m c (t.val - 1) (lt_of_le_of_lt (Nat.sub_le _ _) t.isLt)) := by
  obtain ⟨n, hn⟩ := t
  cases n with
  | zero => exact absurd rfl h0
  | succ n => rfl

/-- At the last point the result window's buffer is left at the named result. -/
theorem leaves10_last (c : Dev nD) (t : Fin cfg0.N) (h : t.val = 24) :
    (dats m 0 c).leavesExact 10 t = owns (c : Thread nD τ) (ms10 t) fullShare (outVal m c) := by
  unfold Dat.leavesExact
  rw [show cfg0.idle 10 (grid0.coords t) = false from by
    rw [Bool.eq_false_iff]; intro hi; exact (idle10_iff t).mp hi h, after10]

/-- The closing stage on contents good up to the point before the last, with the last block stored, is the named result. -/
theorem outVal_of_last (c : Dev nD) (Y0 : Vec F S10000x32 .f32) (hY0 : GoodUpTo m c 23 Y0) :
    k0_pay6 (k0_pay7 (yAfter (grid0.coords tLast) scY (Memref.isWhole_whole _) (iblk m c 0 tLast) (iblk m c 2 tLast) Y0)
        (k0_pay5 (iblk m c 0 tLast) (iblk m c 1 tLast) (iblk m c 2 tLast) (zAt m c 23 (by rw [N_eq]; omega)))
        (iblk m c 3 tLast) (iblk m c 4 tLast) (iblk m c 5 tLast) (iblk m c 6 tLast))
      (k0_pay8 (iblk m c 7 tLast)) (iblk m c 8 tLast) (iblk m c 9 tLast) = outVal m c := by
  have hy : yAfter (grid0.coords tLast) scY (Memref.isWhole_whole _) (iblk m c 0 tLast) (iblk m c 2 tLast) Y0 = yFull m c :=
    funext fun j => good_step m c tLast Y0 _ ((Memref.isWhole_whole _).read_unread _) (fun _ => hY0) j
      (by have := ValueIdx.idx2_lt0 j; show (j 0).val < 400 * (24 + 1); omega)
  rw [hy]
  rfl

set_option maxHeartbeats 4000000 in
/-- A point that is neither first nor last. -/
theorem sound_middle (c : Dev nD) (t : Fin cfg0.N) (h0 : t.val ≠ 0) (h24 : t.val ≠ 24) :
    bodyPre m c t ⊢ wp frame (wpE (defs₀ (F := F)) Variants.none c none) Set.univ (bodyAt0 t) (fun _ => bodyPost m c t) := by
  have hcF : ¬condFirst (grid0.coords t) := fun h => h0 ((condFirst_iff t).mp h)
  have hcL : condLater (grid0.coords t) := (condLater_iff t).mpr (by omega)
  have hcC : ¬condLast (grid0.coords t) := fun h => h24 ((condLast_iff t).mp h)
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9, leaves10_idle m c t h24]
  rw [PhiS_castSucc m c t, PhiS_pos m c _ _ h0]
  iintro ⟨⟨⟨⟨%Y0, %hY0, HY⟩, HZ⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runMiddle c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scY (Memref.isWhole_whole _) scZ (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) Y0 (zAt m c (t.val - 1) (lt_of_le_of_lt (Nat.sub_le _ _) t.isLt)) hcF hcL hcC).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HY]; · iexact HY
  isplitl [HZ]; · iexact HZ
  iintro ⟨H0, H1, H2, H3, H4, H5, H6, H7, H8, H9, H10, ⟨%fy, %hfy, HY⟩, ⟨%fz, HZ⟩⟩
  isplitl [HY HZ Hg]
  · isplitl [HY HZ]
    · isplitl [HY]
      · iexists _; isplitr; swap
        · unfold owns; iexists _; isplitr; swap
          · iexact HY
          ipureintro; rfl
        ipureintro
        rw [runMiddle_Y]
        exact good_step m c t Y0 fy hfy (fun _ => hY0)
      unfold owns; iexists _; isplitr; swap
      · iexact HZ
      ipureintro
      rw [runMiddle_Z]
      exact (read_whole2 _ _ _ _).trans (zAt_pos m c t h0).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

set_option maxHeartbeats 4000000 in
/-- The last point. -/
theorem sound_last (c : Dev nD) (t : Fin cfg0.N) (h24 : t.val = 24) :
    bodyPre m c t ⊢ wp frame (wpE (defs₀ (F := F)) Variants.none c none) Set.univ (bodyAt0 t) (fun _ => bodyPost m c t) := by
  have h0 : t.val ≠ 0 := by omega
  have hcF : ¬condFirst (grid0.coords t) := fun h => h0 ((condFirst_iff t).mp h)
  have hcL : condLater (grid0.coords t) := (condLater_iff t).mpr (by omega)
  have hcC : condLast (grid0.coords t) := (condLast_iff t).mpr h24
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9, leaves10_last m c t h24]
  rw [PhiS_castSucc m c t, PhiS_pos m c _ _ h0]
  iintro ⟨⟨⟨⟨%Y0, %hY0, HY⟩, HZ⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scY (Memref.isWhole_whole _) scZ (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) Y0 (zAt m c (t.val - 1) (lt_of_le_of_lt (Nat.sub_le _ _) t.isLt)) hcF hcL hcC).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HY]; · iexact HY
  isplitl [HZ]; · iexact HZ
  iintro ⟨H0, H1, H2, H3, H4, H5, H6, H7, H8, H9, ⟨%fo, HO⟩, ⟨%fy, %hfy, HY⟩, ⟨%fz, HZ⟩⟩
  isplitl [HY HZ Hg]
  · isplitl [HY HZ]
    · isplitl [HY]
      · iexists _; isplitr; swap
        · unfold owns; iexists _; isplitr; swap
          · iexact HY
          ipureintro; rfl
        ipureintro
        rw [runLast_Y]
        exact good_step m c t Y0 fy hfy (fun _ => hY0)
      unfold owns; iexists _; isplitr; swap
      · iexact HZ
      ipureintro
      rw [runLast_Z]
      exact (read_whole2 _ _ _ _).trans (zAt_pos m c t h0).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr; swap
  · iexact HO
  ipureintro
  rw [runLast_O]
  refine (read_whole2 _ _ _ _).trans ?_
  have ht : t = tLast := Fin.ext h24
  subst ht
  exact outVal_of_last m c Y0 hY0

end Cert.GinKernelBits

end
-- ==== Proof.BBody.lean ====
/-
  The body obligation at every grid point — the first, a middle one, or the last —, the two ends of the invariant
  (the launch's own invariant is the invariant before the first point; after the last point the named contents are
  forgotten and the launch's own invariant is given back), the launch, and the frame: every weakly fair execution
  terminates, nothing faults, the argument arrays end unchanged, and the result array ends at what the proof data
  computes from the one block written back.
-/
import proofs.«108040_g76570676953656_cont_sun_m_424_5_alg».proof.Proof.BBodyLater

set_option maxRecDepth 16384

noncomputable section

namespace Cert.GinKernelBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any grid point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  · by_cases h24 : t.val = 24
    · exact sound_last m c t h24
    · exact sound_middle m c t h0 h24

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the launch's own back: the named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last, N_eq]; omega), PhiA_eq]
  iintro ⟨⟨⟨%Y, %hY, HY⟩, HZ⟩, Hg⟩
  isplitl [HY HZ]
  · isplitl [HY]
    · iexists _; iexact HY
    iexists _; iexact HZ
  iexact Hg

-- the launch theorem's implicit arguments are found by unifying its conclusion with this one, which takes unfolding plain
-- definitions in a metavariable's type
set_option backward.isDefEq.respectTransparency.types false in
/-- The launch: every weakly fair execution of @main terminates, and every final state has every array of the pipeline
    at what the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame, at any float instance: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.GinKernelBits

end
-- ==== Proof.Blocks.lean ====
/-
  What each input window's block holds at a grid point, read at an index in terms of the ARGUMENT arrays, on the
  extended reals.

  The region has ten input windows. Windows 0 and 1 walk the node features and the adjacency in blocks of 400 rows:
  at grid point `t` the block's row `r` is the array's row `400·t + r`. The other eight are one whole block each.
  Four of the ten arrays are arguments as launched; the other six were written before the region by a host operation
  from an argument: two transposes (the first and the last linear maps' weights) and four reshapes of a vector to a
  column (`[32] → [32, 1]`) or to a row (`[128] → [1, 128]`). Each statement below reads the block at an index and
  names the argument's entry it is.
-/
import proofs.«108040_g76570676953656_cont_sun_m_424_5_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run

noncomputable section

namespace Cert.GinKernel

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD) (t : Fin cfg0.N)

/-! ## A vector cast to a column -/

/-- An `[a]` array cast to `[a, 1]` reads, at `(i, u)`, the operand at `i`, whatever the unit coordinate `u`:
    both have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-! ## The arrays a host operation wrote before the region, as terms of the arguments -/

/-- Window 2's array is the first linear map's weights `[32, 128]` transposed to `[128, 32]`. -/
theorem V_main_v0 : (V m c main_v0 : S128x32.Idx → EReal)
    = transpose S128x32 [1, 0] (m ((c : Thread nD τ).loc main_arg2)) transposes_S32x128_S128x32_1_0 := by
  dsimp only [Gen.V, Gen.hostOps0]
  after_results

/-- Window 8's array is the last linear map's weights `[128, 32]` transposed to `[32, 128]`. -/
theorem V_main_v1 : (V m c main_v1 : S32x128.Idx → EReal)
    = transpose S32x128 [1, 0] (m ((c : Thread nD τ).loc main_arg8)) transposes_S128x32_S32x128_1_0 := by
  dsimp only [Gen.V, Gen.hostOps0]
  after_results

/-- Window 3's array is the first bias `[32]` cast to a column `[32, 1]`. -/
theorem V_main_v2 : (V m c main_v2 : S32x1.Idx → EReal)
    = shapeCast S32x1 (m ((c : Thread nD τ).loc main_arg3)) shapeCasts_S32_S32x1 := by
  dsimp only [Gen.V, Gen.hostOps0]
  after_results
  rfl

/-- Window 4's array is the scale `[32]` cast to a column `[32, 1]`. -/
theorem V_main_v3 : (V m c main_v3 : S32x1.Idx → EReal)
    = shapeCast S32x1 (m ((c : Thread nD τ).loc main_arg4)) shapeCasts_S32_S32x1 := by
  dsimp only [Gen.V, Gen.hostOps0]
  after_results
  rfl

/-- Window 5's array is the shift `[32]` cast to a column `[32, 1]`. -/
theorem V_main_v4 : (V m c main_v4 : S32x1.Idx → EReal)
    = shapeCast S32x1 (m ((c : Thread nD τ).loc main_arg5)) shapeCasts_S32_S32x1 := by
  dsimp only [Gen.V, Gen.hostOps0]
  after_results
  rfl

/-- Window 7's array is the second bias `[32]` cast to a column `[32, 1]`. -/
theorem V_main_v5 : (V m c main_v5 : S32x1.Idx → EReal)
    = shapeCast S32x1 (m ((c : Thread nD τ).loc main_arg7)) shapeCasts_S32_S32x1 := by
  dsimp only [Gen.V, Gen.hostOps0]
  after_results
  rfl

/-- Window 9's array is the last bias `[128]` cast to a row `[1, 128]`. -/
theorem V_main_v6 : (V m c main_v6 : S1x128.Idx → EReal)
    = shapeCast S1x128 (m ((c : Thread nD τ).loc main_arg9)) shapeCasts_S128_S1x128 := by
  dsimp only [Gen.V, Gen.hostOps0]
  after_results
  rfl

/-! ## Where a block's index sits in its array

A block's coordinate on an axis is always the block index times the block's size plus the coordinate inside the
block; the block indices are read off the printed index maps, decided once over the 25 grid points. -/

/-- Row `r` of block `t` of 400 rows is a row of the 10000. -/
theorem row_lt (r : Fin 400) : 400 * t.val + r.val < 10000 := by
  have ht : t.val < 25 := lt_of_lt_of_eq t.isLt N_0
  have hr := r.isLt
  omega

/-- Window 0's block index at grid point `t` is `(t, 0)`. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- So the block's index `(r, d)` sits at the array's index `(400·t + r, d)`. -/
theorem emb0 (r : Fin 400) (d : Fin 128) :
    ((cfg0.win 0).blk t).view.emb (ix2 r d) = ix2 ⟨400 * t.val + r.val, row_lt t r⟩ d := by
  obtain ⟨e0, e1⟩ := idx0 t
  funext a; apply Fin.ext
  match a with
  | ⟨0, _⟩ => show win0_0.index t (0 : Fin 2) * 400 + 1 * r.val = 400 * t.val + r.val; omega
  | ⟨1, _⟩ => show win0_0.index t (1 : Fin 2) * 128 + 1 * d.val = d.val; omega

/-- Window 1's block index at grid point `t` is `(t, 0)`. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- So the block's index `(r, j)` sits at the array's index `(400·t + r, j)`. -/
theorem emb1 (r : Fin 400) (j : Fin 10000) :
    ((cfg0.win 1).blk t).view.emb (ix2 r j) = ix2 ⟨400 * t.val + r.val, row_lt t r⟩ j := by
  obtain ⟨e0, e1⟩ := idx1 t
  funext a; apply Fin.ext
  match a with
  | ⟨0, _⟩ => show win0_1.index t (0 : Fin 2) * 400 + 1 * r.val = 400 * t.val + r.val; omega
  | ⟨1, _⟩ => show win0_1.index t (1 : Fin 2) * 10000 + 1 * j.val = j.val; omega

/-- Window 2 is one whole block: its block index is `(0, 0)` at every grid point. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- So the block's index `(d, h)` sits at the array's index `(d, h)`. -/
theorem emb2 (d : Fin 128) (h : Fin 32) : ((cfg0.win 2).blk t).view.emb (ix2 d h) = ix2 d h := by
  obtain ⟨e0, e1⟩ := idx2 t
  funext a; apply Fin.ext
  match a with
  | ⟨0, _⟩ => show win0_2.index t (0 : Fin 2) * 128 + 1 * d.val = d.val; omega
  | ⟨1, _⟩ => show win0_2.index t (1 : Fin 2) * 32 + 1 * h.val = h.val; omega

/-- Window 3 is one whole block: its block index is `(0, 0)` at every grid point. -/
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- So the block's index `(h, u)` sits at the array's index `(h, u)`. -/
theorem emb3 (h : Fin 32) (u : Fin 1) : ((cfg0.win 3).blk t).view.emb (ix2 h u) = ix2 h u := by
  obtain ⟨e0, e1⟩ := idx3 t
  funext a; apply Fin.ext
  match a with
  | ⟨0, _⟩ => show win0_3.index t (0 : Fin 2) * 32 + 1 * h.val = h.val; omega
  | ⟨1, _⟩ => show win0_3.index t (1 : Fin 2) * 1 + 1 * u.val = u.val; omega

/-- Window 4 is one whole block: its block index is `(0, 0)` at every grid point. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- So the block's index `(h, u)` sits at the array's index `(h, u)`. -/
theorem emb4 (h : Fin 32) (u : Fin 1) : ((cfg0.win 4).blk t).view.emb (ix2 h u) = ix2 h u := by
  obtain ⟨e0, e1⟩ := idx4 t
  funext a; apply Fin.ext
  match a with
  | ⟨0, _⟩ => show win0_4.index t (0 : Fin 2) * 32 + 1 * h.val = h.val; omega
  | ⟨1, _⟩ => show win0_4.index t (1 : Fin 2) * 1 + 1 * u.val = u.val; omega

/-- Window 5 is one whole block: its block index is `(0, 0)` at every grid point. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- So the block's index `(h, u)` sits at the array's index `(h, u)`. -/
theorem emb5 (h : Fin 32) (u : Fin 1) : ((cfg0.win 5).blk t).view.emb (ix2 h u) = ix2 h u := by
  obtain ⟨e0, e1⟩ := idx5 t
  funext a; apply Fin.ext
  match a with
  | ⟨0, _⟩ => show win0_5.index t (0 : Fin 2) * 32 + 1 * h.val = h.val; omega
  | ⟨1, _⟩ => show win0_5.index t (1 : Fin 2) * 1 + 1 * u.val = u.val; omega

/-- Window 6 is one whole block: its block index is `(0, 0)` at every grid point. -/
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- So the block's index `(h, k)` sits at the array's index `(h, k)`. -/
theorem emb6 (h : Fin 32) (k : Fin 32) : ((cfg0.win 6).blk t).view.emb (ix2 h k) = ix2 h k := by
  obtain ⟨e0, e1⟩ := idx6 t
  funext a; apply Fin.ext
  match a with
  | ⟨0, _⟩ => show win0_6.index t (0 : Fin 2) * 32 + 1 * h.val = h.val; omega
  | ⟨1, _⟩ => show win0_6.index t (1 : Fin 2) * 32 + 1 * k.val = k.val; omega

/-- Window 7 is one whole block: its block index is `(0, 0)` at every grid point. -/
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- So the block's index `(h, u)` sits at the array's index `(h, u)`. -/
theorem emb7 (h : Fin 32) (u : Fin 1) : ((cfg0.win 7).blk t).view.emb (ix2 h u) = ix2 h u := by
  obtain ⟨e0, e1⟩ := idx7 t
  funext a; apply Fin.ext
  match a with
  | ⟨0, _⟩ => show win0_7.index t (0 : Fin 2) * 32 + 1 * h.val = h.val; omega
  | ⟨1, _⟩ => show win0_7.index t (1 : Fin 2) * 1 + 1 * u.val = u.val; omega

/-- Window 8 is one whole block: its block index is `(0, 0)` at every grid point. -/
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- So the block's index `(h, o)` sits at the array's index `(h, o)`. -/
theorem emb8 (h : Fin 32) (o : Fin 128) : ((cfg0.win 8).blk t).view.emb (ix2 h o) = ix2 h o := by
  obtain ⟨e0, e1⟩ := idx8 t
  funext a; apply Fin.ext
  match a with
  | ⟨0, _⟩ => show win0_8.index t (0 : Fin 2) * 32 + 1 * h.val = h.val; omega
  | ⟨1, _⟩ => show win0_8.index t (1 : Fin 2) * 128 + 1 * o.val = o.val; omega

/-- Window 9 is one whole block: its block index is `(0, 0)` at every grid point. -/
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- So the block's index `(u, o)` sits at the array's index `(u, o)`. -/
theorem emb9 (u : Fin 1) (o : Fin 128) : ((cfg0.win 9).blk t).view.emb (ix2 u o) = ix2 u o := by
  obtain ⟨e0, e1⟩ := idx9 t
  funext a; apply Fin.ext
  match a with
  | ⟨0, _⟩ => show win0_9.index t (0 : Fin 2) * 1 + 1 * u.val = u.val; omega
  | ⟨1, _⟩ => show win0_9.index t (1 : Fin 2) * 128 + 1 * o.val = o.val; omega

/-! ## The blocks read at an index -/

/-- Window 0 (node features): row `r` of block `t` is row `400·t + r` of the argument. -/
theorem iblk0_apply (r : Fin 400) (d : Fin 128) :
    iblk (F := Ideal) m c 0 t (ix2 r d) = m ((c : Thread nD τ).loc main_arg0) (ix2 ⟨400 * t.val + r.val, row_lt t r⟩ d) := by
  unfold iblk
  show V m c main_arg0 (((cfg0.win 0).blk t).view.emb (ix2 r d)) = _
  rw [emb0, V_main_arg0]

/-- Window 1 (adjacency): row `r` of block `t` is row `400·t + r` of the argument. -/
theorem iblk1_apply (r : Fin 400) (j : Fin 10000) :
    iblk (F := Ideal) m c 1 t (ix2 r j) = m ((c : Thread nD τ).loc main_arg1) (ix2 ⟨400 * t.val + r.val, row_lt t r⟩ j) := by
  unfold iblk
  show V m c main_arg1 (((cfg0.win 1).blk t).view.emb (ix2 r j)) = _
  rw [emb1, V_main_arg1]

/-- Window 2: the first linear map's weights transposed, `(d, h) ↦ W1[h, d]`. -/
theorem iblk2_apply (d : Fin 128) (h : Fin 32) :
    iblk (F := Ideal) m c 2 t (ix2 d h) = m ((c : Thread nD τ).loc main_arg2) (ix2 h d) := by
  unfold iblk
  show V m c main_v0 (((cfg0.win 2).blk t).view.emb (ix2 d h)) = _
  rw [emb2, V_main_v0]
  exact transpose_ix2_apply _ _ d h

/-- Window 3: the first bias as a column, `(h, 0) ↦ b1[h]`. -/
theorem iblk3_apply (h : Fin 32) :
    iblk (F := Ideal) m c 3 t (ix2 h 0) = m ((c : Thread nD τ).loc main_arg3) (ix1 h) := by
  unfold iblk
  show V m c main_v2 (((cfg0.win 3).blk t).view.emb (ix2 h 0)) = _
  rw [emb3, V_main_v2]
  exact shapeCast_a_a1_apply _ _ h 0

/-- Window 4: the scale as a column, `(h, 0) ↦ gamma[h]`. -/
theorem iblk4_apply (h : Fin 32) :
    iblk (F := Ideal) m c 4 t (ix2 h 0) = m ((c : Thread nD τ).loc main_arg4) (ix1 h) := by
  unfold iblk
  show V m c main_v3 (((cfg0.win 4).blk t).view.emb (ix2 h 0)) = _
  rw [emb4, V_main_v3]
  exact shapeCast_a_a1_apply _ _ h 0

/-- Window 5: the shift as a column, `(h, 0) ↦ beta[h]`. -/
theorem iblk5_apply (h : Fin 32) :
    iblk (F := Ideal) m c 5 t (ix2 h 0) = m ((c : Thread nD τ).loc main_arg5) (ix1 h) := by
  unfold iblk
  show V m c main_v4 (((cfg0.win 5).blk t).view.emb (ix2 h 0)) = _
  rw [emb5, V_main_v4]
  exact shapeCast_a_a1_apply _ _ h 0

/-- Window 6: the second linear map's weights, as launched. -/
theorem iblk6_apply (h k : Fin 32) :
    iblk (F := Ideal) m c 6 t (ix2 h k) = m ((c : Thread nD τ).loc main_arg6) (ix2 h k) := by
  unfold iblk
  show V m c main_arg6 (((cfg0.win 6).blk t).view.emb (ix2 h k)) = _
  rw [emb6, V_main_arg6]

/-- Window 7: the second bias as a column, `(h, 0) ↦ b2[h]`. -/
theorem iblk7_apply (h : Fin 32) :
    iblk (F := Ideal) m c 7 t (ix2 h 0) = m ((c : Thread nD τ).loc main_arg7) (ix1 h) := by
  unfold iblk
  show V m c main_v5 (((cfg0.win 7).blk t).view.emb (ix2 h 0)) = _
  rw [emb7, V_main_v5]
  exact shapeCast_a_a1_apply _ _ h 0

/-- Window 8: the last linear map's weights transposed, `(h, o) ↦ Wfc[o, h]`. -/
theorem iblk8_apply (h : Fin 32) (o : Fin 128) :
    iblk (F := Ideal) m c 8 t (ix2 h o) = m ((c : Thread nD τ).loc main_arg8) (ix2 o h) := by
  unfold iblk
  show V m c main_v1 (((cfg0.win 8).blk t).view.emb (ix2 h o)) = _
  rw [emb8, V_main_v1]
  exact transpose_ix2_apply _ _ h o

/-- Window 9: the last bias as a row, `(0, o) ↦ bfc[o]`. -/
theorem iblk9_apply (o : Fin 128) :
    iblk (F := Ideal) m c 9 t (ix2 0 o) = m ((c : Thread nD τ).loc main_arg9) (ix1 o) := by
  unfold iblk
  show V m c main_v6 (((cfg0.win 9).blk t).view.emb (ix2 0 o)) = _
  rw [emb9, V_main_v6]
  exact shapeCast_a_1a_apply _ _ 0 o

end Cert.GinKernel

end
-- ==== Proof.Spec.lean ====
/-
  The two programs as functions of the argument arrays, entry by entry, on the extended reals.

  A graph layer over n = 10000 nodes with 128 input features, 32 hidden features and 128 outputs.
  Write x for the node features, A for the dense adjacency, W1, b1 for the first linear map.
  The streaming form projects first, y = x · W1ᵀ, accumulates z[h, j] = Σ_i y[i, h] · A[i, j] over row blocks of A,
  and takes t[h, j] = (y[j, h] + z[h, j]) + b1[h]; the textbook form aggregates first, g[j, d] = Σ_i A[i, j] · x[i, d],
  and takes s[j, c] = Σ_d (x[j, d] + g[j, d]) · W1[c, d] + b1[c]. For real entries t[h, j] = s[j, h] by distributivity.
  From there both normalise each feature over the nodes (mean and biased variance, divisor the f32 word of 10000,
  the f32 word of 1e-5 added to the variance), scale and shift by gamma and beta, rectify, apply the second linear map
  W2, b2, rectify, average over the nodes, and apply the last linear map Wfc, bfc. The streaming form multiplies by the
  reciprocal square root, the textbook form divides by the square root; they agree because the variance plus the word
  of 1e-5 is positive.
-/
import Idealize.ShloMosaic.PureOps.Ideal
import Idealize.ShloMosaic.Lib.ValueIdx

noncomputable section

open scoped BigOperators

namespace Cert.GinSpec

open Idealize.ShloMosaic Idealize.ShloMosaic.ValueIdx

/-- The argument arrays, entry by entry. -/
structure Args where
  x : Fin 10000 → Fin 128 → EReal
  adj : Fin 10000 → Fin 10000 → EReal
  W1 : Fin 32 → Fin 128 → EReal
  b1 : Fin 32 → EReal
  gamma : Fin 32 → EReal
  beta : Fin 32 → EReal
  W2 : Fin 32 → Fin 32 → EReal
  b2 : Fin 32 → EReal
  Wfc : Fin 128 → Fin 32 → EReal
  bfc : Fin 128 → EReal

/-- The arguments read off the ten arrays. -/
def Args.ofArrays (X : (⟨2, ![10000, 128]⟩ : Shape).Idx → EReal) (A : (⟨2, ![10000, 10000]⟩ : Shape).Idx → EReal)
    (W1 : (⟨2, ![32, 128]⟩ : Shape).Idx → EReal) (b1 gamma beta : (⟨1, ![32]⟩ : Shape).Idx → EReal)
    (W2 : (⟨2, ![32, 32]⟩ : Shape).Idx → EReal) (b2 : (⟨1, ![32]⟩ : Shape).Idx → EReal)
    (Wfc : (⟨2, ![128, 32]⟩ : Shape).Idx → EReal) (bfc : (⟨1, ![128]⟩ : Shape).Idx → EReal) : Args where
  x i d := X (ix2 i d)
  adj i j := A (ix2 i j)
  W1 h d := W1 (ix2 h d)
  b1 h := b1 (ix1 h)
  gamma h := gamma (ix1 h)
  beta h := beta (ix1 h)
  W2 h k := W2 (ix2 h k)
  b2 h := b2 (ix1 h)
  Wfc o h := Wfc (ix2 o h)
  bfc o := bfc (ix1 o)

/-- An extended real that is a real number. -/
def IsRealVal (v : EReal) : Prop := ∃ r : ℝ, v = (r : EReal)

/-- Every entry of every argument is a real number. -/
structure Args.IsReal (a : Args) : Prop where
  x : ∀ i d, IsRealVal (a.x i d)
  adj : ∀ i j, IsRealVal (a.adj i j)
  W1 : ∀ h d, IsRealVal (a.W1 h d)
  b1 : ∀ h, IsRealVal (a.b1 h)
  gamma : ∀ h, IsRealVal (a.gamma h)
  beta : ∀ h, IsRealVal (a.beta h)
  W2 : ∀ h k, IsRealVal (a.W2 h k)
  b2 : ∀ h, IsRealVal (a.b2 h)
  Wfc : ∀ o h, IsRealVal (a.Wfc o h)
  bfc : ∀ o, IsRealVal (a.bfc o)

/-- The node count as both programs write it: the f32 word of 10000. -/
def cN : EReal := Ideal.ofBits .f32 0x461C4000#32
/-- The variance offset as both programs write it: the f32 word nearest 1e-5. -/
def cEps : EReal := Ideal.ofBits .f32 0x3727C5AC#32
/-- The rectifier's threshold: the f32 zero word. -/
def cZero : EReal := Ideal.ofBits .f32 0x00000000#32

/-! ## The streaming form (feature-major: feature h, node j) -/

/-- The projected features, y[i, h] = Σ_d x[i, d] · W1[h, d]. -/
def yK (a : Args) (i : Fin 10000) (h : Fin 32) : EReal := ∑ d : Fin 128, a.x i d * a.W1 h d
/-- The aggregated projections, z[h, j] = Σ_i y[i, h] · A[i, j]. -/
def zK (a : Args) (h : Fin 32) (j : Fin 10000) : EReal := ∑ i : Fin 10000, yK a i h * a.adj i j
/-- The first layer before normalisation, t[h, j] = (y[j, h] + z[h, j]) + b1[h]. -/
def tK (a : Args) (h : Fin 32) (j : Fin 10000) : EReal := (yK a j h + zK a h j) + a.b1 h

/-- A feature's mean over the nodes. -/
def muK (t : Fin 32 → Fin 10000 → EReal) (h : Fin 32) : EReal := Ideal.div (∑ j : Fin 10000, t h j) cN
/-- The centred features. -/
def dK (t : Fin 32 → Fin 10000 → EReal) (h : Fin 32) (j : Fin 10000) : EReal := t h j - muK t h
/-- A feature's biased variance over the nodes. -/
def varK (t : Fin 32 → Fin 10000 → EReal) (h : Fin 32) : EReal := Ideal.div (∑ j : Fin 10000, dK t h j * dK t h j) cN
/-- Normalised, scaled, shifted and rectified. -/
def rK (a : Args) (t : Fin 32 → Fin 10000 → EReal) (h : Fin 32) (j : Fin 10000) : EReal :=
  max (((dK t h j * Ideal.rsqrt (varK t h + cEps)) * a.gamma h) + a.beta h) cZero
/-- The second layer, rectified. -/
def h2K (a : Args) (t : Fin 32 → Fin 10000 → EReal) (h : Fin 32) (j : Fin 10000) : EReal :=
  max ((∑ k : Fin 32, a.W2 h k * rK a t k j) + a.b2 h) cZero
/-- The mean over the nodes. -/
def pooledK (a : Args) (t : Fin 32 → Fin 10000 → EReal) (h : Fin 32) : EReal := Ideal.div (∑ j : Fin 10000, h2K a t h j) cN
/-- The last linear map applied to the pooled features. -/
def tailK (a : Args) (t : Fin 32 → Fin 10000 → EReal) (o : Fin 128) : EReal :=
  (∑ h : Fin 32, pooledK a t h * a.Wfc o h) + a.bfc o
/-- The streaming form's result. -/
def kernelOut (a : Args) (o : Fin 128) : EReal := tailK a (tK a) o

/-! ## The textbook form (node-major: node j, feature c) -/

/-- The aggregated inputs, g[j, d] = Σ_i A[i, j] · x[i, d]. -/
def gR (a : Args) (j : Fin 10000) (d : Fin 128) : EReal := ∑ i : Fin 10000, a.adj i j * a.x i d
/-- The first layer before normalisation, s[j, c] = Σ_d (x[j, d] + g[j, d]) · W1[c, d] + b1[c]. -/
def sR (a : Args) (j : Fin 10000) (c : Fin 32) : EReal := (∑ d : Fin 128, (a.x j d + gR a j d) * a.W1 c d) + a.b1 c

/-- A feature's mean over the nodes. -/
def muR (s : Fin 10000 → Fin 32 → EReal) (c : Fin 32) : EReal := Ideal.div (∑ j : Fin 10000, s j c) cN
/-- A feature's biased variance over the nodes. -/
def varR (s : Fin 10000 → Fin 32 → EReal) (c : Fin 32) : EReal :=
  Ideal.div (∑ j : Fin 10000, (s j c - muR s c) * (s j c - muR s c)) cN
/-- Normalised, scaled, shifted and rectified. -/
def rR (a : Args) (s : Fin 10000 → Fin 32 → EReal) (j : Fin 10000) (c : Fin 32) : EReal :=
  max (((Ideal.div (s j c - muR s c) (Ideal.sqrt (varR s c + cEps))) * a.gamma c) + a.beta c) cZero
/-- The second layer, rectified. -/
def h2R (a : Args) (s : Fin 10000 → Fin 32 → EReal) (j : Fin 10000) (c : Fin 32) : EReal :=
  max ((∑ k : Fin 32, rR a s j k * a.W2 c k) + a.b2 c) cZero
/-- The mean over the nodes. -/
def pooledR (a : Args) (s : Fin 10000 → Fin 32 → EReal) (c : Fin 32) : EReal := Ideal.div (∑ j : Fin 10000, h2R a s j c) cN
/-- The last linear map applied to the pooled features. -/
def tailR (a : Args) (s : Fin 10000 → Fin 32 → EReal) (o : Fin 128) : EReal :=
  (∑ c : Fin 32, pooledR a s c * a.Wfc o c) + a.bfc o
/-- The textbook form's result. -/
def refOut (a : Args) (o : Fin 128) : EReal := tailR a (sR a) o

/-- A row of 128 results as the [1, 128] array both programs return. -/
def outArr (f : Fin 128 → EReal) : (⟨2, ![1, 128]⟩ : Shape).Idx → EReal := fun j => f (j 1)

end Cert.GinSpec

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibColumnDots.lean ====
/-
  Products of columns against columns, read at an index, on the extended reals.

  A contraction whose two operands are both contracted on their FIRST axis — [K,M] against [K,N], as a
  `tpu.matmul` into the zero accumulator — is, at the output index (p, f), the sum over d of entry (d, p) of
  the left operand times entry (d, f) of the right one: column p against column f. The statement holds for any
  dimension record equal to the literal one.
-/
import Idealize.ShloMosaic.PureOps.Ideal.Laws
import Idealize.ShloMosaic.Lib.ValueIdx

noncomputable section

namespace Cert.LibColumnDots

open Idealize.ShloMosaic Idealize.ShloMosaic.ValueIdx

variable {M K N : Nat}
variable (wf : DotDims.WF ⟨2, ![K, M]⟩ ⟨2, ![K, N]⟩ ⟨2, ![M, N]⟩ [0] [0] [1] [1] [] [])

/-- The literal record: both operands contracted on axis 0, no batch axis. -/
abbrev cols : DotDims ⟨2, ![K, M]⟩ ⟨2, ![K, N]⟩ ⟨2, ![M, N]⟩ := ⟨[0], [0], [1], [1], [], [], wf⟩

/-- The left operand's contracted coordinate is the contraction index. -/
theorem cols_lhs0 (i : (⟨2, ![M, N]⟩ : Shape).Idx) (q : (cols wf).contr.Idx) : ((cols wf).lhsIdx i q 0).val = (q ⟨0, Nat.one_pos⟩).val :=
  (cols wf).lhsIdx_val_of_single rfl i q

/-- The left operand's free coordinate is the output's row. -/
theorem cols_lhs1 (i : (⟨2, ![M, N]⟩ : Shape).Idx) (q : (cols wf).contr.Idx) : ((cols wf).lhsIdx i q 1).val = (i 0).val := by
  unfold DotDims.lhsIdx
  rw [dif_neg (show ¬(1 : Fin 2) ∈ (cols wf).lhsBatch from (by decide : ¬(1 : Fin 2) ∈ ([] : List (Fin 2)))), dif_pos (show (1 : Fin 2) ∈ (cols wf).lhsNonContracting from (by decide : (1 : Fin 2) ∈ ([1] : List (Fin 2))))]
  rfl

/-- The right operand's contracted coordinate is the contraction index. -/
theorem cols_rhs0 (i : (⟨2, ![M, N]⟩ : Shape).Idx) (q : (cols wf).contr.Idx) : ((cols wf).rhsIdx i q 0).val = (q ⟨0, Nat.one_pos⟩).val :=
  (cols wf).rhsIdx_val_of_single rfl i q

/-- The right operand's free coordinate is the output's column. -/
theorem cols_rhs1 (i : (⟨2, ![M, N]⟩ : Shape).Idx) (q : (cols wf).contr.Idx) : ((cols wf).rhsIdx i q 1).val = (i 1).val := by
  unfold DotDims.rhsIdx
  rw [dif_neg (show ¬(1 : Fin 2) ∈ (cols wf).rhsBatch from (by decide : ¬(1 : Fin 2) ∈ ([] : List (Fin 2)))), dif_pos (show (1 : Fin 2) ∈ (cols wf).rhsNonContracting from (by decide : (1 : Fin 2) ∈ ([1] : List (Fin 2))))]
  rfl

/-- The sum over the contraction index is the sum over d of column p of the left times column f of the right. -/
theorem cols_sum {φ₁ φ₂ : FTy} (a : FVec Ideal ⟨2, ![K, M]⟩ φ₁) (w : FVec Ideal ⟨2, ![K, N]⟩ φ₂) (p : Fin M) (f : Fin N) :
    ∑ k : (cols wf).contr.Idx, a ((cols wf).lhsIdx (ix2 p f) k) * w ((cols wf).rhsIdx (ix2 p f) k)
      = ∑ d : Fin K, a (ix2 d p) * w (ix2 d f) := by
  rw [← Equiv.sum_comp (contrEquiv1 (cols wf) K rfl rfl).symm]
  refine Finset.sum_congr rfl fun k _ => ?_
  have hk := contrEquiv1_symm_val (cols wf) K rfl rfl k
  have el : (cols wf).lhsIdx (ix2 p f) ((contrEquiv1 (cols wf) K rfl rfl).symm k) = ix2 k p := funext fun x => Fin.ext (by
    match x with
    | ⟨0, _⟩ => exact (cols_lhs0 wf _ _).trans hk
    | ⟨1, _⟩ => exact cols_lhs1 wf _ _)
  have er : (cols wf).rhsIdx (ix2 p f) ((contrEquiv1 (cols wf) K rfl rfl).symm k) = ix2 k f := funext fun x => Fin.ext (by
    match x with
    | ⟨0, _⟩ => exact (cols_rhs0 wf _ _).trans hk
    | ⟨1, _⟩ => exact cols_rhs1 wf _ _)
  rw [el, er]

/-- A `tpu.matmul` of columns against columns into the zero accumulator, at (p, f). -/
theorem matmul_cols {φ₁ φ₂ : FTy} (D : DotDims ⟨2, ![K, M]⟩ ⟨2, ![K, N]⟩ ⟨2, ![M, N]⟩) (hD : D = cols wf)
    (prec : Option ContractPrecision) (a : FVec Ideal ⟨2, ![K, M]⟩ φ₁) (w : FVec Ideal ⟨2, ![K, N]⟩ φ₂) (p : Fin M) (f : Fin N) :
    matmul D prec a w (constant (F := Ideal) ⟨2, ![M, N]⟩ .f32 0x00000000#32) (ix2 p f) = ∑ d : Fin K, a (ix2 d p) * w (ix2 d f) := by
  subst hD
  exact (Ideal.matmul_constant_zero_apply _ prec a w (ix2 p f)).trans (cols_sum wf a w p f)

end Cert.LibColumnDots

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payloads.lean ====
/-
  The kernel body's pure arithmetic, read one entry at a time on the extended reals.

  The body projects a block of node features (a matrix product), multiplies the projected block's columns against the
  columns of a block of the adjacency (a product contracting the first axis of both), and, at the last block,
  normalises each feature over the nodes, applies the second linear map, rectifies, averages over the nodes and applies
  the last linear map. Each stage is a layout operation, an elementwise operation, a row sum or a matrix product; read
  at an entry each is the textbook expression, and composed they are the streaming form's tail.
-/
import proofs.«108040_g76570676953656_cont_sun_m_424_5_alg».proof.Proof.Gen.KernelIdeal.Skeleton
import proofs.«108040_g76570676953656_cont_sun_m_424_5_alg».proof.Proof.Spec
import Idealize.ShloMosaic.Lib.ValueIdx
import Idealize.ShloMosaic.Lib.Pipeline.Value
import Idealize.ShloMosaic.Lib.ValueLayout
import Idealize.ShloMosaic.PureOps.Ideal.Laws
import proofs.«108040_g76570676953656_cont_sun_m_424_5_alg».proof.Proof.LibInnerProducts
import proofs.«108040_g76570676953656_cont_sun_m_424_5_alg».proof.Proof.LibColumnDots
import proofs.«108040_g76570676953656_cont_sun_m_424_5_alg».proof.Proof.LibKeepdims

noncomputable section

open scoped BigOperators

namespace Cert.GinKernel

open Cert.KernelIdeal Cert.KernelIdeal.Gen Cert.GinSpec Idealize.ShloMosaic Idealize.ShloMosaic.ValueIdx

variable [Cert.KernelIdeal.Facts]

/-! ## The projection and the aggregation -/

/-- The projected block: row r of the features against column h of the weights. -/
theorem pay1_apply (x0 : Vec Ideal S400x128 .f32) (w : Vec Ideal S128x32 .f32) (r : Fin 400) (h : Fin 32) :
    k0_pay1 (F := Ideal) x0 w (ix2 r h) = ∑ d : Fin 128, x0 (ix2 r d) * w (ix2 d h) := by
  unfold k0_pay1
  rw [shapeCast_self]
  exact InnerProducts.matmul_zero_apply _ rfl _ x0 w r h

/-- The projected block as it is stored: a cast to its own shape changes nothing. -/
theorem pay2_apply (x0 : Vec Ideal S400x128 .f32) (w : Vec Ideal S128x32 .f32) (r : Fin 400) (h : Fin 32) :
    k0_pay2 (F := Ideal) x0 w (ix2 r h) = ∑ d : Fin 128, x0 (ix2 r d) * w (ix2 d h) := by
  unfold k0_pay2
  rw [shapeCast_self]
  exact pay1_apply x0 w r h

/-- The block's contribution to the aggregate: column h of the projected block against column j of the adjacency
    block. -/
theorem pay3_apply (x0 : Vec Ideal S400x128 .f32) (x1 : Vec Ideal S400x10000 .f32) (w : Vec Ideal S128x32 .f32)
    (h : Fin 32) (j : Fin 10000) :
    k0_pay3 (F := Ideal) x0 x1 w (ix2 h j) = ∑ r : Fin 400, k0_pay1 (F := Ideal) x0 w (ix2 r h) * x1 (ix2 r j) := by
  unfold k0_pay3
  exact Cert.LibColumnDots.matmul_cols _ _ rfl _ (k0_pay1 (F := Ideal) x0 w) x1 h j

/-- The first block's contribution as it is stored. -/
theorem pay4_apply (x0 : Vec Ideal S400x128 .f32) (x1 : Vec Ideal S400x10000 .f32) (w : Vec Ideal S128x32 .f32)
    (h : Fin 32) (j : Fin 10000) :
    k0_pay4 (F := Ideal) x0 x1 w (ix2 h j) = k0_pay3 (F := Ideal) x0 x1 w (ix2 h j) := by
  unfold k0_pay4
  rw [shapeCast_self]

/-- A later block's contribution added to the running aggregate. -/
theorem pay5_apply (x0 : Vec Ideal S400x128 .f32) (x1 : Vec Ideal S400x10000 .f32) (w : Vec Ideal S128x32 .f32)
    (z : Vec Ideal S32x10000 .f32) (h : Fin 32) (j : Fin 10000) :
    k0_pay5 (F := Ideal) x0 x1 w z (ix2 h j) = z (ix2 h j) + k0_pay3 (F := Ideal) x0 x1 w (ix2 h j) := by
  unfold k0_pay5
  rw [shapeCast_self]
  rfl

/-! ## The tail, stage by stage

Each stage is named as an array operation over variables, read at an entry, and the two tail payloads are these stages
composed. -/

/-- A sum along the nodes, read at a feature: the sum over the nodes of the entries of that feature's row. -/
theorem rowsum_apply (v : FVec Ideal S32x10000 .f32) (h : Fin 32) :
    multiReduction .add [1] S32 v 0x00000000#32 reduces_S32x10000_S32 (.inl rfl) rfl (ix1 h)
      = ∑ j : Fin 10000, v (ix2 h j) := by
  refine (Ideal.multiReduction_add_single v _ reduces_S32x10000_S32 _ _ (ix1 h)).trans ?_
  show ∑ j : Fin 10000, v (reduces_S32x10000_S32.lift (ix1 h) j) = ∑ j : Fin 10000, v (ix2 h j)
  refine Finset.sum_congr rfl fun j _ => congrArg v (funext fun ax => Fin.ext ?_)
  match ax with
  | ⟨0, _⟩ => rfl
  | ⟨1, _⟩ => rfl

/-- The first layer before normalisation, feature-major: the stored projections transposed, plus the aggregate, plus
    the bias column spread over the nodes. -/
def tV (Y : Vec Ideal S10000x32 .f32) (Z : Vec Ideal S32x10000 .f32) (b1c : Vec Ideal S32x1 .f32) :
    FVec Ideal S32x10000 .f32 :=
  addf (addf (transpose S32x10000 [1, 0] Y transposes_S10000x32_p1_0_S32x10000) Z)
    (broadcastTo S32x10000 (shapeCast S32x1 b1c shapeCasts_S32x1_S32x1) broadcasts_S32x1_S32x10000)

/-- A column spread over the nodes. -/
def colOver (c : FVec Ideal S32x1 .f32) : FVec Ideal S32x10000 .f32 :=
  broadcastTo S32x10000 c broadcasts_S32x1_S32x10000

/-- Each feature's sum over the nodes divided by the node count, kept as a column. -/
def meanCol (v : FVec Ideal S32x10000 .f32) : FVec Ideal S32x1 .f32 :=
  divf (shapeCast S32x1 (multiReduction .add [1] S32 v 0x00000000#32 reduces_S32x10000_S32 (.inl rfl) rfl) shapeCasts_S32_S32x1)
    (broadcast S32x1 (Scalar.ofBits (F := Ideal) .f32 0x461C4000#32))

/-- The features with their means taken off. -/
def centred (v : FVec Ideal S32x10000 .f32) : FVec Ideal S32x10000 .f32 := subf v (colOver (meanCol v))

/-- The reciprocal square root of each feature's variance plus the offset, as a column. -/
def rCol (v : FVec Ideal S32x10000 .f32) : FVec Ideal S32x1 .f32 :=
  rsqrt (addf (meanCol (mulf (centred v) (centred v))) (broadcast S32x1 (Scalar.ofBits (F := Ideal) .f32 0x3727C5AC#32)))

/-- Normalised, scaled, shifted and rectified. -/
def rect (v : FVec Ideal S32x10000 .f32) (gc bc : Vec Ideal S32x1 .f32) : FVec Ideal S32x10000 .f32 :=
  maximumf
    (addf (mulf (mulf (centred v) (colOver (rCol v))) (colOver (shapeCast S32x1 gc shapeCasts_S32x1_S32x1)))
      (colOver (shapeCast S32x1 bc shapeCasts_S32x1_S32x1)))
    (broadcast S32x10000 (Scalar.ofBits (F := Ideal) .f32 0x00000000#32))

/-- The second layer's product is the second weight matrix against the rectified normalised first layer. -/
theorem pay7_eq (Y : Vec Ideal S10000x32 .f32) (Z : Vec Ideal S32x10000 .f32) (b1c gc bc : Vec Ideal S32x1 .f32)
    (w2 : Vec Ideal S32x32 .f32) :
    k0_pay7 (F := Ideal) Y Z b1c gc bc w2
      = matmul (φ₁ := .f32) (φ₂ := .f32) dot_S32x32_S32x10000_S32x10000_1_0_0_1_n_n (some .fp32) w2 (rect (tV Y Z b1c) gc bc)
          (constant S32x10000 .f32 0x00000000#32) := rfl

/-- The last payload: the pooled column of the rectified second layer against the last weights, plus the last bias. -/
theorem pay6_eq (v55 v58 : FVec Ideal S32x10000 .f32) (wfct : Vec Ideal S32x128 .f32) (bfcr : Vec Ideal S1x128 .f32) :
    k0_pay6 (F := Ideal) v55 v58 wfct bfcr
      = addf
          (matmul (φ₁ := .f32) (φ₂ := .f32) dot_S32x1_S32x128_S1x128_0_0_1_1_n_n (some .fp32)
            (meanCol (maximumf (addf v55 v58) (broadcast S32x10000 (Scalar.ofBits (F := Ideal) .f32 0x00000000#32))))
            (shapeCast S32x128 wfct shapeCasts_S32x128_S32x128) (constant S1x128 .f32 0x00000000#32))
          (shapeCast S1x128 bfcr shapeCasts_S1x128_S1x128) := rfl

/-- A reciprocal square root at an entry is the entry's. -/
theorem rsqrt_apply {s : Shape} {φ : FTy} (x : FVec Ideal s φ) (i : s.Idx) : rsqrt x i = Ideal.rsqrt (x i) := rfl

theorem colOver_apply (c : FVec Ideal S32x1 .f32) (h : Fin 32) (j : Fin 10000) :
    colOver c (ix2 h j) = c (ix2 h (0 : Fin 1)) :=
  Cert.LibKeepdims.broadcastTo_a1_ab_apply c _ h j

theorem tV_apply (Y : Vec Ideal S10000x32 .f32) (Z : Vec Ideal S32x10000 .f32) (b1c : Vec Ideal S32x1 .f32)
    (h : Fin 32) (j : Fin 10000) :
    tV Y Z b1c (ix2 h j) = (Y (ix2 j h) + Z (ix2 h j)) + b1c (ix2 h (0 : Fin 1)) := by
  unfold tV
  rw [addf_apply, addf_apply, transpose_ix2_apply, Cert.LibKeepdims.broadcastTo_a1_ab_apply, shapeCast_self]

theorem meanCol_apply (v : FVec Ideal S32x10000 .f32) (h : Fin 32) (u : Fin 1) :
    meanCol v (ix2 h u) = muK (fun h j => v (ix2 h j)) h := by
  unfold meanCol muK
  rw [divf_apply, Cert.LibKeepdims.shapeCast_a_a1_apply, rowsum_apply]
  rfl

theorem centred_apply (v : FVec Ideal S32x10000 .f32) (h : Fin 32) (j : Fin 10000) :
    centred v (ix2 h j) = dK (fun h j => v (ix2 h j)) h j := by
  unfold centred dK
  rw [subf_apply, colOver_apply, meanCol_apply]

theorem varCol_apply (v : FVec Ideal S32x10000 .f32) (h : Fin 32) (u : Fin 1) :
    meanCol (mulf (centred v) (centred v)) (ix2 h u) = varK (fun h j => v (ix2 h j)) h := by
  rw [meanCol_apply]
  unfold muK varK
  refine congrArg (fun s => Ideal.div s cN) (Finset.sum_congr rfl fun j _ => ?_)
  show mulf (centred v) (centred v) (ix2 h j) = _
  rw [mulf_apply, centred_apply]

theorem rCol_apply (v : FVec Ideal S32x10000 .f32) (h : Fin 32) (u : Fin 1) :
    rCol v (ix2 h u) = Ideal.rsqrt (varK (fun h j => v (ix2 h j)) h + cEps) := by
  unfold rCol
  rw [rsqrt_apply, addf_apply, varCol_apply]
  rfl

theorem rect_apply (a : Args) (v : FVec Ideal S32x10000 .f32) (gc bc : Vec Ideal S32x1 .f32)
    (hg : ∀ h : Fin 32, gc (ix2 h (0 : Fin 1)) = a.gamma h) (hb : ∀ h : Fin 32, bc (ix2 h (0 : Fin 1)) = a.beta h)
    (h : Fin 32) (j : Fin 10000) :
    rect v gc bc (ix2 h j) = rK a (fun h j => v (ix2 h j)) h j := by
  unfold rect rK
  rw [maximumf_apply, addf_apply, mulf_apply, mulf_apply, centred_apply, colOver_apply, colOver_apply, colOver_apply,
    rCol_apply, shapeCast_self, shapeCast_self, hg, hb]
  rfl

theorem pay7_apply (a : Args) (Y : Vec Ideal S10000x32 .f32) (Z : Vec Ideal S32x10000 .f32)
    (b1c gc bc : Vec Ideal S32x1 .f32) (w2 : Vec Ideal S32x32 .f32)
    (hg : ∀ h : Fin 32, gc (ix2 h (0 : Fin 1)) = a.gamma h) (hb : ∀ h : Fin 32, bc (ix2 h (0 : Fin 1)) = a.beta h)
    (hw2 : ∀ h k : Fin 32, w2 (ix2 h k) = a.W2 h k) (h : Fin 32) (j : Fin 10000) :
    k0_pay7 (F := Ideal) Y Z b1c gc bc w2 (ix2 h j)
      = ∑ k : Fin 32, a.W2 h k * rK a (fun h j => tV Y Z b1c (ix2 h j)) k j := by
  rw [pay7_eq]
  refine (InnerProducts.matmul_zero_apply _ rfl _ w2 (rect (tV Y Z b1c) gc bc) h j).trans ?_
  refine Finset.sum_congr rfl fun k _ => ?_
  rw [hw2, rect_apply a _ gc bc hg hb]

theorem pay8_apply (b2c : Vec Ideal S32x1 .f32) (h : Fin 32) (j : Fin 10000) :
    k0_pay8 (F := Ideal) b2c (ix2 h j) = b2c (ix2 h (0 : Fin 1)) := by
  unfold k0_pay8
  rw [Cert.LibKeepdims.broadcastTo_a1_ab_apply, shapeCast_self]

theorem pay6_apply (v55 v58 : FVec Ideal S32x10000 .f32) (wfct : Vec Ideal S32x128 .f32) (bfcr : Vec Ideal S1x128 .f32)
    (o : Fin 128) :
    k0_pay6 (F := Ideal) v55 v58 wfct bfcr (ix2 (0 : Fin 1) o)
      = (∑ d : Fin 32, muK (fun h j => max (v55 (ix2 h j) + v58 (ix2 h j)) cZero) d * wfct (ix2 d o))
          + bfcr (ix2 (0 : Fin 1) o) := by
  rw [pay6_eq, addf_apply, shapeCast_self, shapeCast_self]
  refine congrArg (fun s => s + bfcr (ix2 (0 : Fin 1) o)) ?_
  refine (Cert.LibColumnDots.matmul_cols _ _ rfl _ _ wfct (0 : Fin 1) o).trans ?_
  refine Finset.sum_congr rfl fun d _ => ?_
  rw [meanCol_apply]
  rfl

/-- The tail payloads composed: the stored result is the streaming form's tail of the first layer
    t[h, j] = (y[j, h] + z[h, j]) + b1[h]. -/
theorem epilogue_apply (a : Args) (Y : Vec Ideal S10000x32 .f32) (Z : Vec Ideal S32x10000 .f32)
    (b1c gc bc : Vec Ideal S32x1 .f32) (w2 : Vec Ideal S32x32 .f32) (b2c : Vec Ideal S32x1 .f32)
    (wfct : Vec Ideal S32x128 .f32) (bfcr : Vec Ideal S1x128 .f32)
    (hg : ∀ h : Fin 32, gc (ix2 h (0 : Fin 1)) = a.gamma h) (hb : ∀ h : Fin 32, bc (ix2 h (0 : Fin 1)) = a.beta h)
    (hw2 : ∀ h k : Fin 32, w2 (ix2 h k) = a.W2 h k) (hb2 : ∀ h : Fin 32, b2c (ix2 h (0 : Fin 1)) = a.b2 h)
    (hwfc : ∀ (h : Fin 32) (o : Fin 128), wfct (ix2 h o) = a.Wfc o h)
    (hbfc : ∀ o : Fin 128, bfcr (ix2 (0 : Fin 1) o) = a.bfc o) (o : Fin 128) :
    k0_pay6 (F := Ideal) (k0_pay7 (F := Ideal) Y Z b1c gc bc w2) (k0_pay8 (F := Ideal) b2c) wfct bfcr (ix2 (0 : Fin 1) o)
      = tailK a (fun h j => (Y (ix2 j h) + Z (ix2 h j)) + b1c (ix2 h (0 : Fin 1))) o := by
  have ht : (fun (h : Fin 32) (j : Fin 10000) => tV Y Z b1c (ix2 h j))
      = fun (h : Fin 32) (j : Fin 10000) => (Y (ix2 j h) + Z (ix2 h j)) + b1c (ix2 h (0 : Fin 1)) :=
    funext fun h => funext fun j => tV_apply Y Z b1c h j
  rw [pay6_apply, hbfc]
  unfold tailK
  refine congrArg (fun s => s + a.bfc o) (Finset.sum_congr rfl fun d _ => ?_)
  rw [hwfc]
  refine congrArg (fun s => s * a.Wfc o d) ?_
  unfold muK pooledK
  refine congrArg (fun s => Ideal.div s cN) (Finset.sum_congr rfl fun j _ => ?_)
  show max (k0_pay7 (F := Ideal) Y Z b1c gc bc w2 (ix2 d j) + k0_pay8 (F := Ideal) b2c (ix2 d j)) cZero = h2K a _ d j
  unfold h2K
  rw [pay7_apply a Y Z b1c gc bc w2 hg hb hw2, pay8_apply, hb2, ht]

end Cert.GinKernel

end
-- ==== Proof.LibBlockedSum.lean ====
/-
  A sum over a long axis, taken block by block.

  A sum over the first a·b naturals can be taken in a consecutive blocks of b terms: the term at position k sits in
  block k / b at place k % b, that is at b·s + d with s the block and d the place. Only commutativity and
  associativity of the addition are used, so the statement holds in any commutative monoid — in particular on the
  extended reals, where no finiteness is needed.
-/
import Mathlib.Algebra.BigOperators.Fin
import Mathlib.Logic.Equiv.Fin.Basic

open scoped BigOperators

namespace Cert.LibBlockedSum

/-- The sum over s < a of the sums over d < b of f (b·s + d) is the sum of f over the first a·b naturals. -/
theorem sum_range_blocks {β : Type*} [AddCommMonoid β] (a b : ℕ) (f : ℕ → β) :
    ∑ s ∈ Finset.range a, ∑ d : Fin b, f (b * s + d.val) = ∑ k : Fin (a * b), f k.val := by
  rw [← Equiv.sum_comp finProdFinEquiv (fun k : Fin (a * b) => f k.val), Fintype.sum_prod_type, Finset.sum_range]
  refine Finset.sum_congr rfl fun s _ => Finset.sum_congr rfl fun d _ => ?_
  refine congrArg f ?_
  show b * s.val + d.val = d.val + b * s.val
  exact Nat.add_comm _ _

end Cert.LibBlockedSum
-- ==== Proof.KValue.lean ====
/-
  The kernel's named result, on the extended reals, is the specification's streaming form.

  The buffer of projections, once every block is stored, holds at (j, h) the projection y[j, h] = Σ_d x[j, d] · W1[h, d]:
  row j sits in block j div 400 at place j mod 400, and 400 · (j div 400) + j mod 400 = j.
  The accumulator after grid point n holds at (h, j) the sum over the rows k < 400 · (n + 1) of y[k, h] · A[k, j]: the
  first block's contribution, then one block's contribution added per point, each block's contribution being the sum
  over its 400 rows; a sum over s ≤ n of sums over 400 consecutive terms is the sum over the first 400 · (n + 1) terms.
  After the last point, n = 24, that is the whole aggregate z[h, j]. The closing stage then computes the streaming form's
  tail of t[h, j] = (y[j, h] + z[h, j]) + b1[h].
-/
import proofs.«108040_g76570676953656_cont_sun_m_424_5_alg».proof.Proof.KDefs
import proofs.«108040_g76570676953656_cont_sun_m_424_5_alg».proof.Proof.Blocks
import proofs.«108040_g76570676953656_cont_sun_m_424_5_alg».proof.Proof.Payloads
import proofs.«108040_g76570676953656_cont_sun_m_424_5_alg».proof.Proof.Spec
import proofs.«108040_g76570676953656_cont_sun_m_424_5_alg».proof.Proof.LibBlockedSum

noncomputable section

open scoped BigOperators

namespace Cert.GinKernel

open Cert.KernelIdeal Cert.KernelIdeal.Gen Cert.GinSpec Idealize.ShloMosaic Idealize.ShloMosaic.TcCoe
  Idealize.ShloMosaic.ValueIdx Idealize.SL.Sem

variable (m : (ℓ : Loc nD τ sig) → Buf (Elt Ideal) ℓ) (c : Dev nD)

/-- The specification's arguments read off the ten argument arrays as launched. -/
def argsOf : Args :=
  Args.ofArrays (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-! ## The buffer of projections -/

/-- A block's projection at row `r`, feature `h`, is the projection of the array's row `400·t + r`. -/
theorem proj_block (t : Fin cfg0.N) (r : Fin 400) (h : Fin 32) :
    k0_pay1 (F := Ideal) (iblk m c 0 t) (iblk m c 2 t) (ix2 r h)
      = yK (argsOf m c) ⟨400 * t.val + r.val, row_lt t r⟩ h := by
  refine (pay1_apply _ _ r h).trans ?_
  unfold yK
  refine Finset.sum_congr rfl fun d _ => ?_
  rw [iblk0_apply, iblk2_apply]
  rfl

/-- The full buffer of projections holds the specification's projections. -/
theorem yFull_apply (j : Fin 10000) (h : Fin 32) : yFull (F := Ideal) m c (ix2 j h) = yK (argsOf m c) j h := by
  unfold yFull
  refine (pay2_apply _ _ _ _).trans ?_
  refine (pay1_apply _ _ _ _).symm.trans ?_
  refine (proj_block m c _ _ _).trans ?_
  exact congrArg (fun i : Fin 10000 => yK (argsOf m c) i h) (Fin.ext (Nat.div_add_mod j.val 400))

/-! ## The accumulator -/

/-- Row `k`'s term of the aggregate at `(h, j)`: `y[k, h] · A[k, j]` below the node count, zero above. -/
def contrib (a : Args) (h : Fin 32) (j : Fin 10000) (k : ℕ) : EReal :=
  if hk : k < 10000 then yK a ⟨k, hk⟩ h * a.adj ⟨k, hk⟩ j else 0

/-- One block's contribution to the aggregate is the sum of its 400 rows' terms. -/
theorem block_contrib (t : Fin cfg0.N) (h : Fin 32) (j : Fin 10000) :
    k0_pay3 (F := Ideal) (iblk m c 0 t) (iblk m c 1 t) (iblk m c 2 t) (ix2 h j)
      = ∑ r : Fin 400, contrib (argsOf m c) h j (400 * t.val + r.val) := by
  refine (pay3_apply _ _ _ h j).trans ?_
  refine Finset.sum_congr rfl fun r _ => ?_
  unfold contrib
  rw [dif_pos (row_lt t r), iblk1_apply]
  refine congrArg (fun s => s * m ((c : Thread nD τ).loc main_arg1) (ix2 ⟨400 * t.val + r.val, row_lt t r⟩ j)) ?_
  exact proj_block m c t r h

/-- The accumulator after point `n`, block by block. -/
theorem zAt_blocks (n : ℕ) (hn : n < cfg0.N) (h : Fin 32) (j : Fin 10000) :
    zAt (F := Ideal) m c n hn (ix2 h j)
      = ∑ s ∈ Finset.range (n + 1), ∑ r : Fin 400, contrib (argsOf m c) h j (400 * s + r.val) := by
  induction n with
  | zero =>
    rw [Finset.sum_range_succ, Finset.sum_range_zero, zero_add]
    show k0_pay4 (F := Ideal) (iblk m c 0 ⟨0, hn⟩) (iblk m c 1 ⟨0, hn⟩) (iblk m c 2 ⟨0, hn⟩) (ix2 h j) = _
    rw [pay4_apply]
    exact block_contrib m c ⟨0, hn⟩ h j
  | succ n ih =>
    rw [Finset.sum_range_succ, ← ih (Nat.lt_of_succ_lt hn)]
    show k0_pay5 (F := Ideal) (iblk m c 0 ⟨n + 1, hn⟩) (iblk m c 1 ⟨n + 1, hn⟩) (iblk m c 2 ⟨n + 1, hn⟩)
        (zAt m c n (Nat.lt_of_succ_lt hn)) (ix2 h j) = _
    rw [pay5_apply]
    exact congrArg (fun s => zAt (F := Ideal) m c n (Nat.lt_of_succ_lt hn) (ix2 h j) + s) (block_contrib m c ⟨n + 1, hn⟩ h j)

/-- The accumulator after point `n` holds the sum of the first `400·(n + 1)` rows' terms. -/
theorem zAt_apply (n : ℕ) (hn : n < cfg0.N) (h : Fin 32) (j : Fin 10000) :
    zAt (F := Ideal) m c n hn (ix2 h j) = ∑ k : Fin ((n + 1) * 400), contrib (argsOf m c) h j k.val := by
  rw [zAt_blocks]
  exact Cert.LibBlockedSum.sum_range_blocks (n + 1) 400 (contrib (argsOf m c) h j)

/-- After the last point the accumulator holds the specification's aggregate. -/
theorem zAt_last (hn : 24 < cfg0.N) (h : Fin 32) (j : Fin 10000) :
    zAt (F := Ideal) m c 24 hn (ix2 h j) = zK (argsOf m c) h j := by
  rw [zAt_apply]
  unfold zK
  show ∑ k : Fin 10000, contrib (argsOf m c) h j k.val = _
  refine Finset.sum_congr rfl fun k _ => ?_
  unfold contrib
  rw [dif_pos k.isLt]

/-! ## The result -/

/-- THE NAMED RESULT is the streaming form's result, as the `[1, 128]` array. -/
theorem outVal_eq : outVal (F := Ideal) m c = Cert.GinSpec.outArr (Cert.GinSpec.kernelOut (argsOf m c)) := by
  funext y
  obtain ⟨u, o, rfl⟩ : ∃ (u : Fin 1) (o : Fin 128), y = ix2 u o := ⟨y 0, y 1, eq_ix2 y⟩
  obtain rfl : u = 0 := Subsingleton.elim _ _
  unfold outVal
  refine (epilogue_apply (argsOf m c) (yFull m c) (zAt m c 24 _) (iblk m c 3 tLast) (iblk m c 4 tLast) (iblk m c 5 tLast)
    (iblk m c 6 tLast) (iblk m c 7 tLast) (iblk m c 8 tLast) (iblk m c 9 tLast)
    (fun h => iblk4_apply m c tLast h) (fun h => iblk5_apply m c tLast h) (fun h k => iblk6_apply m c tLast h k)
    (fun h => iblk7_apply m c tLast h) (fun h o => iblk8_apply m c tLast h o) (fun o => iblk9_apply m c tLast o) o).trans ?_
  show tailK (argsOf m c) _ o = tailK (argsOf m c) (tK (argsOf m c)) o
  refine congrFun (congrArg (tailK (argsOf m c)) (funext fun h => funext fun j => ?_)) o
  rw [yFull_apply, zAt_last, iblk3_apply]
  rfl

end Cert.GinKernel

end
-- ==== Proof.LibSumAssoc.lean ====
/-
  A general fact about finite double sums of extended reals, used to re-associate a product of three matrices.
  On the extended reals multiplication does not distribute over addition at the infinities, so the interchange
  below is stated for REAL entries (each entry the image of a real number): then both sides are the image of
  the same real double sum.
-/
import Idealize.ShloMosaic.PureOps.Ideal

namespace ERealSums

/-- The embedding of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries is a real entry. -/
theorem sum_real {ι : Type*} (s : Finset ι) (f : ι → EReal) (h : ∀ i, ∃ r : ℝ, f i = r) : ∃ r : ℝ, ∑ i ∈ s, f i = r := by
  choose g hg using h
  exact ⟨∑ i ∈ s, g i, by rw [coe_sum]; exact Finset.sum_congr rfl fun i _ => hg i⟩

/-- A product of real entries is a real entry. -/
theorem mul_real {a b : EReal} (ha : ∃ r : ℝ, a = r) (hb : ∃ r : ℝ, b = r) : ∃ r : ℝ, a * b = r := by
  obtain ⟨r, rfl⟩ := ha; obtain ⟨s, rfl⟩ := hb
  exact ⟨r * s, (EReal.coe_mul r s).symm⟩

/-- RE-ASSOCIATING A TRIPLE PRODUCT: for a row `a`, a matrix `x` and a column `w` of real entries,
    `∑ₖ (∑ⱼ aⱼ·xⱼₖ)·wₖ = ∑ⱼ aⱼ·(∑ₖ xⱼₖ·wₖ)` — the (row · matrix) · column product is the row · (matrix · column)
    product. -/
theorem sum_mul_sum_assoc {J K : Type*} [Fintype J] [Fintype K] (a : J → EReal) (x : J → K → EReal) (w : K → EReal)
    (ha : ∀ j, ∃ r : ℝ, a j = r) (hx : ∀ j k, ∃ r : ℝ, x j k = r) (hw : ∀ k, ∃ r : ℝ, w k = r) :
    ∑ k, (∑ j, a j * x j k) * w k = ∑ j, a j * ∑ k, x j k * w k := by
  choose a' ha using ha
  choose x' hx using hx
  choose w' hw using hw
  simp only [ha, hx, hw, ← EReal.coe_mul, ← coe_sum]
  refine congrArg _ ?_
  simp only [Finset.sum_mul, Finset.mul_sum]
  rw [Finset.sum_comm]
  exact Finset.sum_congr rfl fun j _ => Finset.sum_congr rfl fun k _ => by ring

end ERealSums
-- ==== Proof.LibRsqrtQuotient.lean ====
/-
  A factor times a reciprocal square root is the factor divided by the square root, on the extended reals.

  For `0 < s` (the value `⊤` included) `g · rsqrt s = g / sqrt s` for every extended real `g`: at a positive real `s` both
  are `g · (√s)⁻¹`, and at `⊤` the reciprocal square root is `0` and the quotient by `⊤` is `g · 0`. The hypothesis cannot
  be dropped: for `s < 0` both roots take the value `⊥`, and `g / ⊥ = 0` while `g · ⊥` is infinite for `g ≠ 0`; at `s = 0`
  with `g = 0` the product `0 · ⊤` is `0` and the quotient `0 / 0` is `⊥`.
-/
import Idealize.ShloMosaic.PureOps.Ideal

namespace Cert.RsqrtQuotient

open Idealize.ShloMosaic

/-- For `0 < s` on the extended reals (`s = ⊤` included), a factor times the reciprocal square root of `s` is that
    factor divided by the square root of `s`. -/
theorem mul_rsqrt_eq_div_sqrt (g s : EReal) (hs : 0 < s) : g * Ideal.rsqrt s = Ideal.div g (Ideal.sqrt s) := by
  induction s using EReal.rec with
  | bot => exact absurd hs (by simp)
  | coe r =>
    have hr : 0 < r := by exact_mod_cast hs
    rw [Ideal.rsqrt_coe, Ideal.sqrt_coe, if_neg (not_lt.mpr hr.le), if_neg hr.ne', if_neg (not_lt.mpr hr.le),
      Ideal.div_coe (Real.sqrt_pos.mpr hr).ne', one_div]
  | top =>
    rw [Ideal.rsqrt_top, Ideal.sqrt_top, Ideal.div, if_neg (by simp), EReal.inv_top]

end Cert.RsqrtQuotient
-- ==== Proof.Bridge.lean ====
/-
  The law joining the streaming form and the textbook form of the graph layer: pure algebra on the extended reals.

  For real argument entries the two first layers agree entry by entry, t[h, j] = s[j, h]: this is distributivity and an
  exchange of two finite sums, carried out over the reals and transported along the embedding of the reals.
  From equal first layers the two tails agree for ALL extended-real entries: the means and variances are the same sums
  with the index order swapped; the variance is a nonnegative quotient (a sum of squares over the word of 10000), so the
  variance plus the positive word of 1e-5 is positive, and there a product with the reciprocal square root is the quotient
  by the square root; the remaining differences are commuted products.
-/
import Mathlib.Tactic
import Idealize.ShloMosaic.PureOps.Ideal
import proofs.«108040_g76570676953656_cont_sun_m_424_5_alg».proof.Proof.Spec
import proofs.«108040_g76570676953656_cont_sun_m_424_5_alg».proof.Proof.LibSumAssoc
import proofs.«108040_g76570676953656_cont_sun_m_424_5_alg».proof.Proof.LibRsqrtQuotient

open scoped BigOperators
open Idealize.ShloMosaic

namespace Cert.GinSpec

/-! ## The three float words -/

/-- The word `0x461C4000` denotes `10000`: exponent field `140`, so the value is
    `(2^23 + 0x1C4000) · 2^(140 - 127 - 23) = 10240000 / 1024`. -/
theorem cN_eq : cN = ((10000 : ℝ) : EReal) := by
  simp [cN, Ideal.ofBits, Ideal.ieee, -EReal.coe_mul] <;> norm_num

/-- The word `0x3727C5AC` denotes `10995116 / 2^40`: exponent field `110`, so the value is
    `(2^23 + 0x27C5AC) · 2^(110 - 127 - 23)`. -/
theorem cEps_eq : cEps = (((10995116 : ℝ) / 1099511627776 : ℝ) : EReal) := by
  simp [cEps, Ideal.ofBits, Ideal.ieee, -EReal.coe_mul] <;> norm_num

/-- The variance offset is positive. -/
theorem cEps_pos : 0 < cEps := by
  rw [cEps_eq]
  exact EReal.coe_pos.mpr (by norm_num)

/-- Dividing by the node count is multiplying by the real `1 / 10000`, at the infinities too. -/
theorem div_cN (x : EReal) : Ideal.div x cN = x * ((1 / 10000 : ℝ) : EReal) := by
  rw [cN_eq]
  exact Ideal.div_coe (by norm_num) x

/-- Dividing a nonnegative extended real by the node count gives a nonnegative one. -/
theorem div_cN_nonneg {x : EReal} (hx : 0 ≤ x) : 0 ≤ Ideal.div x cN := by
  rw [div_cN]
  exact EReal.mul_nonneg hx (EReal.coe_nonneg.mpr (by norm_num))

/-- A square is nonnegative on the extended reals (`⊥ · ⊥ = ⊤`). -/
theorem mul_self_nonneg_ereal (x : EReal) : 0 ≤ x * x := by
  rw [EReal.mul_nonneg_iff]
  rcases le_total 0 x with h | h
  · exact Or.inl ⟨h, h⟩
  · exact Or.inr ⟨h, h⟩

/-! ## The first layers agree for real entries -/

/-- Over the reals: projecting and then aggregating is aggregating and then projecting,
    `(Σ_d x[j,d]·w[d] + Σ_i (Σ_d x[i,d]·w[d])·A[i,j]) + b = Σ_d (x[j,d] + Σ_i A[i,j]·x[i,d])·w[d] + b`. -/
theorem real_project_aggregate {N D : Type*} [Fintype N] [Fintype D] (x : N → D → ℝ) (A : N → N → ℝ) (w : D → ℝ)
    (b : ℝ) (j : N) :
    (∑ d, x j d * w d + ∑ i, (∑ d, x i d * w d) * A i j) + b = (∑ d, (x j d + ∑ i, A i j * x i d) * w d) + b := by
  have h1 : ∑ i, (∑ d, x i d * w d) * A i j = ∑ d, (∑ i, A i j * x i d) * w d := by
    simp only [Finset.sum_mul]
    rw [Finset.sum_comm]
    exact Finset.sum_congr rfl fun d _ => Finset.sum_congr rfl fun i _ => by ring
  rw [h1, ← Finset.sum_add_distrib]
  exact congrArg (· + b) (Finset.sum_congr rfl fun d _ => by ring)

/-- For real entries the streaming first layer is the textbook first layer with the index order swapped. -/
theorem tK_eq_sR (a : Args) (ha : a.IsReal) (h : Fin 32) (j : Fin 10000) : tK a h j = sR a j h := by
  obtain ⟨hx, hA, hW, hb, -, -, -, -, -, -⟩ := ha
  choose x hx using hx
  choose A hA using hA
  choose W hW using hW
  choose b hb using hb
  simp only [tK, yK, zK, sR, gR, hx, hA, hW, hb, ← EReal.coe_mul, ← EReal.coe_add, ← ERealSums.coe_sum]
  exact congrArg _ (real_project_aggregate x A (W h) (b h) j)

/-! ## The tails agree on a swapped first layer -/

section Tail

variable (a : Args) (t : Fin 32 → Fin 10000 → EReal)

/-- The means are the same sums. -/
theorem muR_swap (c : Fin 32) : muR (fun j h => t h j) c = muK t c := rfl

/-- The variances are the same sums. -/
theorem varR_swap (c : Fin 32) : varR (fun j h => t h j) c = varK t c := rfl

/-- The variance is nonnegative: a sum of squares over the node count. -/
theorem varK_nonneg (h : Fin 32) : 0 ≤ varK t h :=
  div_cN_nonneg (Finset.sum_nonneg fun j _ => mul_self_nonneg_ereal (dK t h j))

/-- The variance plus its offset is positive. -/
theorem varK_add_cEps_pos (h : Fin 32) : 0 < varK t h + cEps :=
  lt_of_lt_of_le cEps_pos (le_add_of_nonneg_left (varK_nonneg t h))

/-- The normalised, rectified features agree: the product with the reciprocal square root is the quotient by the
    square root, because the variance plus its offset is positive. -/
theorem rR_swap (j : Fin 10000) (c : Fin 32) : rR a (fun j h => t h j) j c = rK a t c j := by
  unfold rR rK
  rw [varR_swap, muR_swap, Cert.RsqrtQuotient.mul_rsqrt_eq_div_sqrt _ _ (varK_add_cEps_pos t c)]
  rfl

/-- The second layers agree: commuted products. -/
theorem h2R_swap (j : Fin 10000) (c : Fin 32) : h2R a (fun j h => t h j) j c = h2K a t c j := by
  unfold h2R h2K
  refine congrArg (fun v => max (v + a.b2 c) cZero) (Finset.sum_congr rfl fun k _ => ?_)
  rw [rR_swap, mul_comm]

/-- The pooled features agree. -/
theorem pooledR_swap (c : Fin 32) : pooledR a (fun j h => t h j) c = pooledK a t c := by
  unfold pooledR pooledK
  exact congrArg (fun v => Ideal.div v cN) (Finset.sum_congr rfl fun j _ => h2R_swap a t j c)

/-- The tails agree. -/
theorem tailR_swap (o : Fin 128) : tailR a (fun j h => t h j) o = tailK a t o := by
  unfold tailR tailK
  exact congrArg (· + a.bfc o) (Finset.sum_congr rfl fun c _ => by rw [pooledR_swap])

end Tail

/-- The tail of the streaming form on `t` is the tail of the textbook form on `s` whenever `t[h, j] = s[j, h]`. -/
theorem tail_eq (a : Args) (t : Fin 32 → Fin 10000 → EReal) (s : Fin 10000 → Fin 32 → EReal)
    (hts : ∀ h j, t h j = s j h) : tailK a t = tailR a s := by
  have hs : s = fun j h => t h j := funext fun j => funext fun h => (hts h j).symm
  rw [hs]
  exact funext fun o => (tailR_swap a t o).symm

/-- THE LAW: for real argument entries the streaming form and the textbook form have the same result. -/
theorem kernelOut_eq_refOut (a : Args) (ha : a.IsReal) : kernelOut a = refOut a :=
  tail_eq a (tK a) (sR a) (tK_eq_sR a ha)

end Cert.GinSpec
-- ==== Proof.Finite.lean ====
/-
  From the precondition to real entries.

  The precondition says of each of the ten argument arrays that every entry's absolute value is below the positive
  infinity, the ten statements joined by "and". An extended real whose absolute value max(x, -x) is below the top
  element is neither infinity, so it is a real number. Hence every entry of every argument is real.
-/
import proofs.«108040_g76570676953656_cont_sun_m_424_5_alg».proof.Defs
import proofs.«108040_g76570676953656_cont_sun_m_424_5_alg».proof.Proof.Spec
import Idealize.ShloMosaic.Lib.ReduceAll
import Idealize.ShloMosaic.Lib.ValueIdx

noncomputable section

namespace Cert.GinKernel

open Cert.GinSpec Idealize.ShloMosaic Idealize.ShloMosaic.ValueIdx

/-- The scalar shape has one index. -/
instance subsingleton_scalarIdx : Subsingleton (Cert.Pre_finite_inputs.S_).Idx :=
  ⟨fun a b => funext fun d => d.elim0⟩

/-- The word of the positive infinity denotes the top element. -/
theorem ofBits_f32_inf : Ideal.ofBits .f32 0x7F800000#32 = (⊤ : EReal) := by
  simp [Ideal.ofBits, Ideal.ieee]

/-- An extended real whose absolute value is below the positive infinity is a real number. -/
theorem isRealVal_of_abs_lt (x : EReal)
    (h : Ideal.cmp .olt (max x (-x)) (Ideal.ofBits .f32 0x7F800000#32) = 1#1) : IsRealVal x := by
  rw [ofBits_f32_inf] at h
  have h2 : BitVec.ofBool (decide (max x (-x) < (⊤ : EReal))) = 1#1 := h
  have h' : max x (-x) < (⊤ : EReal) := by
    by_contra hn
    rw [decide_eq_false hn] at h2
    exact absurd h2 (by decide)
  induction x using EReal.rec with
  | bot => exact absurd h' (by simp)
  | top => exact absurd h' (by simp)
  | coe r => exact ⟨r, rfl⟩

/-- An elementwise "and" of two bit arrays read at an index. -/
theorem andi_apply {s : Shape} {w : Nat} (x y : IVec s w) (i : s.Idx) : andi x y i = IntOp.andi (x i) (y i) := rfl

/-- One array's statement: if "every |entry| is below the infinity" came out true, every entry is real. -/
theorem real_of_all {s : Shape} {axes : List (Fin s.rank)} (x : FVec Ideal s .f32)
    (bc : (Cert.Pre_finite_inputs.S_).BroadcastsInDim s (![] : Fin 0 → Fin s.rank))
    (rt : s.ReducesTo axes Cert.Pre_finite_inputs.S_) (hu : 0 < (Cert.Pre_finite_inputs.S_).numel)
    (e : Host.reduce IntOp.andi
          (cmpf .olt (Host.absf x) (broadcastInDim s ![] bc (constant (F := Ideal) Cert.Pre_finite_inputs.S_ .f32 0x7F800000#32)))
          (constantI Cert.Pre_finite_inputs.S_ 1 1#1) rt hu ix0 = 1#1)
    (i : s.Idx) : IsRealVal (x i) :=
  isRealVal_of_abs_lt (x i) (Host.reduce_andi_all _ _ rt hu ix0 e i)

/-- The precondition makes every entry of every argument a real number. -/
theorem args_real [Cert.Pre_finite_inputs.Facts]
    (a0 : FVec Ideal Cert.Pre_finite_inputs.S10000x128 .f32) (a1 : FVec Ideal Cert.Pre_finite_inputs.S10000x10000 .f32)
    (a2 : FVec Ideal Cert.Pre_finite_inputs.S32x128 .f32) (a3 a4 a5 : FVec Ideal Cert.Pre_finite_inputs.S32 .f32)
    (a6 : FVec Ideal Cert.Pre_finite_inputs.S32x32 .f32) (a7 : FVec Ideal Cert.Pre_finite_inputs.S32 .f32)
    (a8 : FVec Ideal Cert.Pre_finite_inputs.S128x32 .f32) (a9 : FVec Ideal Cert.Pre_finite_inputs.S128 .f32)
    (h : Cert.Pre_finite_inputs.fn (F := Ideal) a0 a1 a2 a3 a4 a5 a6 a7 a8 a9 = fun _ => 1#1) :
    (Args.ofArrays a0 a1 a2 a3 a4 a5 a6 a7 a8 a9).IsReal := by
  have h0 := congrFun h ix0
  dsimp only [Cert.Pre_finite_inputs.fn, Cert.Pre_finite_inputs.fn_part1, Cert.Pre_finite_inputs.fn_part2] at h0
  simp only [andi_apply, IntOp.andi_eq_one] at h0
  obtain ⟨⟨⟨⟨⟨⟨⟨⟨⟨e0, e1⟩, e2⟩, e3⟩, e4⟩, e5⟩, e6⟩, e7⟩, e8⟩, e9⟩ := h0
  exact
    { x := fun i d => real_of_all a0 _ _ _ e0 (ix2 i d)
      adj := fun i j => real_of_all a1 _ _ _ e1 (ix2 i j)
      W1 := fun h d => real_of_all a2 _ _ _ e2 (ix2 h d)
      b1 := fun h => real_of_all a3 _ _ _ e3 (ix1 h)
      gamma := fun h => real_of_all a4 _ _ _ e4 (ix1 h)
      beta := fun h => real_of_all a5 _ _ _ e5 (ix1 h)
      W2 := fun h k => real_of_all a6 _ _ _ e6 (ix2 h k)
      b2 := fun h => real_of_all a7 _ _ _ e7 (ix1 h)
      Wfc := fun o h => real_of_all a8 _ _ _ e8 (ix2 o h)
      bfc := fun o => real_of_all a9 _ _ _ e9 (ix1 o) }

end Cert.GinKernel

end
-- ==== Proof.Assemble.lean ====
/-
  The last step: from the two programs' runs to the certificate's claims about them.

  Suppose the streaming program, from any initial memory, ends with its result array holding the streaming form of
  its arguments and the arguments unchanged, and the textbook program likewise ends holding the textbook form. The
  claim that the textbook program runs and leaves its arguments unchanged is the second half of its run statement.
  The claim that the two programs end with equal results follows because, under the precondition, every argument
  entry is a real number, and for real arguments the streaming form and the textbook form are equal.
-/
import proofs.«108040_g76570676953656_cont_sun_m_424_5_alg».proof.Defs
import proofs.«108040_g76570676953656_cont_sun_m_424_5_alg».proof.Proof.Spec
import proofs.«108040_g76570676953656_cont_sun_m_424_5_alg».proof.Proof.Bridge
import proofs.«108040_g76570676953656_cont_sun_m_424_5_alg».proof.Proof.Finite

noncomputable section

namespace Cert.GinAssemble

open Idealize.ShloMosaic Idealize.SL.Sem

/-- The streaming program's run: from any initial memory it terminates with its result array holding the streaming
    form of its argument arrays, and the argument arrays unchanged. -/
def KernelRun [Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg),
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
        r.2.mem ((c.tc : Thread Cert.KernelIdeal.nD Cert.KernelIdeal.τ).loc Cert.KernelIdeal.main_v7) = Cert.GinSpec.outArr (Cert.GinSpec.kernelOut (Cert.GinSpec.Args.ofArrays (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

/-- The textbook program's run: from any initial memory it terminates with its result array holding the textbook
    form of its argument arrays, and the argument arrays unchanged. -/
def RefRun [Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg),
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
        r.2.mem ((c.tc : Thread Cert.ReferenceIdeal.nD Cert.ReferenceIdeal.τ).loc Cert.ReferenceIdeal.main_v41) = Cert.GinSpec.outArr (Cert.GinSpec.refOut (Cert.GinSpec.Args.ofArrays (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

/-- Equal argument arrays give equal argument records. -/
theorem ofArrays_congr {X X' : (⟨2, ![10000, 128]⟩ : Shape).Idx → EReal} {A A' : (⟨2, ![10000, 10000]⟩ : Shape).Idx → EReal}
    {W1 W1' : (⟨2, ![32, 128]⟩ : Shape).Idx → EReal} {b1 b1' gamma gamma' beta beta' : (⟨1, ![32]⟩ : Shape).Idx → EReal}
    {W2 W2' : (⟨2, ![32, 32]⟩ : Shape).Idx → EReal} {b2 b2' : (⟨1, ![32]⟩ : Shape).Idx → EReal}
    {Wfc Wfc' : (⟨2, ![128, 32]⟩ : Shape).Idx → EReal} {bfc bfc' : (⟨1, ![128]⟩ : Shape).Idx → EReal}
    (e0 : X' = X) (e1 : A' = A) (e2 : W1' = W1) (e3 : b1' = b1) (e4 : gamma' = gamma) (e5 : beta' = beta)
    (e6 : W2' = W2) (e7 : b2' = b2) (e8 : Wfc' = Wfc) (e9 : bfc' = bfc) :
    Cert.GinSpec.Args.ofArrays X' A' W1' b1' gamma' beta' W2' b2' Wfc' bfc'
      = Cert.GinSpec.Args.ofArrays X A W1 b1 gamma beta W2 b2 Wfc bfc := by
  subst e0 e1 e2 e3 e4 e5 e6 e7 e8 e9
  rfl

/-- For real arguments the textbook form's result array is the streaming form's. -/
theorem outArr_ref_eq_kernel (a a' : Cert.GinSpec.Args) (ha : a.IsReal) (h : a' = a) :
    Cert.GinSpec.outArr (Cert.GinSpec.refOut a') = Cert.GinSpec.outArr (Cert.GinSpec.kernelOut a) := by
  subst h
  rw [Cert.GinSpec.kernelOut_eq_refOut _ ha]

/-- The textbook program runs and leaves its arguments unchanged: its run statement without the result. -/
theorem frame_ref_of [hReferenceIdeal : Cert.ReferenceIdeal.Facts] [hPre_finite_inputs : Cert.Pre_finite_inputs.Facts]
    (hr : RefRun) : Cert.frame_ReferenceIdeal := by
  intro m g _
  exact (θ_run _ _ _).mono (fun r h c => (h c).2) (hr m g)

/-- Under the precondition the two programs, from memories agreeing on the arguments, end with equal results and
    unchanged arguments. -/
theorem algebraic_of [hKernelIdeal : Cert.KernelIdeal.Facts] [hReferenceIdeal : Cert.ReferenceIdeal.Facts]
    [hPre_finite_inputs : Cert.Pre_finite_inputs.Facts] (hk : KernelRun) (hr : RefRun) :
    Cert.algebraic_KernelIdeal_ReferenceIdeal := by
  intro m g m' g' hpre hagree
  refine ⟨fun c => Cert.GinSpec.outArr (Cert.GinSpec.kernelOut (Cert.GinSpec.Args.ofArrays (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))), hk m g, ?_⟩
  refine (θ_run _ _ _).mono (fun r h c => ?_) (hr m' g')
  obtain ⟨h41, hrest⟩ := h c
  refine ⟨h41.trans ?_, hrest⟩
  obtain ⟨e0, e1, e2, e3, e4, e5, e6, e7, e8, e9⟩ := hagree c
  exact outArr_ref_eq_kernel _ _ (Cert.GinKernel.args_real _ _ _ _ _ _ _ _ _ _ (hpre c))
    (ofArrays_congr e0 e1 e2 e3 e4 e5 e6 e7 e8 e9)

end Cert.GinAssemble

end
-- ==== Proof.KFinal.lean ====
/-
  From the launch's frame run to the streaming program's run statement.

  The result window's block is the whole [1, 128] result array at block index (0, 0) at every grid point, and the
  window is written back at the last point only. What is written back there is the closing stage's row of results, so
  after the run the result array holds exactly that row; every index of the array lies in that one block. The frame
  run's post names the result array after the run and keeps every argument array, so together with the equation of the
  closing stage's row with the streaming form this is the run statement.
-/
import proofs.«108040_g76570676953656_cont_sun_m_424_5_alg».proof.Proof.KDefs
import proofs.«108040_g76570676953656_cont_sun_m_424_5_alg».proof.Proof.Gen.KernelIdeal.Frame
import proofs.«108040_g76570676953656_cont_sun_m_424_5_alg».proof.Proof.Assemble
import Idealize.ShloMosaic.Lib.Pipeline.Value

set_option maxRecDepth 16384

noncomputable section

namespace Cert.GinKernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section AnyInstance

variable {F : FTy → Type} [FloatOps F]
variable (m : (ℓ : Loc nD τ sig) → Buf (Elt F) ℓ)

/-- The result window's block index is (0, 0) at every grid point (decided over the 25 points). -/
theorem idx_facts10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-- What a point writes back to the result array is the block there of the closing stage's row: the block is the
    whole array. -/
theorem flushed10_eq (c : Dev nD) (t : Fin cfg0.N) :
    (dats m 0 c).flushed 10 t = ((cfg0.win 10).blk t).view.read (Elt F) (outVal m c) := by
  show (cfg0.win 10).cut (grid0.coords t) ((dats m 0 c).after 10 t) = _
  rw [after10]
  obtain ⟨e0, e1⟩ := idx_facts10 t
  funext j
  show outVal m c j = outVal m c (((cfg0.win 10).blk t).view.emb j)
  refine congrArg (outVal m c) (funext fun a => Fin.ext ?_)
  match a with
  | ⟨0, _⟩ =>
    show (j 0).val = win0_10.index t (0 : Fin 2) * 1 + 1 * (j 0).val
    omega
  | ⟨1, _⟩ =>
    show (j 1).val = win0_10.index t (1 : Fin 2) * 128 + 1 * (j 1).val
    omega

/-- An index of the result array is in point t's block iff each coordinate is in the block's range on its axis. -/
theorem mem_blk10 (t : Fin cfg0.N) (i : S1x128.Idx) :
    i ∈ ((cfg0.win 10).blk t).view.set ↔ ∀ a : Fin 2, win0_10.index t a * S1x128.size a ≤ (i a).val ∧ (i a).val < win0_10.index t a * S1x128.size a + S1x128.size a := by
  show i ∈ ((View.whole main_v7).slice (win0_10.rect t)).set ↔ _
  rw [View.set_slice_whole, Rect.mem_set_unit]
  exact Iff.rfl

/-- Every index of the result array is in the last point's block, and the last point writes back. -/
theorem covered10 (i : S1x128.Idx) :
    ∃ t : Fin cfg0.N, (cfg0.win 10).flush t = true ∧ i ∈ ((cfg0.win 10).blk t).view.set := by
  refine ⟨tLast, (flush10_iff tLast).mpr rfl, ?_⟩
  rw [mem_blk10]
  obtain ⟨e0, e1⟩ := idx_facts10 tLast
  have hi0 : (i 0).val < 1 := (i 0).isLt
  have hi1 : (i 1).val < 128 := (i 1).isLt
  intro a
  match a with
  | ⟨0, _⟩ =>
    show win0_10.index tLast (0 : Fin 2) * 1 ≤ (i 0).val ∧ (i 0).val < win0_10.index tLast (0 : Fin 2) * 1 + 1
    omega
  | ⟨1, _⟩ =>
    show win0_10.index tLast (1 : Fin 2) * 128 ≤ (i 1).val ∧ (i 1).val < win0_10.index tLast (1 : Fin 2) * 128 + 128
    omega

/-- THE RESULT ARRAY after the run is the closing stage's row of results. -/
theorem final10 (c : Dev nD) : (dats m 0 c).arrAt 10 cfg0.N = outVal m c :=
  (dats m 0 c).arrAt_eq_of_cover 10 (outVal m c) (fun t _ => flushed10_eq m c t) covered10

end AnyInstance

/-- THE STREAMING PROGRAM'S RUN from the launch's frame run and the value of the closing stage's row: the result
    array holds the streaming form of the arguments, and the ten arguments are unchanged. -/
theorem kernel_run_of
    (hrun : ∀ (m : (ℓ : Loc nD τ sig) → Buf (Elt Ideal) ℓ) (ρ : Dev nD → PrngReg),
      θ_run (defs (F := Ideal)) (onTc (τ := τ) (main (F := Ideal))) (s₀ m ρ) (Pipeline.FramePost cfgs (dats (F := Ideal) m) 0 (V m)))
    (hval : ∀ (m : (ℓ : Loc nD τ sig) → Buf (Elt Ideal) ℓ) (c : Dev nD),
      outVal (F := Ideal) m c = Cert.GinSpec.outArr (Cert.GinSpec.kernelOut (Cert.GinSpec.Args.ofArrays (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))))) :
    Cert.GinAssemble.KernelRun := by
  intro m g
  refine (θ_run _ _ _).mono (fun r h c => ?_) (hrun m g)
  exact ⟨((h c).1 10).trans ((final10 m c).trans (hval m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩

end Cert.GinKernel

end
-- ==== Proof.RefTerm.lean ====
/-
  The textbook form's program as one term of its ten argument arrays, stage by stage: the first layer, the mean, the
  variance (through its helper, with the helper's own mean, its divisor and its guarded quotient), the normalisation,
  the two rectified layers, the pooled mean and the last linear map. Each stage is the composition of the program's
  array operations for that stage, in the program's order.
-/
import proofs.«108040_g76570676953656_cont_sun_m_424_5_alg».proof.Defs
import Idealize.ShloMosaic.PureOps.Ideal

noncomputable section

namespace Cert.GinRef

open Cert.ReferenceIdeal Cert.ReferenceIdeal.Facts₀ Idealize.ShloMosaic

variable [hReferenceIdeal : Cert.ReferenceIdeal.Facts]

/-- A feature vector spread over the nodes: first a row, then every row. -/
def rowsOf (v : FVec Ideal S32 .f32) : FVec Ideal S10000x32 .f32 :=
  broadcastInDim S10000x32 ![0, 1] bcast_S1x32_S10000x32_0_1 (broadcastInDim S1x32 ![1] bcast_S32_S1x32_1 v)

/-- The rectifier: the maximum with the zero word spread over the array. -/
def reluT (x : FVec Ideal S10000x32 .f32) : FVec Ideal S10000x32 .f32 :=
  maximumf x (broadcastInDim S10000x32 ![] bcast_S_S10000x32 (constant (F := Ideal) S_ .f32 0x00000000#32))

/-- The first layer before normalisation: (x + Aᵀ·x) · W1ᵀ + b1. -/
def sT (a0 : FVec Ideal S10000x128 .f32) (a1 : FVec Ideal S10000x10000 .f32) (a2 : FVec Ideal S32x128 .f32)
    (a3 : FVec Ideal S32 .f32) : FVec Ideal S10000x32 .f32 :=
  addf
    (Host.dotGeneral dot_S10000x128_S128x32_S10000x32_1_0_0_1_n_n none
      (addf a0 (Host.dotGeneral dot_S10000x10000_S10000x128_S10000x128_1_0_0_1_n_n (some .fp32)
        (transpose S10000x10000 [1, 0] a1 transposes_S10000x10000_S10000x10000_1_0) a0))
      (transpose S128x32 [1, 0] a2 transposes_S32x128_S128x32_1_0))
    (rowsOf a3)

/-- A feature's mean over the nodes: the sum from the zero word, divided by the word of 10000. -/
def muT (s : FVec Ideal S10000x32 .f32) : FVec Ideal S32 .f32 :=
  Host.divf (Host.reduceAdd s (constant (F := Ideal) S_ .f32 0x00000000#32) reducesTo_S10000x32_S32_d0 h_S_)
    (broadcastInDim S32 ![] bcast_S_S32 (constant (F := Ideal) S_ .f32 0x461C4000#32))

/-- The variance helper's own mean, kept as a row. -/
def muRowT (s : FVec Ideal S10000x32 .f32) : FVec Ideal S1x32 .f32 :=
  Host.divf
    (broadcastInDim S1x32 ![1] bcast_S32_S1x32_1
      (Host.reduceAdd s (constant (F := Ideal) S_ .f32 0x00000000#32) reducesTo_S10000x32_S32_d0 h_S_))
    (broadcastInDim S1x32 ![] bcast_S_S1x32 (constant (F := Ideal) S_ .f32 0x461C4000#32))

/-- The centred features inside the variance helper. -/
def devT (s : FVec Ideal S10000x32 .f32) : FVec Ideal S10000x32 .f32 :=
  subf s (broadcastInDim S10000x32 ![0, 1] bcast_S1x32_S10000x32_0_1 (muRowT s))

/-- The variance helper's divisor: the word of 10000 less the converted correction 0. -/
def divisorT : FVec Ideal S_ .f32 :=
  subf (constant (F := Ideal) S_ .f32 0x461C4000#32) (sitofp .f32 (constantI S_ 32 0#32))

/-- A feature's biased variance over the nodes, as the helper computes it: the quotient where the divisor is positive,
    the not-a-number word elsewhere. -/
def varT (s : FVec Ideal S10000x32 .f32) : FVec Ideal S32 .f32 :=
  select
    (broadcastInDim S32 ![] bcast_S_S32 (cmpf .ogt divisorT (constant (F := Ideal) S_ .f32 0x00000000#32)))
    (Host.divf
      (Host.reduceAdd (mulf (devT s) (devT s)) (constant (F := Ideal) S_ .f32 0x00000000#32)
        reducesTo_S10000x32_S32_d0 h_S_)
      (broadcastInDim S32 ![] bcast_S_S32 divisorT))
    (broadcastInDim S32 ![] bcast_S_S32 (id (constant (F := Ideal) S_ .f32 0x7FC00000#32)))

/-- Normalised, scaled, shifted and rectified. -/
def rT (s : FVec Ideal S10000x32 .f32) (a4 a5 : FVec Ideal S32 .f32) : FVec Ideal S10000x32 .f32 :=
  reluT
    (addf
      (mulf
        (Host.divf (subf s (rowsOf (muT s)))
          (rowsOf (Host.sqrt (addf (varT s)
            (broadcastInDim S32 ![] bcast_S_S32 (constant (F := Ideal) S_ .f32 0x3727C5AC#32))))))
        (rowsOf a4))
      (rowsOf a5))

/-- The second layer, rectified. -/
def h2T (r : FVec Ideal S10000x32 .f32) (a6 : FVec Ideal S32x32 .f32) (a7 : FVec Ideal S32 .f32) :
    FVec Ideal S10000x32 .f32 :=
  reluT
    (addf
      (Host.dotGeneral dot_S10000x32_S32x32_S10000x32_1_0_0_1_n_n none r
        (transpose S32x32 [1, 0] a6 transposes_S32x32_S32x32_1_0))
      (rowsOf a7))

/-- The mean over the nodes, kept as a row. -/
def pooledT (h : FVec Ideal S10000x32 .f32) : FVec Ideal S1x32 .f32 :=
  Host.divf
    (broadcastInDim S1x32 ![1] bcast_S32_S1x32_1
      (Host.reduceAdd h (constant (F := Ideal) S_ .f32 0x00000000#32) reducesTo_S10000x32_S32_d0 h_S_))
    (broadcastInDim S1x32 ![] bcast_S_S1x32 (constant (F := Ideal) S_ .f32 0x461C4000#32))

/-- The last linear map applied to the pooled row. -/
def tailT (p : FVec Ideal S1x32 .f32) (a8 : FVec Ideal S128x32 .f32) (a9 : FVec Ideal S128 .f32) :
    FVec Ideal S1x128 .f32 :=
  addf
    (Host.dotGeneral dot_S1x32_S32x128_S1x128_1_0_0_1_n_n none p
      (transpose S32x128 [1, 0] a8 transposes_S128x32_S32x128_1_0))
    (broadcastInDim S1x128 ![1] bcast_S128_S1x128_1 a9)

/-- The operations' composed term of the ten argument arrays. -/
def refTerm (a0 : FVec Ideal S10000x128 .f32) (a1 : FVec Ideal S10000x10000 .f32) (a2 : FVec Ideal S32x128 .f32)
    (a3 a4 a5 : FVec Ideal S32 .f32) (a6 : FVec Ideal S32x32 .f32) (a7 : FVec Ideal S32 .f32)
    (a8 : FVec Ideal S128x32 .f32) (a9 : FVec Ideal S128 .f32) : FVec Ideal S1x128 .f32 :=
  tailT (pooledT (h2T (rT (sT a0 a1 a2 a3) a4 a5) a6 a7)) a8 a9

end Cert.GinRef

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.RefValue.lean ====
/-
  The textbook form's composed term, read at an index.

  Each stage of the term is read at one entry, over variables of the stage's own array types: the first layer is the
  inner product of a node's input plus its aggregated neighbours with a row of the first weight matrix, plus the
  bias; a mean is the sum over the nodes divided by the word of 10000; the variance helper's divisor is that same
  word (the converted correction is zero and the comparison with zero succeeds, so its guarded quotient is the
  quotient); the normalisation divides by the square root; a rectifier is the maximum with the zero word; the last
  stages are inner products again. Composed, the term is the specification's textbook form at every output entry.
-/
import proofs.«108040_g76570676953656_cont_sun_m_424_5_alg».proof.Proof.RefTerm
import proofs.«108040_g76570676953656_cont_sun_m_424_5_alg».proof.Proof.Spec
import proofs.«108040_g76570676953656_cont_sun_m_424_5_alg».proof.Proof.LibInnerProducts
import proofs.«108040_g76570676953656_cont_sun_m_424_5_alg».proof.Proof.LibInDimRow
import Idealize.ShloMosaic.Lib.ValueIdx
import Idealize.ShloMosaic.Lib.Pipeline.Value
import Idealize.ShloMosaic.Lib.ValueLayout
import Idealize.ShloMosaic.PureOps.Ideal.Laws
import Mathlib.Tactic

noncomputable section

namespace Cert.GinRef

open Cert.ReferenceIdeal Cert.ReferenceIdeal.Facts₀ Cert.GinSpec Idealize.ShloMosaic Idealize.ShloMosaic.ValueIdx
  Cert.LibInDimRow
open scoped BigOperators

variable [hReferenceIdeal : Cert.ReferenceIdeal.Facts]

/-! ## Words -/

/-- The word `0x461C4000` denotes `10000`: exponent field `140`, so the value is
    `(2^23 + 0x1C4000) · 2^(140 - 127 - 23) = 10240000 / 1024`. -/
theorem cN_eq : cN = ((10000 : ℝ) : EReal) := by
  show Ideal.ieee 8 23 (0x461C4000#32 : BitVec 32) = ((10000 : ℝ) : EReal)
  delta Ideal.ieee
  simp [-EReal.coe_mul] <;> norm_num

theorem cN_pos : (0 : EReal) < cN := by
  rw [cN_eq]; exact_mod_cast (by norm_num : (0 : ℝ) < 10000)

/-- The variance helper's divisor is the word of 10000: the correction 0, converted, is the real 0. -/
theorem divisorT_apply (i : S_.Idx) : divisorT i = cN := by
  show Ideal.ofBits .f32 0x461C4000#32 - (((0#32 : BitVec 32).toInt : ℝ) : EReal) = cN
  have h0 : (((0#32 : BitVec 32).toInt : ℝ) : EReal) = 0 := by
    rw [show (0#32 : BitVec 32).toInt = 0 from by decide]; simp
  rw [h0, sub_zero]; rfl

/-! ## Sums over the nodes, broadcasts, the rectifier -/

/-- A sum of a [10000, 32] array over its first axis from a constant initial value is, at feature `c`, the initial
    word plus the sum over the nodes. -/
theorem colSum_apply (x : FVec Ideal S10000x32 .f32) (w : BitVec 32) (c : Fin 32) :
    Host.reduceAdd x (constant (F := Ideal) S_ .f32 w) reducesTo_S10000x32_S32_d0 h_S_ (ix1 c)
      = Ideal.ofBits .f32 w + ∑ j : Fin 10000, x (ix2 j c) := by
  have h : S10000x32.Reduces [0] S32 := by decide
  refine (Ideal.hostReduceAdd_single reducesTo_S10000x32_S32_d0 h x (Ideal.ofBits .f32 w) (ix1 c)).trans ?_
  show Ideal.ofBits .f32 w + ∑ j : Fin 10000, x (h.lift (ix1 c) j) = Ideal.ofBits .f32 w + ∑ j : Fin 10000, x (ix2 j c)
  refine congrArg _ (Finset.sum_congr rfl fun j _ => congrArg x (funext fun ax => Fin.ext ?_))
  match ax with
  | ⟨0, _⟩ => rfl
  | ⟨1, _⟩ => rfl

/-- The sum from the zero word is the plain sum. -/
theorem colSum0_apply (x : FVec Ideal S10000x32 .f32) (c : Fin 32) :
    Host.reduceAdd x (constant (F := Ideal) S_ .f32 0x00000000#32) reducesTo_S10000x32_S32_d0 h_S_ (ix1 c)
      = ∑ j : Fin 10000, x (ix2 j c) := by
  rw [colSum_apply, Ideal.ofBits_zero_f32, zero_add]

/-- A feature vector spread over the nodes reads its entry for the feature, whatever the node. -/
theorem rowsOf_apply (v : FVec Ideal S32 .f32) (j : Fin 10000) (c : Fin 32) : rowsOf v (ix2 j c) = v (ix1 c) := by
  unfold rowsOf
  rw [inDim_1b_ab_apply, inDim_b_1b_apply]

/-- The rectifier at an entry is the maximum with the zero word. -/
theorem reluT_apply (x : FVec Ideal S10000x32 .f32) (j : Fin 10000) (c : Fin 32) :
    reluT x (ix2 j c) = max (x (ix2 j c)) cZero := rfl

/-! ## The stages -/

/-- The first layer at node `j`, feature `c`. -/
theorem sT_apply (a0 : FVec Ideal S10000x128 .f32) (a1 : FVec Ideal S10000x10000 .f32) (a2 : FVec Ideal S32x128 .f32)
    (a3 : FVec Ideal S32 .f32) (j : Fin 10000) (c : Fin 32) :
    sT a0 a1 a2 a3 (ix2 j c)
      = (∑ d : Fin 128, (a0 (ix2 j d) + ∑ i : Fin 10000, a1 (ix2 i j) * a0 (ix2 i d)) * a2 (ix2 c d)) + a3 (ix1 c) := by
  unfold sT
  rw [addf_apply, rowsOf_apply, InnerProducts.dotGeneral_apply dot_S10000x128_S128x32_S10000x32_1_0_0_1_n_n rfl]
  refine congrArg (· + a3 (ix1 c)) (Finset.sum_congr rfl fun d _ => ?_)
  rw [addf_apply, InnerProducts.dotGeneral_apply dot_S10000x10000_S10000x128_S10000x128_1_0_0_1_n_n rfl, transpose_ix2_apply]
  refine congrArg (fun t => (a0 (ix2 j d) + t) * a2 (ix2 c d)) (Finset.sum_congr rfl fun i _ => ?_)
  rw [transpose_ix2_apply]

/-- A feature's mean over the nodes. -/
theorem muT_apply (s : FVec Ideal S10000x32 .f32) (c : Fin 32) :
    muT s (ix1 c) = Ideal.div (∑ j : Fin 10000, s (ix2 j c)) cN := by
  show Ideal.div (Host.reduceAdd s (constant (F := Ideal) S_ .f32 0x00000000#32) reducesTo_S10000x32_S32_d0 h_S_ (ix1 c)) cN = _
  rw [colSum0_apply]

/-- The variance helper's own mean, at the row's one entry for the feature. -/
theorem muRowT_apply (s : FVec Ideal S10000x32 .f32) (u : Fin 1) (c : Fin 32) :
    muRowT s (ix2 u c) = Ideal.div (∑ j : Fin 10000, s (ix2 j c)) cN := by
  show Ideal.div (broadcastInDim S1x32 ![1] bcast_S32_S1x32_1
      (Host.reduceAdd s (constant (F := Ideal) S_ .f32 0x00000000#32) reducesTo_S10000x32_S32_d0 h_S_) (ix2 u c)) cN = _
  rw [inDim_b_1b_apply, colSum0_apply]

/-- The centred features. -/
theorem devT_apply (s : FVec Ideal S10000x32 .f32) (j : Fin 10000) (c : Fin 32) :
    devT s (ix2 j c) = s (ix2 j c) - Ideal.div (∑ j' : Fin 10000, s (ix2 j' c)) cN := by
  unfold devT
  rw [subf_apply, inDim_1b_ab_apply, muRowT_apply]

/-- The variance helper's result: its divisor is the positive word of 10000, so the guarded quotient is the quotient. -/
theorem varT_apply (s : FVec Ideal S10000x32 .f32) (c : Fin 32) :
    varT s (ix1 c) = Ideal.div (∑ j : Fin 10000, devT s (ix2 j c) * devT s (ix2 j c)) cN := by
  unfold varT
  rw [select_apply]
  have hc : broadcastInDim S32 ![] bcast_S_S32 (cmpf .ogt divisorT (constant (F := Ideal) S_ .f32 0x00000000#32)) (ix1 c) = 1#1 := by
    show Ideal.cmp .ogt (divisorT _) (Ideal.ofBits .f32 0x00000000#32) = 1#1
    rw [divisorT_apply, Ideal.ofBits_zero_f32]
    show BitVec.ofBool (decide ((0 : EReal) < cN)) = 1#1
    rw [decide_eq_true cN_pos]; rfl
  rw [hc, select_one]
  show Ideal.div (Host.reduceAdd (mulf (devT s) (devT s)) (constant (F := Ideal) S_ .f32 0x00000000#32)
      reducesTo_S10000x32_S32_d0 h_S_ (ix1 c)) (divisorT _) = _
  rw [colSum0_apply, divisorT_apply]
  rfl

/-- Normalised, scaled, shifted and rectified, at node `j`, feature `c`. -/
theorem rT_apply (s : FVec Ideal S10000x32 .f32) (a4 a5 : FVec Ideal S32 .f32) (j : Fin 10000) (c : Fin 32) :
    rT s a4 a5 (ix2 j c)
      = max (((Ideal.div (s (ix2 j c) - muT s (ix1 c)) (Ideal.sqrt (varT s (ix1 c) + cEps))) * a4 (ix1 c)) + a5 (ix1 c)) cZero := by
  unfold rT
  rw [reluT_apply, addf_apply, mulf_apply, rowsOf_apply, rowsOf_apply]
  show max ((Ideal.div (subf s (rowsOf (muT s)) (ix2 j c))
      (rowsOf (Host.sqrt (addf (varT s) (broadcastInDim S32 ![] bcast_S_S32 (constant (F := Ideal) S_ .f32 0x3727C5AC#32)))) (ix2 j c)))
      * a4 (ix1 c) + a5 (ix1 c)) cZero = _
  rw [subf_apply, rowsOf_apply, rowsOf_apply]
  rfl

/-- The second layer at node `j`, feature `c`. -/
theorem h2T_apply (r : FVec Ideal S10000x32 .f32) (a6 : FVec Ideal S32x32 .f32) (a7 : FVec Ideal S32 .f32)
    (j : Fin 10000) (c : Fin 32) :
    h2T r a6 a7 (ix2 j c) = max ((∑ k : Fin 32, r (ix2 j k) * a6 (ix2 c k)) + a7 (ix1 c)) cZero := by
  unfold h2T
  rw [reluT_apply, addf_apply, rowsOf_apply, InnerProducts.dotGeneral_apply dot_S10000x32_S32x32_S10000x32_1_0_0_1_n_n rfl]
  refine congrArg (fun t => max (t + a7 (ix1 c)) cZero) (Finset.sum_congr rfl fun k _ => ?_)
  rw [transpose_ix2_apply]

/-- The pooled mean, at the row's one entry for the feature. -/
theorem pooledT_apply (h : FVec Ideal S10000x32 .f32) (u : Fin 1) (c : Fin 32) :
    pooledT h (ix2 u c) = Ideal.div (∑ j : Fin 10000, h (ix2 j c)) cN := by
  show Ideal.div (broadcastInDim S1x32 ![1] bcast_S32_S1x32_1
      (Host.reduceAdd h (constant (F := Ideal) S_ .f32 0x00000000#32) reducesTo_S10000x32_S32_d0 h_S_) (ix2 u c)) cN = _
  rw [inDim_b_1b_apply, colSum0_apply]

/-- The last linear map at output `o`. -/
theorem tailT_apply (p : FVec Ideal S1x32 .f32) (a8 : FVec Ideal S128x32 .f32) (a9 : FVec Ideal S128 .f32)
    (u : Fin 1) (o : Fin 128) :
    tailT p a8 a9 (ix2 u o) = (∑ c : Fin 32, p (ix2 u c) * a8 (ix2 o c)) + a9 (ix1 o) := by
  unfold tailT
  rw [addf_apply, inDim_b_1b_apply, InnerProducts.dotGeneral_apply dot_S1x32_S32x128_S1x128_1_0_0_1_n_n rfl]
  refine congrArg (· + a9 (ix1 o)) (Finset.sum_congr rfl fun c _ => ?_)
  rw [transpose_ix2_apply]

/-! ## The composed term is the textbook form -/

section Compose

variable (a0 : FVec Ideal S10000x128 .f32) (a1 : FVec Ideal S10000x10000 .f32) (a2 : FVec Ideal S32x128 .f32)
  (a3 a4 a5 : FVec Ideal S32 .f32) (a6 : FVec Ideal S32x32 .f32) (a7 : FVec Ideal S32 .f32)
  (a8 : FVec Ideal S128x32 .f32) (a9 : FVec Ideal S128 .f32)

/-- The first layer is the specification's. -/
theorem sT_eq (j : Fin 10000) (c : Fin 32) :
    sT a0 a1 a2 a3 (ix2 j c) = sR (Args.ofArrays a0 a1 a2 a3 a4 a5 a6 a7 a8 a9) j c :=
  sT_apply a0 a1 a2 a3 j c

/-- The mean is the specification's. -/
theorem muT_eq (c : Fin 32) :
    muT (sT a0 a1 a2 a3) (ix1 c) = muR (sR (Args.ofArrays a0 a1 a2 a3 a4 a5 a6 a7 a8 a9)) c := by
  rw [muT_apply]
  exact congrArg (Ideal.div · cN) (Finset.sum_congr rfl fun j _ => sT_eq a0 a1 a2 a3 a4 a5 a6 a7 a8 a9 j c)

/-- The variance is the specification's. -/
theorem varT_eq (c : Fin 32) :
    varT (sT a0 a1 a2 a3) (ix1 c) = varR (sR (Args.ofArrays a0 a1 a2 a3 a4 a5 a6 a7 a8 a9)) c := by
  rw [varT_apply]
  refine congrArg (Ideal.div · cN) (Finset.sum_congr rfl fun j _ => ?_)
  have hd : devT (sT a0 a1 a2 a3) (ix2 j c)
      = sR (Args.ofArrays a0 a1 a2 a3 a4 a5 a6 a7 a8 a9) j c - muR (sR (Args.ofArrays a0 a1 a2 a3 a4 a5 a6 a7 a8 a9)) c := by
    rw [devT_apply, ← muT_apply, muT_eq a0 a1 a2 a3 a4 a5 a6 a7 a8 a9 c, sT_eq a0 a1 a2 a3 a4 a5 a6 a7 a8 a9 j c]
  rw [hd]

/-- The normalised, rectified layer is the specification's. -/
theorem rT_eq (j : Fin 10000) (c : Fin 32) :
    rT (sT a0 a1 a2 a3) a4 a5 (ix2 j c)
      = rR (Args.ofArrays a0 a1 a2 a3 a4 a5 a6 a7 a8 a9) (sR (Args.ofArrays a0 a1 a2 a3 a4 a5 a6 a7 a8 a9)) j c := by
  rw [rT_apply, sT_eq a0 a1 a2 a3 a4 a5 a6 a7 a8 a9 j c, muT_eq a0 a1 a2 a3 a4 a5 a6 a7 a8 a9 c,
    varT_eq a0 a1 a2 a3 a4 a5 a6 a7 a8 a9 c]
  rfl

/-- The second layer is the specification's. -/
theorem h2T_eq (j : Fin 10000) (c : Fin 32) :
    h2T (rT (sT a0 a1 a2 a3) a4 a5) a6 a7 (ix2 j c)
      = h2R (Args.ofArrays a0 a1 a2 a3 a4 a5 a6 a7 a8 a9) (sR (Args.ofArrays a0 a1 a2 a3 a4 a5 a6 a7 a8 a9)) j c := by
  rw [h2T_apply]
  refine congrArg (fun t => max (t + a7 (ix1 c)) cZero) (Finset.sum_congr rfl fun k _ => ?_)
  rw [rT_eq a0 a1 a2 a3 a4 a5 a6 a7 a8 a9 j k]
  rfl

/-- The pooled mean is the specification's. -/
theorem pooledT_eq (u : Fin 1) (c : Fin 32) :
    pooledT (h2T (rT (sT a0 a1 a2 a3) a4 a5) a6 a7) (ix2 u c)
      = pooledR (Args.ofArrays a0 a1 a2 a3 a4 a5 a6 a7 a8 a9) (sR (Args.ofArrays a0 a1 a2 a3 a4 a5 a6 a7 a8 a9)) c := by
  rw [pooledT_apply]
  exact congrArg (Ideal.div · cN) (Finset.sum_congr rfl fun j _ => h2T_eq a0 a1 a2 a3 a4 a5 a6 a7 a8 a9 j c)

/-- The composed term is the textbook form's result, as the [1, 128] array. -/
theorem refTerm_eq :
    refTerm a0 a1 a2 a3 a4 a5 a6 a7 a8 a9 = outArr (refOut (Args.ofArrays a0 a1 a2 a3 a4 a5 a6 a7 a8 a9)) := by
  funext i
  obtain ⟨u, o, rfl⟩ : ∃ u o, i = ix2 u o := ⟨i 0, i 1, eq_ix2 i⟩
  show tailT (pooledT (h2T (rT (sT a0 a1 a2 a3) a4 a5) a6 a7)) a8 a9 (ix2 u o)
    = refOut (Args.ofArrays a0 a1 a2 a3 a4 a5 a6 a7 a8 a9) o
  rw [tailT_apply]
  refine congrArg (· + a9 (ix1 o)) (Finset.sum_congr rfl fun c _ => ?_)
  rw [pooledT_eq a0 a1 a2 a3 a4 a5 a6 a7 a8 a9 u c]
  rfl

end Compose

end Cert.GinRef

end
-- ==== Proof.RefRun.lean ====
/-
  The textbook form's program, run.

  The program is a straight line of seventy-three array operations: its own forty-eight, the twenty of the variance
  helper with the three of the selection helper it ends in, and twice the three of the rectifier. Every weakly fair
  execution ends with the result array holding the operations' composed term of the ten argument arrays (the term
  written out stage by stage beforehand), which is the specification's textbook form, and with the arguments
  unchanged.
-/
import proofs.«108040_g76570676953656_cont_sun_m_424_5_alg».proof.Defs
import proofs.«108040_g76570676953656_cont_sun_m_424_5_alg».proof.Proof.Gen.ReferenceIdeal
import proofs.«108040_g76570676953656_cont_sun_m_424_5_alg».proof.Proof.Spec
import proofs.«108040_g76570676953656_cont_sun_m_424_5_alg».proof.Proof.RefTerm
import proofs.«108040_g76570676953656_cont_sun_m_424_5_alg».proof.Proof.RefValue
import Idealize.ShloMosaic.Lib.StableHlo.Run

noncomputable section

namespace Cert.GinRef

open Cert.ReferenceIdeal Cert.ReferenceIdeal.Facts₀ Idealize.ShloMosaic Idealize.ShloMosaic.TcCoe Idealize.SL.Sem
  Idealize.ShloMosaic.StableHlo

variable [hReferenceIdeal : Cert.ReferenceIdeal.Facts]

/-! ## The operations -/

section Ops
variable {F : FTy → Type} [FloatOps F]

/-- The program's seventy-three operations in order, the three helper calls written out at their call sites. -/
abbrev ops : List (HloOp τ sig (Elt F)) :=
  [
    unary main_arg1 main_v0 ((transpose S10000x10000 [1, 0] · transposes_S10000x10000_S10000x10000_1_0) : (⟨S10000x10000, .f32⟩ : BufTy).Contents (Elt F) → (⟨S10000x10000, .f32⟩ : BufTy).Contents (Elt F)),
    binary main_v0 main_arg0 main_v1 ((fun l r => Host.dotGeneral dot_S10000x10000_S10000x128_S10000x128_1_0_0_1_n_n (some .fp32) l r) : (⟨S10000x10000, .f32⟩ : BufTy).Contents (Elt F) → (⟨S10000x128, .f32⟩ : BufTy).Contents (Elt F) → (⟨S10000x128, .f32⟩ : BufTy).Contents (Elt F)),
    binary main_arg0 main_v1 main_v2 (addf : (⟨S10000x128, .f32⟩ : BufTy).Contents (Elt F) → (⟨S10000x128, .f32⟩ : BufTy).Contents (Elt F) → (⟨S10000x128, .f32⟩ : BufTy).Contents (Elt F)),
    unary main_arg2 main_v3 ((transpose S128x32 [1, 0] · transposes_S32x128_S128x32_1_0) : (⟨S32x128, .f32⟩ : BufTy).Contents (Elt F) → (⟨S128x32, .f32⟩ : BufTy).Contents (Elt F)),
    binary main_v2 main_v3 main_v4 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)),
    unary main_arg3 main_v5 (broadcastInDim S1x32 ![1] bcast_S32_S1x32_1 : (⟨S32, .f32⟩ : BufTy).Contents (Elt F) → (⟨S1x32, .f32⟩ : BufTy).Contents (Elt F)),
    unary main_v5 main_v6 (broadcastInDim S10000x32 ![0, 1] bcast_S1x32_S10000x32_0_1 : (⟨S1x32, .f32⟩ : BufTy).Contents (Elt F) → (⟨S10000x32, .f32⟩ : BufTy).Contents (Elt F)),
    binary main_v4 main_v6 main_v7 (addf : (⟨S10000x32, .f32⟩ : BufTy).Contents (Elt F) → (⟨S10000x32, .f32⟩ : BufTy).Contents (Elt F) → (⟨S10000x32, .f32⟩ : BufTy).Contents (Elt F)),
    nullary main_cst (constant S_ .f32 0x00000000#32),
    binary main_v7 main_cst main_v8 ((fun x v => Host.reduceAdd x v reducesTo_S10000x32_S32_d0 h_S_) : (⟨S10000x32, .f32⟩ : BufTy).Contents (Elt F) → (⟨S_, .f32⟩ : BufTy).Contents (Elt F) → (⟨S32, .f32⟩ : BufTy).Contents (Elt F)),
    nullary main_cst_0 (constant S_ .f32 0x461C4000#32),
    unary main_cst_0 main_v9 (broadcastInDim S32 ![] bcast_S_S32 : (⟨S_, .f32⟩ : BufTy).Contents (Elt F) → (⟨S32, .f32⟩ : BufTy).Contents (Elt F)),
    binary main_v8 main_v9 main_v10 (Host.divf : (⟨S32, .f32⟩ : BufTy).Contents (Elt F) → (⟨S32, .f32⟩ : BufTy).Contents (Elt F) → (⟨S32, .f32⟩ : BufTy).Contents (Elt F)),
    nullary main_c (constantI S_ 32 0#32),
    TRef.nullary main_call0.cst (constant S_ .f32 0x00000000#32),
    TRef.binary (.of main_v7 : TRef sig ⟨S10000x32, .f32⟩) main_call0.cst main_call0.v0 (fun x v => Host.reduceAdd x v reducesTo_S10000x32_S32_d0 h_S_),
    TRef.unary main_call0.v0 main_call0.v1 (broadcastInDim S1x32 ![1] bcast_S32_S1x32_1),
    TRef.nullary main_call0.cst_0 (constant S_ .f32 0x461C4000#32),
    TRef.unary main_call0.cst_0 main_call0.v2 (broadcastInDim S1x32 ![] bcast_S_S1x32),
    TRef.binary main_call0.v1 main_call0.v2 main_call0.v3 Host.divf,
    TRef.unary main_call0.v3 main_call0.v4 (broadcastInDim S10000x32 ![0, 1] bcast_S1x32_S10000x32_0_1),
    TRef.binary (.of main_v7 : TRef sig ⟨S10000x32, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x461C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S10000x32_S32_d0 h_S_),
    TRef.unary main_call0.v8 main_call0.v10 (broadcastInDim S32 ![] bcast_S_S32),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S32 ![] bcast_S_S32),
    TRef.ternary main_call0.v12 main_call0.v11 main_call0.call0.v1 main_call0.call0.v2 (fun p a b => select (broadcastInDim S32 ![] bcast_S_S32 p) a b),
    unary main_v10 main_v12 (broadcastInDim S1x32 ![1] bcast_S32_S1x32_1 : (⟨S32, .f32⟩ : BufTy).Contents (Elt F) → (⟨S1x32, .f32⟩ : BufTy).Contents (Elt F)),
    unary main_v12 main_v13 (broadcastInDim S10000x32 ![0, 1] bcast_S1x32_S10000x32_0_1 : (⟨S1x32, .f32⟩ : BufTy).Contents (Elt F) → (⟨S10000x32, .f32⟩ : BufTy).Contents (Elt F)),
    binary main_v7 main_v13 main_v14 (subf : (⟨S10000x32, .f32⟩ : BufTy).Contents (Elt F) → (⟨S10000x32, .f32⟩ : BufTy).Contents (Elt F) → (⟨S10000x32, .f32⟩ : BufTy).Contents (Elt F)),
    nullary main_cst_1 (constant S_ .f32 0x3727C5AC#32),
    unary main_cst_1 main_v15 (broadcastInDim S32 ![] bcast_S_S32 : (⟨S_, .f32⟩ : BufTy).Contents (Elt F) → (⟨S32, .f32⟩ : BufTy).Contents (Elt F)),
    binary main_v11 main_v15 main_v16 (addf : (⟨S32, .f32⟩ : BufTy).Contents (Elt F) → (⟨S32, .f32⟩ : BufTy).Contents (Elt F) → (⟨S32, .f32⟩ : BufTy).Contents (Elt F)),
    unary main_v16 main_v17 (Host.sqrt : (⟨S32, .f32⟩ : BufTy).Contents (Elt F) → (⟨S32, .f32⟩ : BufTy).Contents (Elt F)),
    unary main_v17 main_v18 (broadcastInDim S1x32 ![1] bcast_S32_S1x32_1 : (⟨S32, .f32⟩ : BufTy).Contents (Elt F) → (⟨S1x32, .f32⟩ : BufTy).Contents (Elt F)),
    unary main_v18 main_v19 (broadcastInDim S10000x32 ![0, 1] bcast_S1x32_S10000x32_0_1 : (⟨S1x32, .f32⟩ : BufTy).Contents (Elt F) → (⟨S10000x32, .f32⟩ : BufTy).Contents (Elt F)),
    binary main_v14 main_v19 main_v20 (Host.divf : (⟨S10000x32, .f32⟩ : BufTy).Contents (Elt F) → (⟨S10000x32, .f32⟩ : BufTy).Contents (Elt F) → (⟨S10000x32, .f32⟩ : BufTy).Contents (Elt F)),
    unary main_arg4 main_v21 (broadcastInDim S1x32 ![1] bcast_S32_S1x32_1 : (⟨S32, .f32⟩ : BufTy).Contents (Elt F) → (⟨S1x32, .f32⟩ : BufTy).Contents (Elt F)),
    unary main_v21 main_v22 (broadcastInDim S10000x32 ![0, 1] bcast_S1x32_S10000x32_0_1 : (⟨S1x32, .f32⟩ : BufTy).Contents (Elt F) → (⟨S10000x32, .f32⟩ : BufTy).Contents (Elt F)),
    binary main_v20 main_v22 main_v23 (mulf : (⟨S10000x32, .f32⟩ : BufTy).Contents (Elt F) → (⟨S10000x32, .f32⟩ : BufTy).Contents (Elt F) → (⟨S10000x32, .f32⟩ : BufTy).Contents (Elt F)),
    unary main_arg5 main_v24 (broadcastInDim S1x32 ![1] bcast_S32_S1x32_1 : (⟨S32, .f32⟩ : BufTy).Contents (Elt F) → (⟨S1x32, .f32⟩ : BufTy).Contents (Elt F)),
    unary main_v24 main_v25 (broadcastInDim S10000x32 ![0, 1] bcast_S1x32_S10000x32_0_1 : (⟨S1x32, .f32⟩ : BufTy).Contents (Elt F) → (⟨S10000x32, .f32⟩ : BufTy).Contents (Elt F)),
    binary main_v23 main_v25 main_v26 (addf : (⟨S10000x32, .f32⟩ : BufTy).Contents (Elt F) → (⟨S10000x32, .f32⟩ : BufTy).Contents (Elt F) → (⟨S10000x32, .f32⟩ : BufTy).Contents (Elt F)),
    TRef.nullary main_call1.cst (constant S_ .f32 0x00000000#32),
    TRef.unary main_call1.cst main_call1.v0 (broadcastInDim S10000x32 ![] bcast_S_S10000x32),
    TRef.binary (.of main_v26 : TRef sig ⟨S10000x32, .f32⟩) main_call1.v0 main_call1.v1 maximumf,
    unary main_arg6 main_v28 ((transpose S32x32 [1, 0] · transposes_S32x32_S32x32_1_0) : (⟨S32x32, .f32⟩ : BufTy).Contents (Elt F) → (⟨S32x32, .f32⟩ : BufTy).Contents (Elt F)),
    binary main_v27 main_v28 main_v29 ((fun l r => Host.dotGeneral dot_S10000x32_S32x32_S10000x32_1_0_0_1_n_n none l r) : (⟨S10000x32, .f32⟩ : BufTy).Contents (Elt F) → (⟨S32x32, .f32⟩ : BufTy).Contents (Elt F) → (⟨S10000x32, .f32⟩ : BufTy).Contents (Elt F)),
    unary main_arg7 main_v30 (broadcastInDim S1x32 ![1] bcast_S32_S1x32_1 : (⟨S32, .f32⟩ : BufTy).Contents (Elt F) → (⟨S1x32, .f32⟩ : BufTy).Contents (Elt F)),
    unary main_v30 main_v31 (broadcastInDim S10000x32 ![0, 1] bcast_S1x32_S10000x32_0_1 : (⟨S1x32, .f32⟩ : BufTy).Contents (Elt F) → (⟨S10000x32, .f32⟩ : BufTy).Contents (Elt F)),
    binary main_v29 main_v31 main_v32 (addf : (⟨S10000x32, .f32⟩ : BufTy).Contents (Elt F) → (⟨S10000x32, .f32⟩ : BufTy).Contents (Elt F) → (⟨S10000x32, .f32⟩ : BufTy).Contents (Elt F)),
    TRef.nullary main_call2.cst (constant S_ .f32 0x00000000#32),
    TRef.unary main_call2.cst main_call2.v0 (broadcastInDim S10000x32 ![] bcast_S_S10000x32),
    TRef.binary (.of main_v32 : TRef sig ⟨S10000x32, .f32⟩) main_call2.v0 main_call2.v1 maximumf,
    nullary main_cst_2 (constant S_ .f32 0x00000000#32),
    binary main_v33 main_cst_2 main_v34 ((fun x v => Host.reduceAdd x v reducesTo_S10000x32_S32_d0 h_S_) : (⟨S10000x32, .f32⟩ : BufTy).Contents (Elt F) → (⟨S_, .f32⟩ : BufTy).Contents (Elt F) → (⟨S32, .f32⟩ : BufTy).Contents (Elt F)),
    unary main_v34 main_v35 (broadcastInDim S1x32 ![1] bcast_S32_S1x32_1 : (⟨S32, .f32⟩ : BufTy).Contents (Elt F) → (⟨S1x32, .f32⟩ : BufTy).Contents (Elt F)),
    nullary main_cst_3 (constant S_ .f32 0x461C4000#32),
    unary main_cst_3 main_v36 (broadcastInDim S1x32 ![] bcast_S_S1x32 : (⟨S_, .f32⟩ : BufTy).Contents (Elt F) → (⟨S1x32, .f32⟩ : BufTy).Contents (Elt F)),
    binary main_v35 main_v36 main_v37 (Host.divf : (⟨S1x32, .f32⟩ : BufTy).Contents (Elt F) → (⟨S1x32, .f32⟩ : BufTy).Contents (Elt F) → (⟨S1x32, .f32⟩ : BufTy).Contents (Elt F)),
    unary main_arg8 main_v38 ((transpose S32x128 [1, 0] · transposes_S128x32_S32x128_1_0) : (⟨S128x32, .f32⟩ : BufTy).Contents (Elt F) → (⟨S32x128, .f32⟩ : BufTy).Contents (Elt F)),
    binary main_v37 main_v38 main_v39 ((fun l r => Host.dotGeneral dot_S1x32_S32x128_S1x128_1_0_0_1_n_n none l r) : (⟨S1x32, .f32⟩ : BufTy).Contents (Elt F) → (⟨S32x128, .f32⟩ : BufTy).Contents (Elt F) → (⟨S1x128, .f32⟩ : BufTy).Contents (Elt F)),
    unary main_arg9 main_v40 (broadcastInDim S1x128 ![1] bcast_S128_S1x128_1 : (⟨S128, .f32⟩ : BufTy).Contents (Elt F) → (⟨S1x128, .f32⟩ : BufTy).Contents (Elt F)),
    binary main_v39 main_v40 main_v41 (addf : (⟨S1x128, .f32⟩ : BufTy).Contents (Elt F) → (⟨S1x128, .f32⟩ : BufTy).Contents (Elt F) → (⟨S1x128, .f32⟩ : BufTy).Contents (Elt F)) ]

-- both sides are one chain of seventy-three steps once the helpers' bodies are run into it: by computation
set_option maxRecDepth 8192 in
set_option maxHeartbeats 4000000 in
/-- The program is that straight line: the helpers' definitions unfolded at their calls. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    unary_bufs_sub .., binary_bufs_sub .., binary_bufs_sub .., unary_bufs_sub .., binary_bufs_sub .., unary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    nullary_bufs_sub .., unary_bufs_sub .., binary_bufs_sub .., nullary_bufs_sub .., binary_bufs_sub .., unary_bufs_sub ..,
    nullary_bufs_sub .., unary_bufs_sub .., binary_bufs_sub .., unary_bufs_sub .., binary_bufs_sub .., unary_bufs_sub ..,
    binary_bufs_sub ..⟩

end Ops

/-! ## What the buffers hold after the line -/

-- one pass over seventy-three operations, each buffer told apart from the others
set_option maxHeartbeats 4000000 in
set_option maxRecDepth 8192 in
/-- What the result buffer holds after the line, from any contents: the composed term of the arguments' contents. -/
theorem after_result (V : Valuation τ sig (Elt Ideal)) :
    after (ops (F := Ideal)) V (main_v41 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  after_results_simp
  rfl

/-! No operation writes an argument's buffer. -/

set_option maxHeartbeats 4000000 in
set_option maxRecDepth 8192 in
theorem after_arg0 (V : Valuation τ sig (Elt Ideal)) :
    after (ops (F := Ideal)) V (main_arg0 : DevRef τ sig) = V (main_arg0 : DevRef τ sig) := by
  after_results_simp

set_option maxHeartbeats 4000000 in
set_option maxRecDepth 8192 in
theorem after_arg1 (V : Valuation τ sig (Elt Ideal)) :
    after (ops (F := Ideal)) V (main_arg1 : DevRef τ sig) = V (main_arg1 : DevRef τ sig) := by
  after_results_simp

set_option maxHeartbeats 4000000 in
set_option maxRecDepth 8192 in
theorem after_arg2 (V : Valuation τ sig (Elt Ideal)) :
    after (ops (F := Ideal)) V (main_arg2 : DevRef τ sig) = V (main_arg2 : DevRef τ sig) := by
  after_results_simp

set_option maxHeartbeats 4000000 in
set_option maxRecDepth 8192 in
theorem after_arg3 (V : Valuation τ sig (Elt Ideal)) :
    after (ops (F := Ideal)) V (main_arg3 : DevRef τ sig) = V (main_arg3 : DevRef τ sig) := by
  after_results_simp

set_option maxHeartbeats 4000000 in
set_option maxRecDepth 8192 in
theorem after_arg4 (V : Valuation τ sig (Elt Ideal)) :
    after (ops (F := Ideal)) V (main_arg4 : DevRef τ sig) = V (main_arg4 : DevRef τ sig) := by
  after_results_simp

set_option maxHeartbeats 4000000 in
set_option maxRecDepth 8192 in
theorem after_arg5 (V : Valuation τ sig (Elt Ideal)) :
    after (ops (F := Ideal)) V (main_arg5 : DevRef τ sig) = V (main_arg5 : DevRef τ sig) := by
  after_results_simp

set_option maxHeartbeats 4000000 in
set_option maxRecDepth 8192 in
theorem after_arg6 (V : Valuation τ sig (Elt Ideal)) :
    after (ops (F := Ideal)) V (main_arg6 : DevRef τ sig) = V (main_arg6 : DevRef τ sig) := by
  after_results_simp

set_option maxHeartbeats 4000000 in
set_option maxRecDepth 8192 in
theorem after_arg7 (V : Valuation τ sig (Elt Ideal)) :
    after (ops (F := Ideal)) V (main_arg7 : DevRef τ sig) = V (main_arg7 : DevRef τ sig) := by
  after_results_simp

set_option maxHeartbeats 4000000 in
set_option maxRecDepth 8192 in
theorem after_arg8 (V : Valuation τ sig (Elt Ideal)) :
    after (ops (F := Ideal)) V (main_arg8 : DevRef τ sig) = V (main_arg8 : DevRef τ sig) := by
  after_results_simp

set_option maxHeartbeats 4000000 in
set_option maxRecDepth 8192 in
theorem after_arg9 (V : Valuation τ sig (Elt Ideal)) :
    after (ops (F := Ideal)) V (main_arg9 : DevRef τ sig) = V (main_arg9 : DevRef τ sig) := by
  after_results_simp

/-! ## The run -/

/-- On every device, from any memory with zero counters: every weakly fair execution of the program terminates with
    the result at the composed term of the arguments and the arguments unchanged. -/
theorem run_term (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v41)
        = refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := Ideal)) _ _).mono (fun _ h c => ⟨(h c main_v41).trans (after_result _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _)⟩)
    (run_seq scopedRefs_eq scopedSems_eq defs main (fun _ => ops) main_eq (fun _ => ops_sub) m ρ)

/-- The textbook form's program run to its value: every weakly fair execution terminates with the result array at the
    specification's textbook form of the ten argument arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v41)
          = Cert.GinSpec.outArr (Cert.GinSpec.refOut (Cert.GinSpec.Args.ofArrays
              (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono
    (fun _ h c => ⟨((h c).1).trans (refTerm_eq _ _ _ _ _ _ _ _ _ _), (h c).2⟩)
    (run_term m ρ)

end Cert.GinRef

end
-- ==== Proof.lean ====
/-
  A graph layer over 10000 nodes fused into one streaming pass over the dense adjacency, against its textbook form.

  The streaming form projects the node features first, y = x · W1ᵀ (128 → 32 features), then streams the adjacency in
  25 blocks of 400 rows: block k's projected rows are kept (rows 400·k … 400·k + 399 of a buffer of projections) and
  their contribution z[h, j] += Σ_r y[400·k + r, h] · A[400·k + r, j] is added to an accumulator; the last block's step
  then forms t[h, j] = (y[j, h] + z[h, j]) + b1[h], normalises each feature over the nodes (mean and biased variance,
  multiplied by the reciprocal square root of variance + the f32 word of 1e-5), scales, shifts, rectifies, applies the
  second linear map, rectifies, averages over the nodes and applies the last linear map. The textbook form aggregates
  first, g = Aᵀ · x, takes s = (x + g) · W1ᵀ + b1, and does the same normalisation (dividing by the square root), the
  same two layers and the same average.

  On the extended reals the two agree for real (finite) arguments: t[h, j] = s[j, h] by distributivity and an exchange
  of two finite sums — the one step that needs finiteness —, 25 block sums of 400 terms are the sum over 10000, the
  variance plus a positive word is positive so multiplying by the reciprocal square root is dividing by the square
  root, and everything after is the same expression with the two index orders swapped.

  The kernel's frame is proved once for any float instance and used at both: its body is run in each of its three
  cases (first point, a middle point, the last point) under an invariant that names the accumulator after every point
  and says which rows of the buffer of projections are already projected rows. The reference's run is read off its
  host operations. The idealized kernel is the kernel's own text read at the ideal instance (no rewrite was applied).
-/
import proofs.«108040_g76570676953656_cont_sun_m_424_5_alg».proof.Defs
import proofs.«108040_g76570676953656_cont_sun_m_424_5_alg».proof.Proof.Gen.Kernel
import proofs.«108040_g76570676953656_cont_sun_m_424_5_alg».proof.Proof.Gen.KernelIdeal
import proofs.«108040_g76570676953656_cont_sun_m_424_5_alg».proof.Proof.Gen.ReferenceIdeal
import proofs.«108040_g76570676953656_cont_sun_m_424_5_alg».proof.Proof.Gen.Pre_finite_inputs
import proofs.«108040_g76570676953656_cont_sun_m_424_5_alg».proof.Proof.KBody
import proofs.«108040_g76570676953656_cont_sun_m_424_5_alg».proof.Proof.BBody
import proofs.«108040_g76570676953656_cont_sun_m_424_5_alg».proof.Proof.KValue
import proofs.«108040_g76570676953656_cont_sun_m_424_5_alg».proof.Proof.KFinal
import proofs.«108040_g76570676953656_cont_sun_m_424_5_alg».proof.Proof.RefRun
import proofs.«108040_g76570676953656_cont_sun_m_424_5_alg».proof.Proof.Assemble

noncomputable section

namespace Cert.Proof

open Idealize.ShloMosaic Idealize.SL.Sem

/-- The kernel as printed runs and leaves its arguments unchanged. -/
theorem frame_kernel : Cert.frame_Kernel := fun m ρ _ => Cert.GinKernelBits.frame (F := Bits) m ρ

/-- The idealized kernel runs and leaves its arguments unchanged. -/
theorem frame_kernel_ideal : Cert.frame_KernelIdeal := fun m ρ _ => Cert.GinKernel.frame (F := Ideal) m ρ

/-- The idealized reference runs and leaves its arguments unchanged. -/
theorem frame_reference : Cert.frame_ReferenceIdeal :=
  Cert.GinAssemble.frame_ref_of (fun m ρ => Cert.GinRef.run m ρ)

/-- The idealized kernel ends with the streaming form's result of its arguments. -/
theorem kernel_run : Cert.GinAssemble.KernelRun :=
  Cert.GinKernel.kernel_run_of (fun m ρ => Cert.GinKernel.run_main (F := Ideal) m ρ) (fun m c => Cert.GinKernel.outVal_eq m c)

/-- From memories agreeing on the arguments both idealized programs end with equal results. -/
theorem algebraic : Cert.algebraic_KernelIdeal_ReferenceIdeal :=
  Cert.GinAssemble.algebraic_of kernel_run (fun m ρ => Cert.GinRef.run m ρ)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
